-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S64 .f32) (main_arg13 : FVec F S64 .f32) (main_arg14 : FVec F S64x32 .f32) (main_arg15 : FVec F S32 .f32) (main_arg16 : FVec F S32x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 215
  | .vmem => 51
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x1, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S1x64, .f32⟩
  | 100 => ⟨S1x64, .f32⟩
  | 101 => ⟨S1x64, .f32⟩
  | 102 => ⟨S1x64, .f32⟩
  | 103 => ⟨S100000x64, .f32⟩
  | 104 => ⟨S100000x64, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x128, .f32⟩

abbrev hbmTy0_1 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S1x64, .f32⟩
  | 26 => ⟨S1x64, .f32⟩
  | 27 => ⟨S1x64, .f32⟩
  | 28 => ⟨S100000x64, .f32⟩
  | 29 => ⟨S100000x64, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x64, .f32⟩
  | 39 => ⟨S1700000x1, .f32⟩
  | 40 => ⟨S1700000x64, .f32⟩
  | 41 => ⟨S1700000x64, .f32⟩
  | 42 => ⟨S_, .f32⟩
  | 43 => ⟨S100000x64, .f32⟩
  | 44 => ⟨S1700000x1, .i32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S1x64, .f32⟩
  | 79 => ⟨S1x64, .f32⟩
  | 80 => ⟨S1x64, .f32⟩
  | 81 => ⟨S100000x64, .f32⟩
  | 82 => ⟨S1x32, .f32⟩
  | 83 => ⟨S100000x32, .f32⟩
  | 84 => ⟨S1x1, .f32⟩
  | 85 => ⟨S100000x1, .f32⟩
  | 86 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x32, .f32⟩
  | .local _ .vmem, ⟨42, _⟩ => ⟨S1x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S32x1, .f32⟩
  | .local _ .vmem, ⟨48, _⟩ => ⟨S1x1, .f32⟩
  | .local _ .vmem, ⟨49, _⟩ => ⟨S5000x1, .f32⟩
  | .local _ .vmem, ⟨50, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_10 : Ref sig .tc := ⟨.hbm, 105, rfl⟩
abbrev main_v54 : Ref sig .tc := ⟨.hbm, 106, rfl⟩
abbrev main_v55 : Ref sig .tc := ⟨.hbm, 107, rfl⟩
abbrev main_c_11 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_12 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_13 : Ref sig .tc := ⟨.hbm, 124, rfl⟩
abbrev main_v70 : Ref sig .tc := ⟨.hbm, 125, rfl⟩
abbrev main_cst_14 : Ref sig .tc := ⟨.hbm, 126, rfl⟩
abbrev main_v71 : Ref sig .tc := ⟨.hbm, 127, rfl⟩
abbrev main_v72 : Ref sig .tc := ⟨.hbm, 128, rfl⟩
abbrev main_c_15 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_cst_3 : Ref sig .tc := ⟨.hbm, 146, rfl⟩
abbrev main_call1_v12 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_c_16 : Ref sig .tc := ⟨.hbm, 158, rfl⟩
abbrev main_v80 : Ref sig .tc := ⟨.hbm, 159, rfl⟩
abbrev main_v81 : Ref sig .tc := ⟨.hbm, 160, rfl⟩
abbrev main_c_17 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_cst_18 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_19 : Ref sig .tc := ⟨.hbm, 177, rfl⟩
abbrev main_v96 : Ref sig .tc := ⟨.hbm, 178, rfl⟩
abbrev main_cst_20 : Ref sig .tc := ⟨.hbm, 179, rfl⟩
abbrev main_v97 : Ref sig .tc := ⟨.hbm, 180, rfl⟩
abbrev main_v98 : Ref sig .tc := ⟨.hbm, 181, rfl⟩
abbrev main_c_21 : Ref sig .tc := ⟨.hbm, 182, rfl⟩
abbrev main_call2_cst : Ref sig .tc := ⟨.hbm, 183, rfl⟩
abbrev main_call2_v0 : Ref sig .tc := ⟨.hbm, 184, rfl⟩
abbrev main_call2_v1 : Ref sig .tc := ⟨.hbm, 185, rfl⟩
abbrev main_call2_cst_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_v6 : Ref sig .tc := ⟨.hbm, 191, rfl⟩
abbrev main_call2_v7 : Ref sig .tc := ⟨.hbm, 192, rfl⟩
abbrev main_call2_cst_1 : Ref sig .tc := ⟨.hbm, 193, rfl⟩
abbrev main_call2_v8 : Ref sig .tc := ⟨.hbm, 194, rfl⟩
abbrev main_call2_cst_2 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_cst_3 : Ref sig .tc := ⟨.hbm, 199, rfl⟩
abbrev main_call2_v12 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem3_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x32.size a ≤ S100000x32.size a
  hwx6_3 : ∀ i : grid6.Coords, EltTy.bits .f32 = 32 ∨ (Rect.block (s := S100000x32) S5000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x1.size a ≤ S32x1.size a
  hwx7_1 : ∀ i : grid7.Coords, EltTy.bits .f32 = 32 ∨ (Rect.block (s := S32x1) S32x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S100000x1.size a
  hwx7_3 : ∀ i : grid7.Coords, EltTy.bits .f32 = 32 ∨ (Rect.block (s := S100000x1) S5000x1.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v104) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S5000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v106) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg16) S32x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v107) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108) S5000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 264
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x1, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x64, .f32⟩
  | _ => ⟨S100000x128, .f32⟩

abbrev hbmTy0_1 (i : Nat) : BufTy := match i % 128 with
  | 0 => ⟨S1700000x1, .f32⟩
  | 1 => ⟨S1700000x64, .f32⟩
  | 2 => ⟨S1700000x64, .f32⟩
  | 3 => ⟨S_, .f32⟩
  | 4 => ⟨S100000x64, .f32⟩
  | 5 => ⟨S1700000x1, .i32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x32, .f32⟩
  | 125 => ⟨S1x32, .f32⟩
  | 126 => ⟨S100000x32, .f32⟩
  | 127 => ⟨S100000x32, .f32⟩
  | _ => ⟨S100000x128, .f32⟩

abbrev hbmTy0_2 (i : Nat) : BufTy := match i % 128 with
  | 0 => ⟨S_, .f32⟩
  | 1 => ⟨S100000x32, .f32⟩
  | 2 => ⟨S100000x32, .f32⟩
  | 3 => ⟨S100000x1, .f32⟩
  | 4 => ⟨S1x1, .f32⟩
  | 5 => ⟨S100000x1, .f32⟩
  | 6 => ⟨S100000x1, .f32⟩
  | 7 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_10 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call1_cst : Ref sig .tc := ⟨.hbm, 115, rfl⟩
abbrev main_call1_v0 : Ref sig .tc := ⟨.hbm, 116, rfl⟩
abbrev main_v63 : Ref sig .tc := ⟨.hbm, 117, rfl⟩
abbrev main_v64 : Ref sig .tc := ⟨.hbm, 118, rfl⟩
abbrev main_c_11 : Ref sig .tc := ⟨.hbm, 119, rfl⟩
abbrev main_v65 : Ref sig .tc := ⟨.hbm, 120, rfl⟩
abbrev main_v66 : Ref sig .tc := ⟨.hbm, 121, rfl⟩
abbrev main_c_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_13 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_14 : Ref sig .tc := ⟨.hbm, 138, rfl⟩
abbrev main_v81 : Ref sig .tc := ⟨.hbm, 139, rfl⟩
abbrev main_cst_15 : Ref sig .tc := ⟨.hbm, 140, rfl⟩
abbrev main_v82 : Ref sig .tc := ⟨.hbm, 141, rfl⟩
abbrev main_v83 : Ref sig .tc := ⟨.hbm, 142, rfl⟩
abbrev main_c_16 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_cst_3 : Ref sig .tc := ⟨.hbm, 160, rfl⟩
abbrev main_call2_v12 : Ref sig .tc := ⟨.hbm, 161, rfl⟩
abbrev main_call2_cst_4 : Ref sig .tc := ⟨.hbm, 162, rfl⟩
abbrev main_call2_call0_v0 : Ref sig .tc := ⟨.hbm, 163, rfl⟩
abbrev main_call2_call0_v1 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_17 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_call3_cst : Ref sig .tc := ⟨.hbm, 182, rfl⟩
abbrev main_call3_v0 : Ref sig .tc := ⟨.hbm, 183, rfl⟩
abbrev main_v100 : Ref sig .tc := ⟨.hbm, 184, rfl⟩
abbrev main_v101 : Ref sig .tc := ⟨.hbm, 185, rfl⟩
abbrev main_c_18 : Ref sig .tc := ⟨.hbm, 186, rfl⟩
abbrev main_v102 : Ref sig .tc := ⟨.hbm, 187, rfl⟩
abbrev main_v103 : Ref sig .tc := ⟨.hbm, 188, rfl⟩
abbrev main_c_19 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_20 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_cst_21 : Ref sig .tc := ⟨.hbm, 205, rfl⟩
abbrev main_v118 : Ref sig .tc := ⟨.hbm, 206, rfl⟩
abbrev main_cst_22 : Ref sig .tc := ⟨.hbm, 207, rfl⟩
abbrev main_v119 : Ref sig .tc := ⟨.hbm, 208, rfl⟩
abbrev main_v120 : Ref sig .tc := ⟨.hbm, 209, rfl⟩
abbrev main_c_23 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_cst_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_cst_1 : Ref sig .tc := ⟨.hbm, 221, rfl⟩
abbrev main_call4_v8 : Ref sig .tc := ⟨.hbm, 222, rfl⟩
abbrev main_call4_cst_2 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_cst_3 : Ref sig .tc := ⟨.hbm, 227, rfl⟩
abbrev main_call4_v12 : Ref sig .tc := ⟨.hbm, 228, rfl⟩
abbrev main_call4_cst_4 : Ref sig .tc := ⟨.hbm, 229, rfl⟩
abbrev main_call4_call0_v0 : Ref sig .tc := ⟨.hbm, 230, rfl⟩
abbrev main_call4_call0_v1 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_24 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_call5_cst : Ref sig .tc := ⟨.hbm, 249, rfl⟩
abbrev main_call5_v0 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_call6_cst : Ref sig .tc := ⟨.hbm, 256, rfl⟩
abbrev main_call6_v0 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with every buffer's final contents named: @main is twenty-one segments — stretches of
  host operations and eight kernel regions —, and after the last one each unscoped buffer of a core holds the fold of
  the segments' effects over its launch contents (a stretch rewrites the buffers its operations write; a region leaves
  in each of its output arrays what its grid points wrote back, and every other buffer as it found it).
-/
import proofs.«109477_j27238682591805_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped buffer of
    every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- The same run read at one reference of @main: the result buffer, or an argument. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W21 m ρ c (Proc.devRef .tc b)) :=
  (θ_run defs _ _).mono (fun r h c => h c _ (mem_uc b hb)) (run_all m ρ)

end Cert.KernelIdeal.Whole

end
-- ==== Proof.KernelCarry.lean ====
/-
  Buffers that no segment between two boundaries of the kernel's @main writes keep their contents: the edge lists and
  the normalisation coefficients across the layers, each layer's aggregated features across the reshapes, and each
  argument array from the launch to the segment that reads it.
-/
import proofs.«109477_j27238682591805_1_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A reference none of a stretch's operations writes reads the same after the stretch. -/
macro "host_keep" "[" ops:ident "]" : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

theorem v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keep [hostOps1_2]
    _ = W3 m ρ c (Proc.devRef .tc main_v3) := by host_keep [hostOps1_1]
    _ = W2 m ρ c (Proc.devRef .tc main_v3) := by host_keep [hostOps1]
    _ = W1 m ρ c (Proc.devRef .tc main_v3) := W2_of_ne m ρ c main_v3 (by decide)

theorem v3_12_1 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by host_keep [hostOps3_2]
    _ = W8 m ρ c (Proc.devRef .tc main_v3) := by host_keep [hostOps3_1]
    _ = W7 m ρ c (Proc.devRef .tc main_v3) := by host_keep [hostOps3]
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keep [hostOps1_2]
    _ = W3 m ρ c (Proc.devRef .tc main_v3) := by host_keep [hostOps1_1]
    _ = W2 m ρ c (Proc.devRef .tc main_v3) := by host_keep [hostOps1]
    _ = W1 m ρ c (Proc.devRef .tc main_v3) := W2_of_ne m ρ c main_v3 (by decide)

theorem v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem v6_7_1 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keep [hostOps1_2]
    _ = W3 m ρ c (Proc.devRef .tc main_v6) := by host_keep [hostOps1_1]
    _ = W2 m ρ c (Proc.devRef .tc main_v6) := by host_keep [hostOps1]
    _ = W1 m ρ c (Proc.devRef .tc main_v6) := W2_of_ne m ρ c main_v6 (by decide)

theorem v6_12_1 (c : Dev nD) : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := by host_keep [hostOps3_2]
    _ = W8 m ρ c (Proc.devRef .tc main_v6) := by host_keep [hostOps3_1]
    _ = W7 m ρ c (Proc.devRef .tc main_v6) := by host_keep [hostOps3]
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keep [hostOps1_2]
    _ = W3 m ρ c (Proc.devRef .tc main_v6) := by host_keep [hostOps1_1]
    _ = W2 m ρ c (Proc.devRef .tc main_v6) := by host_keep [hostOps1]
    _ = W1 m ρ c (Proc.devRef .tc main_v6) := W2_of_ne m ρ c main_v6 (by decide)

theorem v26_2_1 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem v26_7_1 (c : Dev nD) : W7 m ρ c (Proc.devRef .tc main_v26) = W1 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := by host_keep [hostOps1_2]
    _ = W3 m ρ c (Proc.devRef .tc main_v26) := by host_keep [hostOps1_1]
    _ = W2 m ρ c (Proc.devRef .tc main_v26) := by host_keep [hostOps1]
    _ = W1 m ρ c (Proc.devRef .tc main_v26) := W2_of_ne m ρ c main_v26 (by decide)

theorem v26_12_1 (c : Dev nD) : W12 m ρ c (Proc.devRef .tc main_v26) = W1 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := W11_of_ne m ρ c main_v26 (by decide)
    _ = W9 m ρ c (Proc.devRef .tc main_v26) := by host_keep [hostOps3_2]
    _ = W8 m ρ c (Proc.devRef .tc main_v26) := by host_keep [hostOps3_1]
    _ = W7 m ρ c (Proc.devRef .tc main_v26) := by host_keep [hostOps3]
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := by host_keep [hostOps1_2]
    _ = W3 m ρ c (Proc.devRef .tc main_v26) := by host_keep [hostOps1_1]
    _ = W2 m ρ c (Proc.devRef .tc main_v26) := by host_keep [hostOps1]
    _ = W1 m ρ c (Proc.devRef .tc main_v26) := W2_of_ne m ρ c main_v26 (by decide)

theorem v43_5_4 (c : Dev nD) : W5 m ρ c (Proc.devRef .tc main_v43) = W4 m ρ c (Proc.devRef .tc main_v43) :=
  calc W5 m ρ c (Proc.devRef .tc main_v43)
    _ = W4 m ρ c (Proc.devRef .tc main_v43) := by host_keep [hostOps1_2]

theorem v69_10_9 (c : Dev nD) : W10 m ρ c (Proc.devRef .tc main_v69) = W9 m ρ c (Proc.devRef .tc main_v69) :=
  calc W10 m ρ c (Proc.devRef .tc main_v69)
    _ = W9 m ρ c (Proc.devRef .tc main_v69) := by host_keep [hostOps3_2]

theorem v95_15_14 (c : Dev nD) : W15 m ρ c (Proc.devRef .tc main_v95) = W14 m ρ c (Proc.devRef .tc main_v95) :=
  calc W15 m ρ c (Proc.devRef .tc main_v95)
    _ = W14 m ρ c (Proc.devRef .tc main_v95) := by host_keep [hostOps5_2]

theorem v104_17_16 (c : Dev nD) : W17 m ρ c (Proc.devRef .tc main_v104) = W16 m ρ c (Proc.devRef .tc main_v104) :=
  calc W17 m ρ c (Proc.devRef .tc main_v104)
    _ = W16 m ρ c (Proc.devRef .tc main_v104) := by host_keep [hostOps6]

theorem v106_19_18 (c : Dev nD) : W19 m ρ c (Proc.devRef .tc main_v106) = W18 m ρ c (Proc.devRef .tc main_v106) :=
  calc W19 m ρ c (Proc.devRef .tc main_v106)
    _ = W18 m ρ c (Proc.devRef .tc main_v106) := by host_keep [hostOps7]

theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep [hostOps0]
    _ = m ((c : Thread nD τ).loc main_arg0) := rfl

theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := by host_keep [hostOps0]
    _ = m ((c : Thread nD τ).loc main_arg2) := rfl

theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keep [hostOps0]
    _ = m ((c : Thread nD τ).loc main_arg3) := rfl

theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := by host_keep [hostOps1_1]
    _ = W2 m ρ c (Proc.devRef .tc main_arg4) := by host_keep [hostOps1]
    _ = W1 m ρ c (Proc.devRef .tc main_arg4) := W2_of_ne m ρ c main_arg4 (by decide)
    _ = W0 m ρ c (Proc.devRef .tc main_arg4) := by host_keep [hostOps0]
    _ = m ((c : Thread nD τ).loc main_arg4) := rfl

theorem arg5_at4 (c : Dev nD) : W4 m ρ c (Proc.devRef .tc main_arg5) = m ((c : Thread nD τ).loc main_arg5) :=
  calc W4 m ρ c (Proc.devRef .tc main_arg5)
    _ = W3 m ρ c (Proc.devRef .tc main_arg5) := by host_keep [hostOps1_1]
    _ = W2 m ρ c (Proc.devRef .tc main_arg5) := by host_keep [hostOps1]
    _ = W1 m ρ c (Proc.devRef .tc main_arg5) := W2_of_ne m ρ c main_arg5 (by decide)
    _ = W0 m ρ c (Proc.devRef .tc main_arg5) := by host_keep [hostOps0]
    _ = m ((c : Thread nD τ).loc main_arg5) := rfl

theorem arg6_at6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep [hostOps1_2]
    _ = W3 m ρ c (Proc.devRef .tc main_arg6) := by host_keep [hostOps1_1]
    _ = W2 m ρ c (Proc.devRef .tc main_arg6) := by host_keep [hostOps1]
    _ = W1 m ρ c (Proc.devRef .tc main_arg6) := W2_of_ne m ρ c main_arg6 (by decide)
    _ = W0 m ρ c (Proc.devRef .tc main_arg6) := by host_keep [hostOps0]
    _ = m ((c : Thread nD τ).loc main_arg6) := rfl

theorem arg7_at7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keep [hostOps1_2]
    _ = W3 m ρ c (Proc.devRef .tc main_arg7) := by host_keep [hostOps1_1]
    _ = W2 m ρ c (Proc.devRef .tc main_arg7) := by host_keep [hostOps1]
    _ = W1 m ρ c (Proc.devRef .tc main_arg7) := W2_of_ne m ρ c main_arg7 (by decide)
    _ = W0 m ρ c (Proc.devRef .tc main_arg7) := by host_keep [hostOps0]
    _ = m ((c : Thread nD τ).loc main_arg7) := rfl

theorem arg8_at9 (c : Dev nD) : W9 m ρ c (Proc.devRef .tc main_arg8) = m ((c : Thread nD τ).loc main_arg8) :=
  calc W9 m ρ c (Proc.devRef .tc main_arg8)
    _ = W8 m ρ c (Proc.devRef .tc main_arg8) := by host_keep [hostOps3_1]
    _ = W7 m ρ c (Proc.devRef .tc main_arg8) := by host_keep [hostOps3]
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keep [hostOps1_2]
    _ = W3 m ρ c (Proc.devRef .tc main_arg8) := by host_keep [hostOps1_1]
    _ = W2 m ρ c (Proc.devRef .tc main_arg8) := by host_keep [hostOps1]
    _ = W1 m ρ c (Proc.devRef .tc main_arg8) := W2_of_ne m ρ c main_arg8 (by decide)
    _ = W0 m ρ c (Proc.devRef .tc main_arg8) := by host_keep [hostOps0]
    _ = m ((c : Thread nD τ).loc main_arg8) := rfl

theorem arg9_at9 (c : Dev nD) : W9 m ρ c (Proc.devRef .tc main_arg9) = m ((c : Thread nD τ).loc main_arg9) :=
  calc W9 m ρ c (Proc.devRef .tc main_arg9)
    _ = W8 m ρ c (Proc.devRef .tc main_arg9) := by host_keep [hostOps3_1]
    _ = W7 m ρ c (Proc.devRef .tc main_arg9) := by host_keep [hostOps3]
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keep [hostOps1_2]
    _ = W3 m ρ c (Proc.devRef .tc main_arg9) := by host_keep [hostOps1_1]
    _ = W2 m ρ c (Proc.devRef .tc main_arg9) := by host_keep [hostOps1]
    _ = W1 m ρ c (Proc.devRef .tc main_arg9) := W2_of_ne m ρ c main_arg9 (by decide)
    _ = W0 m ρ c (Proc.devRef .tc main_arg9) := by host_keep [hostOps0]
    _ = m ((c : Thread nD τ).loc main_arg9) := rfl

theorem arg10_at11 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_keep [hostOps3_2]
    _ = W8 m ρ c (Proc.devRef .tc main_arg10) := by host_keep [hostOps3_1]
    _ = W7 m ρ c (Proc.devRef .tc main_arg10) := by host_keep [hostOps3]
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keep [hostOps1_2]
    _ = W3 m ρ c (Proc.devRef .tc main_arg10) := by host_keep [hostOps1_1]
    _ = W2 m ρ c (Proc.devRef .tc main_arg10) := by host_keep [hostOps1]
    _ = W1 m ρ c (Proc.devRef .tc main_arg10) := W2_of_ne m ρ c main_arg10 (by decide)
    _ = W0 m ρ c (Proc.devRef .tc main_arg10) := by host_keep [hostOps0]
    _ = m ((c : Thread nD τ).loc main_arg10) := rfl

theorem arg11_at12 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := by host_keep [hostOps3_2]
    _ = W8 m ρ c (Proc.devRef .tc main_arg11) := by host_keep [hostOps3_1]
    _ = W7 m ρ c (Proc.devRef .tc main_arg11) := by host_keep [hostOps3]
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by host_keep [hostOps1_2]
    _ = W3 m ρ c (Proc.devRef .tc main_arg11) := by host_keep [hostOps1_1]
    _ = W2 m ρ c (Proc.devRef .tc main_arg11) := by host_keep [hostOps1]
    _ = W1 m ρ c (Proc.devRef .tc main_arg11) := W2_of_ne m ρ c main_arg11 (by decide)
    _ = W0 m ρ c (Proc.devRef .tc main_arg11) := by host_keep [hostOps0]
    _ = m ((c : Thread nD τ).loc main_arg11) := rfl

theorem arg12_at14 (c : Dev nD) : W14 m ρ c (Proc.devRef .tc main_arg12) = m ((c : Thread nD τ).loc main_arg12) :=
  calc W14 m ρ c (Proc.devRef .tc main_arg12)
    _ = W13 m ρ c (Proc.devRef .tc main_arg12) := by host_keep [hostOps5_1]
    _ = W12 m ρ c (Proc.devRef .tc main_arg12) := by host_keep [hostOps5]
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := by host_keep [hostOps3_2]
    _ = W8 m ρ c (Proc.devRef .tc main_arg12) := by host_keep [hostOps3_1]
    _ = W7 m ρ c (Proc.devRef .tc main_arg12) := by host_keep [hostOps3]
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by host_keep [hostOps1_2]
    _ = W3 m ρ c (Proc.devRef .tc main_arg12) := by host_keep [hostOps1_1]
    _ = W2 m ρ c (Proc.devRef .tc main_arg12) := by host_keep [hostOps1]
    _ = W1 m ρ c (Proc.devRef .tc main_arg12) := W2_of_ne m ρ c main_arg12 (by decide)
    _ = W0 m ρ c (Proc.devRef .tc main_arg12) := by host_keep [hostOps0]
    _ = m ((c : Thread nD τ).loc main_arg12) := rfl

theorem arg13_at14 (c : Dev nD) : W14 m ρ c (Proc.devRef .tc main_arg13) = m ((c : Thread nD τ).loc main_arg13) :=
  calc W14 m ρ c (Proc.devRef .tc main_arg13)
    _ = W13 m ρ c (Proc.devRef .tc main_arg13) := by host_keep [hostOps5_1]
    _ = W12 m ρ c (Proc.devRef .tc main_arg13) := by host_keep [hostOps5]
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := by host_keep [hostOps3_2]
    _ = W8 m ρ c (Proc.devRef .tc main_arg13) := by host_keep [hostOps3_1]
    _ = W7 m ρ c (Proc.devRef .tc main_arg13) := by host_keep [hostOps3]
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by host_keep [hostOps1_2]
    _ = W3 m ρ c (Proc.devRef .tc main_arg13) := by host_keep [hostOps1_1]
    _ = W2 m ρ c (Proc.devRef .tc main_arg13) := by host_keep [hostOps1]
    _ = W1 m ρ c (Proc.devRef .tc main_arg13) := W2_of_ne m ρ c main_arg13 (by decide)
    _ = W0 m ρ c (Proc.devRef .tc main_arg13) := by host_keep [hostOps0]
    _ = m ((c : Thread nD τ).loc main_arg13) := rfl

theorem arg14_at17 (c : Dev nD) : W17 m ρ c (Proc.devRef .tc main_arg14) = m ((c : Thread nD τ).loc main_arg14) :=
  calc W17 m ρ c (Proc.devRef .tc main_arg14)
    _ = W16 m ρ c (Proc.devRef .tc main_arg14) := by host_keep [hostOps6]
    _ = W15 m ρ c (Proc.devRef .tc main_arg14) := W16_of_ne m ρ c main_arg14 (by decide)
    _ = W14 m ρ c (Proc.devRef .tc main_arg14) := by host_keep [hostOps5_2]
    _ = W13 m ρ c (Proc.devRef .tc main_arg14) := by host_keep [hostOps5_1]
    _ = W12 m ρ c (Proc.devRef .tc main_arg14) := by host_keep [hostOps5]
    _ = W11 m ρ c (Proc.devRef .tc main_arg14) := W12_of_ne m ρ c main_arg14 (by decide)
    _ = W10 m ρ c (Proc.devRef .tc main_arg14) := W11_of_ne m ρ c main_arg14 (by decide)
    _ = W9 m ρ c (Proc.devRef .tc main_arg14) := by host_keep [hostOps3_2]
    _ = W8 m ρ c (Proc.devRef .tc main_arg14) := by host_keep [hostOps3_1]
    _ = W7 m ρ c (Proc.devRef .tc main_arg14) := by host_keep [hostOps3]
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by host_keep [hostOps1_2]
    _ = W3 m ρ c (Proc.devRef .tc main_arg14) := by host_keep [hostOps1_1]
    _ = W2 m ρ c (Proc.devRef .tc main_arg14) := by host_keep [hostOps1]
    _ = W1 m ρ c (Proc.devRef .tc main_arg14) := W2_of_ne m ρ c main_arg14 (by decide)
    _ = W0 m ρ c (Proc.devRef .tc main_arg14) := by host_keep [hostOps0]
    _ = m ((c : Thread nD τ).loc main_arg14) := rfl

theorem arg15_at16 (c : Dev nD) : W16 m ρ c (Proc.devRef .tc main_arg15) = m ((c : Thread nD τ).loc main_arg15) :=
  calc W16 m ρ c (Proc.devRef .tc main_arg15)
    _ = W15 m ρ c (Proc.devRef .tc main_arg15) := W16_of_ne m ρ c main_arg15 (by decide)
    _ = W14 m ρ c (Proc.devRef .tc main_arg15) := by host_keep [hostOps5_2]
    _ = W13 m ρ c (Proc.devRef .tc main_arg15) := by host_keep [hostOps5_1]
    _ = W12 m ρ c (Proc.devRef .tc main_arg15) := by host_keep [hostOps5]
    _ = W11 m ρ c (Proc.devRef .tc main_arg15) := W12_of_ne m ρ c main_arg15 (by decide)
    _ = W10 m ρ c (Proc.devRef .tc main_arg15) := W11_of_ne m ρ c main_arg15 (by decide)
    _ = W9 m ρ c (Proc.devRef .tc main_arg15) := by host_keep [hostOps3_2]
    _ = W8 m ρ c (Proc.devRef .tc main_arg15) := by host_keep [hostOps3_1]
    _ = W7 m ρ c (Proc.devRef .tc main_arg15) := by host_keep [hostOps3]
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by host_keep [hostOps1_2]
    _ = W3 m ρ c (Proc.devRef .tc main_arg15) := by host_keep [hostOps1_1]
    _ = W2 m ρ c (Proc.devRef .tc main_arg15) := by host_keep [hostOps1]
    _ = W1 m ρ c (Proc.devRef .tc main_arg15) := W2_of_ne m ρ c main_arg15 (by decide)
    _ = W0 m ρ c (Proc.devRef .tc main_arg15) := by host_keep [hostOps0]
    _ = m ((c : Thread nD τ).loc main_arg15) := rfl

theorem arg16_at19 (c : Dev nD) : W19 m ρ c (Proc.devRef .tc main_arg16) = m ((c : Thread nD τ).loc main_arg16) :=
  calc W19 m ρ c (Proc.devRef .tc main_arg16)
    _ = W18 m ρ c (Proc.devRef .tc main_arg16) := by host_keep [hostOps7]
    _ = W17 m ρ c (Proc.devRef .tc main_arg16) := W18_of_ne m ρ c main_arg16 (by decide)
    _ = W16 m ρ c (Proc.devRef .tc main_arg16) := by host_keep [hostOps6]
    _ = W15 m ρ c (Proc.devRef .tc main_arg16) := W16_of_ne m ρ c main_arg16 (by decide)
    _ = W14 m ρ c (Proc.devRef .tc main_arg16) := by host_keep [hostOps5_2]
    _ = W13 m ρ c (Proc.devRef .tc main_arg16) := by host_keep [hostOps5_1]
    _ = W12 m ρ c (Proc.devRef .tc main_arg16) := by host_keep [hostOps5]
    _ = W11 m ρ c (Proc.devRef .tc main_arg16) := W12_of_ne m ρ c main_arg16 (by decide)
    _ = W10 m ρ c (Proc.devRef .tc main_arg16) := W11_of_ne m ρ c main_arg16 (by decide)
    _ = W9 m ρ c (Proc.devRef .tc main_arg16) := by host_keep [hostOps3_2]
    _ = W8 m ρ c (Proc.devRef .tc main_arg16) := by host_keep [hostOps3_1]
    _ = W7 m ρ c (Proc.devRef .tc main_arg16) := by host_keep [hostOps3]
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := by host_keep [hostOps1_2]
    _ = W3 m ρ c (Proc.devRef .tc main_arg16) := by host_keep [hostOps1_1]
    _ = W2 m ρ c (Proc.devRef .tc main_arg16) := by host_keep [hostOps1]
    _ = W1 m ρ c (Proc.devRef .tc main_arg16) := W2_of_ne m ρ c main_arg16 (by decide)
    _ = W0 m ρ c (Proc.devRef .tc main_arg16) := by host_keep [hostOps0]
    _ = m ((c : Thread nD τ).loc main_arg16) := rfl

theorem arg17_at18 (c : Dev nD) : W18 m ρ c (Proc.devRef .tc main_arg17) = m ((c : Thread nD τ).loc main_arg17) :=
  calc W18 m ρ c (Proc.devRef .tc main_arg17)
    _ = W17 m ρ c (Proc.devRef .tc main_arg17) := W18_of_ne m ρ c main_arg17 (by decide)
    _ = W16 m ρ c (Proc.devRef .tc main_arg17) := by host_keep [hostOps6]
    _ = W15 m ρ c (Proc.devRef .tc main_arg17) := W16_of_ne m ρ c main_arg17 (by decide)
    _ = W14 m ρ c (Proc.devRef .tc main_arg17) := by host_keep [hostOps5_2]
    _ = W13 m ρ c (Proc.devRef .tc main_arg17) := by host_keep [hostOps5_1]
    _ = W12 m ρ c (Proc.devRef .tc main_arg17) := by host_keep [hostOps5]
    _ = W11 m ρ c (Proc.devRef .tc main_arg17) := W12_of_ne m ρ c main_arg17 (by decide)
    _ = W10 m ρ c (Proc.devRef .tc main_arg17) := W11_of_ne m ρ c main_arg17 (by decide)
    _ = W9 m ρ c (Proc.devRef .tc main_arg17) := by host_keep [hostOps3_2]
    _ = W8 m ρ c (Proc.devRef .tc main_arg17) := by host_keep [hostOps3_1]
    _ = W7 m ρ c (Proc.devRef .tc main_arg17) := by host_keep [hostOps3]
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := by host_keep [hostOps1_2]
    _ = W3 m ρ c (Proc.devRef .tc main_arg17) := by host_keep [hostOps1_1]
    _ = W2 m ρ c (Proc.devRef .tc main_arg17) := by host_keep [hostOps1]
    _ = W1 m ρ c (Proc.devRef .tc main_arg17) := W2_of_ne m ρ c main_arg17 (by decide)
    _ = W0 m ρ c (Proc.devRef .tc main_arg17) := by host_keep [hostOps0]
    _ = m ((c : Thread nD τ).loc main_arg17) := rfl

end Cert.KernelIdeal.Carry

end
-- ==== Proof.Spec.lean ====
/-
  The dense stages of the network as whole-array functions, spelled with the host operations of the reference:
  a linear layer is one contraction of the activations' columns with the weights' rows; the normalisation stage
  subtracts the column means, scales by the inverse square root of the column variances plus epsilon, applies the
  affine pair and clamps at zero; the two head layers add a bias row (the first also clamps at zero).
-/
import proofs.«109477_j27238682591805_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- x · w for x : [100000,128], w : [128,64]. -/
def lin128 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- x · w for x : [100000,64], w : [64,64]. -/
def lin64 (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- x · w for x : [100000,64], w : [64,32]. -/
def lin32 (x : (⟨S100000x64, .f32⟩ : BufTy).Contents (Elt F)) (w : (⟨S64x32, .f32⟩ : BufTy).Contents (Elt F)) :
    (⟨S100000x32, .f32⟩ : BufTy).Contents (Elt F) :=
  Host.dotGeneral dot_S100000x64_S64x32_S100000x32_1_0_0_1_n_n none x w

/-- x · w for x : [100000,32], w : [32,1]. -/
def lin1 (x : (⟨S100000x32, .f32⟩ : BufTy).Contents (Elt F)) (w : (⟨S32x1, .f32⟩ : BufTy).Contents (Elt F)) :
    (⟨S100000x1, .f32⟩ : BufTy).Contents (Elt F) :=
  Host.dotGeneral dot_S100000x32_S32x1_S100000x1_1_0_0_1_n_n none x w

/-- A length-64 vector as a row, repeated down the 100000 rows. -/
def rows64 (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- max(((a − mean) · rsqrt(var + ε)) · g + bt, 0), column statistics and affine pair broadcast down the rows. -/
def bn (a : (⟨S100000x64, .f32⟩ : BufTy).Contents (Elt F)) (mu vr g bt : (⟨S64, .f32⟩ : BufTy).Contents (Elt F)) :
    (⟨S100000x64, .f32⟩ : BufTy).Contents (Elt F) :=
  maximumf
    (addf (mulf (mulf (subf a (rows64 mu))
        (rows64 (Host.rsqrt (addf vr (broadcastInDim S64 ![] bcast_S_S64 (constant S_ .f32 0x3727C5AC#32))))))
      (rows64 g)) (rows64 bt))
    (broadcastInDim S100000x64 ![] bcast_S_S100000x64 (constant S_ .f32 0x00000000#32))

/-- max(h · w + b, 0) with b : [32] broadcast down the rows. -/
def head1 (h : (⟨S100000x64, .f32⟩ : BufTy).Contents (Elt F)) (w : (⟨S64x32, .f32⟩ : BufTy).Contents (Elt F))
    (b : (⟨S32, .f32⟩ : BufTy).Contents (Elt F)) : (⟨S100000x32, .f32⟩ : BufTy).Contents (Elt F) :=
  maximumf
    (addf (lin32 h w) (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- h · w + b with b : [1] broadcast down the rows. -/
def head2 (h : (⟨S100000x32, .f32⟩ : BufTy).Contents (Elt F)) (w : (⟨S32x1, .f32⟩ : BufTy).Contents (Elt F))
    (b : (⟨S1, .f32⟩ : BufTy).Contents (Elt F)) : (⟨S100000x1, .f32⟩ : BufTy).Contents (Elt F) :=
  addf (lin1 h w) (broadcastInDim S100000x1 ![0, 1] bcast_S1x1_S100000x1_0_1 (broadcastInDim S1x1 ![1] bcast_S1_S1x1_1 b))

end Cert.Spec

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.RegionsLinear.lean ====
/-
  Regions 0, 2 and 4: the three linear layers, x · w with x : [100000,128] and w : [128,64] in the first and
  x : [100000,64] and w : [64,64] in the other two.

  The grid has 20 points. Point t stages rows 5000 t … 5000 t + 4999 of x and the whole of w, multiplies the two
  blocks into a zero accumulator (the narrowing to bf16 is the identity on extended reals) and writes the product
  back to rows 5000 t … 5000 t + 4999 of the result. Entry (p, q) of the block product is the sum over k of
  x (5000 t + p, k) · w (k, q), which is entry (5000 t + p, q) of the host contraction of the specification; every
  row r of the result lies in the block of point r / 5000, so the result array is that contraction.
-/
import proofs.«109477_j27238682591805_1_alg».proof.Proof.Spec
import proofs.«109477_j27238682591805_1_alg».proof.Proof.Gen.KernelIdeal.Frame
import proofs.«109477_j27238682591805_1_alg».proof.Proof.LibDenseLayers
import proofs.«109477_j27238682591805_1_alg».proof.Proof.LibHostMatmul
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, in the form the rectangle lemmas take. -/
private theorem zeroOffsets : (![0, 0] : Fin 2 → Nat) = fun _ => 0 := funext fun a => by fin_cases a <;> rfl

/-- An index of a rank-2 array is determined by its two coordinates. -/
private theorem index2_eq {n0 n1 : Nat} (i : (⟨2, ![n0, n1]⟩ : Shape).Idx) (a : Fin n0) (b : Fin n1)
    (h0 : (i 0).val = a.val) (h1 : (i 1).val = b.val) : i = ix2 a b :=
  funext fun d => match d with
    | ⟨0, _⟩ => Fin.ext h0
    | ⟨1, _⟩ => Fin.ext h1

/-! ## The specification's contractions at an entry -/

/-- x · w for 128 columns at an entry: the sum over the contracted coordinate. -/
theorem lin128_apply (X : FVec Ideal S100000x128 .f32) (W : FVec Ideal S128x64 .f32) (r : Fin 100000) (q : Fin 64) :
    Cert.Spec.lin128 (F := Ideal) X W (ix2 r q) = ∑ k : Fin 128, X (ix2 r k) * W (ix2 k q) := by
  unfold Cert.Spec.lin128
  exact DenseLayers.dotGeneral_rowcol_apply (m := 100000) (k := 128) (n := 64)
    Cert.ReferenceIdeal.Facts₀.dot_S100000x128_S128x64_S100000x64_1_0_0_1_n_n_wf none X W r q

/-- x · w for 64 columns at an entry: the sum over the contracted coordinate. -/
theorem lin64_apply (X : FVec Ideal S100000x64 .f32) (W : FVec Ideal S64x64 .f32) (r : Fin 100000) (q : Fin 64) :
    Cert.Spec.lin64 (F := Ideal) X W (ix2 r q) = ∑ k : Fin 64, X (ix2 r k) * W (ix2 k q) := by
  unfold Cert.Spec.lin64
  exact DenseLayers.dotGeneral_rowcol_apply (m := 100000) (k := 64) (n := 64)
    Cert.ReferenceIdeal.Facts₀.dot_S100000x64_S64x64_S100000x64_1_0_0_1_n_n_wf none X W r q

/-! ## Region 0 -/

/-- The index maps over the 20 grid points: the activations' and the result's blocks move down the rows with the
    point, the weights' block stays at the origin. -/
theorem indexMaps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product at an entry: the sum over the 128 contracted coordinates. -/
theorem blockProduct0_apply (x0 : FVec Ideal S5000x128 .f32) (x1 : FVec Ideal S128x64 .f32) (p : Fin 5000) (q : Fin 64) :
    k0_pay1 (F := Ideal) x0 x1 (ix2 p q) = ∑ k : Fin 128, x0 (ix2 p k) * x1 (ix2 k q) := by
  unfold k0_pay1
  exact DenseLayers.matmul_rowcol_zero_apply (m := 5000) (k := 128) (n := 64)
    Facts₀.dot_S5000x128_S128x64_S5000x64_1_0_0_1_n_n_wf none
    (truncf .bf16 x0 Facts₀.bitsLt_bf16_f32) (truncf .bf16 x1 Facts₀.bitsLt_bf16_f32) p q

/-- A block product whose row p is row r of the activations and whose second operand is the weights is, along
    that row, the specification's contraction along row r. -/
theorem blockProduct0_eq_lin128 (X : FVec Ideal S100000x128 .f32) (W : FVec Ideal S128x64 .f32)
    (x0 : FVec Ideal S5000x128 .f32) (x1 : FVec Ideal S128x64 .f32) (r : Fin 100000) (p : Fin 5000) (q : Fin 64)
    (h0 : ∀ k : Fin 128, x0 (ix2 p k) = X (ix2 r k)) (h1 : ∀ k : Fin 128, x1 (ix2 k q) = W (ix2 k q)) :
    k0_pay1 (F := Ideal) x0 x1 (ix2 p q) = Cert.Spec.lin128 (F := Ideal) X W (ix2 r q) := by
  rw [blockProduct0_apply, lin128_apply]
  exact Finset.sum_congr rfl fun k _ => by rw [h0 k, h1 k]

/-- The activations' block at point t: its row p is row 5000 t + p of the array. -/
theorem rows0_apply (c : Dev nD) (t : Fin cfg0.N) (p : Fin 5000) (k : Fin 128) (r : Fin 100000)
    (hr : r.val = t.val * 5000 + p.val) :
    (iblk0 V c 0 t : Vec Ideal S5000x128 .f32) (ix2 p k)
      = (V c main_arg0 : S100000x128.Idx → Elt Ideal .f32) (ix2 r k) := by
  obtain ⟨e0, e1, -⟩ := indexMaps0 t
  have h0 : (((win0_0.rect t).emb (ix2 p k)) (0 : Fin 2) : Nat) = r.val :=
    (win0_0.rect_emb_val t (ix2 p k) (0 : Fin 2)).trans (by
      show win0_0.index t (0 : Fin 2) * 5000 + p.val = r.val
      rw [e0, hr])
  have h1 : (((win0_0.rect t).emb (ix2 p k)) (1 : Fin 2) : Nat) = k.val :=
    (win0_0.rect_emb_val t (ix2 p k) (1 : Fin 2)).trans (by
      show win0_0.index t (1 : Fin 2) * 128 + k.val = k.val
      rw [e1, Nat.zero_mul, Nat.zero_add])
  exact congrArg (V c main_arg0) (index2_eq (n0 := 100000) (n1 := 128) _ r k h0 h1)

/-- The weights' block at every point is the whole weight matrix. -/
theorem weights0_apply (c : Dev nD) (t : Fin cfg0.N) (k : Fin 128) (q : Fin 64) :
    (iblk0 V c 1 t : Vec Ideal S128x64 .f32) (ix2 k q)
      = (V c main_arg2 : S128x64.Idx → Elt Ideal .f32) (ix2 k q) := by
  obtain ⟨-, -, e2, e3, -⟩ := indexMaps0 t
  have h0 : (((win0_1.rect t).emb (ix2 k q)) (0 : Fin 2) : Nat) = k.val :=
    (win0_1.rect_emb_val t (ix2 k q) (0 : Fin 2)).trans (by
      show win0_1.index t (0 : Fin 2) * 128 + k.val = k.val
      rw [e2, Nat.zero_mul, Nat.zero_add])
  have h1 : (((win0_1.rect t).emb (ix2 k q)) (1 : Fin 2) : Nat) = q.val :=
    (win0_1.rect_emb_val t (ix2 k q) (1 : Fin 2)).trans (by
      show win0_1.index t (1 : Fin 2) * 64 + q.val = q.val
      rw [e3, Nat.zero_mul, Nat.zero_add])
  exact congrArg (V c main_arg2) (index2_eq (n0 := 128) (n1 := 64) _ k q h0 h1)

/-- What point t writes back is block t of the specification's contraction of the arrays the region finds. -/
theorem flushed0_eq (c : Dev nD) (t : Fin cfg0.N) :
    (dat0 V c).flushed 2 t
      = ((cfg0.win 2).blk t).view.read (Elt Ideal) (Cert.Spec.lin128 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  funext j
  obtain ⟨p, q, rfl⟩ : ∃ (p : Fin 5000) (q : Fin 64), j = ix2 p q := ⟨j 0, j 1, eq_ix2 j⟩
  obtain ⟨-, -, -, -, e4, e5⟩ := indexMaps0 t
  have ht : t.val < 20 := lt_of_lt_of_eq t.isLt N_0
  have hr : t.val * 5000 + p.val < 100000 := by have := p.isLt; omega
  have hemb : ((cfg0.win 2).blk t).view.emb (ix2 p q) = ix2 (⟨t.val * 5000 + p.val, hr⟩ : Fin 100000) q := by
    funext a
    apply Fin.ext
    match a with
    | ⟨0, _⟩ => show win0_2.index t 0 * 5000 + 1 * p.val = t.val * 5000 + p.val; rw [e4]; omega
    | ⟨1, _⟩ => show win0_2.index t 1 * 64 + 1 * q.val = q.val; rw [e5]; omega
  show k0_pay1 (F := Ideal) (iblk0 V c 0 t) (iblk0 V c 1 t) (ix2 p q)
    = Cert.Spec.lin128 (F := Ideal) (V c main_arg0) (V c main_arg2) (((cfg0.win 2).blk t).view.emb (ix2 p q))
  rw [hemb]
  exact blockProduct0_eq_lin128 (V c main_arg0) (V c main_arg2) (iblk0 V c 0 t) (iblk0 V c 1 t) ⟨t.val * 5000 + p.val, hr⟩ p q
    (fun k => rows0_apply V c t p k ⟨t.val * 5000 + p.val, hr⟩ rfl) (fun k => weights0_apply V c t k q)

/-- An index of the result lies in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Row r of the result lies in the block of point r / 5000, which is written back. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := indexMaps0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val ∧ (i 1).val < win0_2.index ⟨(i 0).val / 5000, ht⟩ 1 * 64 + 64
    rw [e5]; omega

/-- The result array after region 0 is the specification's contraction of the arrays the region finds. -/
theorem final0 (c : Dev nD) :
    (dat0 V c).arrAt 2 cfg0.N = Cert.Spec.lin128 (F := Ideal) (V c main_arg0) (V c main_arg2) :=
  (dat0 V c).arrAt_eq_of_cover 2 (Cert.Spec.lin128 (F := Ideal) (V c main_arg0) (V c main_arg2))
    (fun t _ => flushed0_eq V c t) covered0

/-! ## Region 2 -/

/-- The index maps over the 20 grid points: the activations' and the result's blocks move down the rows with the
    point, the weights' block stays at the origin. -/
theorem indexMaps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block product at an entry: the sum over the 64 contracted coordinates. -/
theorem blockProduct2_apply (x0 : FVec Ideal S5000x64 .f32) (x1 : FVec Ideal S64x64 .f32) (p : Fin 5000) (q : Fin 64) :
    k2_pay1 (F := Ideal) x0 x1 (ix2 p q) = ∑ k : Fin 64, x0 (ix2 p k) * x1 (ix2 k q) := by
  unfold k2_pay1
  simp only [shapeCast_self]
  exact DenseLayers.matmul_rowcol_zero_apply (m := 5000) (k := 64) (n := 64)
    Facts₀.dot_S5000x64_S64x64_S5000x64_1_0_0_1_n_n_wf none
    (truncf .bf16 x0 Facts₀.bitsLt_bf16_f32) (truncf .bf16 x1 Facts₀.bitsLt_bf16_f32) p q

/-- A block product whose row p is row r of the activations and whose second operand is the weights is, along
    that row, the specification's contraction along row r. -/
theorem blockProduct2_eq_lin64 (X : FVec Ideal S100000x64 .f32) (W : FVec Ideal S64x64 .f32)
    (x0 : FVec Ideal S5000x64 .f32) (x1 : FVec Ideal S64x64 .f32) (r : Fin 100000) (p : Fin 5000) (q : Fin 64)
    (h0 : ∀ k : Fin 64, x0 (ix2 p k) = X (ix2 r k)) (h1 : ∀ k : Fin 64, x1 (ix2 k q) = W (ix2 k q)) :
    k2_pay1 (F := Ideal) x0 x1 (ix2 p q) = Cert.Spec.lin64 (F := Ideal) X W (ix2 r q) := by
  rw [blockProduct2_apply, lin64_apply]
  exact Finset.sum_congr rfl fun k _ => by rw [h0 k, h1 k]

/-- The activations' block at point t: its row p is row 5000 t + p of the array. -/
theorem rows2_apply (c : Dev nD) (t : Fin cfg2.N) (p : Fin 5000) (k : Fin 64) (r : Fin 100000)
    (hr : r.val = t.val * 5000 + p.val) :
    (iblk2 V c 0 t : Vec Ideal S5000x64 .f32) (ix2 p k)
      = (V c main_v52 : S100000x64.Idx → Elt Ideal .f32) (ix2 r k) := by
  obtain ⟨e0, e1, -⟩ := indexMaps2 t
  have h0 : (((win2_0.rect t).emb (ix2 p k)) (0 : Fin 2) : Nat) = r.val :=
    (win2_0.rect_emb_val t (ix2 p k) (0 : Fin 2)).trans (by
      show win2_0.index t (0 : Fin 2) * 5000 + p.val = r.val
      rw [e0, hr])
  have h1 : (((win2_0.rect t).emb (ix2 p k)) (1 : Fin 2) : Nat) = k.val :=
    (win2_0.rect_emb_val t (ix2 p k) (1 : Fin 2)).trans (by
      show win2_0.index t (1 : Fin 2) * 64 + k.val = k.val
      rw [e1, Nat.zero_mul, Nat.zero_add])
  exact congrArg (V c main_v52) (index2_eq (n0 := 100000) (n1 := 64) _ r k h0 h1)

/-- The weights' block at every point is the whole weight matrix. -/
theorem weights2_apply (c : Dev nD) (t : Fin cfg2.N) (k : Fin 64) (q : Fin 64) :
    (iblk2 V c 1 t : Vec Ideal S64x64 .f32) (ix2 k q)
      = (V c main_arg6 : S64x64.Idx → Elt Ideal .f32) (ix2 k q) := by
  obtain ⟨-, -, e2, e3, -⟩ := indexMaps2 t
  have h0 : (((win2_1.rect t).emb (ix2 k q)) (0 : Fin 2) : Nat) = k.val :=
    (win2_1.rect_emb_val t (ix2 k q) (0 : Fin 2)).trans (by
      show win2_1.index t (0 : Fin 2) * 64 + k.val = k.val
      rw [e2, Nat.zero_mul, Nat.zero_add])
  have h1 : (((win2_1.rect t).emb (ix2 k q)) (1 : Fin 2) : Nat) = q.val :=
    (win2_1.rect_emb_val t (ix2 k q) (1 : Fin 2)).trans (by
      show win2_1.index t (1 : Fin 2) * 64 + q.val = q.val
      rw [e3, Nat.zero_mul, Nat.zero_add])
  exact congrArg (V c main_arg6) (index2_eq (n0 := 64) (n1 := 64) _ k q h0 h1)

/-- What point t writes back is block t of the specification's contraction of the arrays the region finds. -/
theorem flushed2_eq (c : Dev nD) (t : Fin cfg2.N) :
    (dat2 V c).flushed 2 t
      = ((cfg2.win 2).blk t).view.read (Elt Ideal) (Cert.Spec.lin64 (F := Ideal) (V c main_v52) (V c main_arg6)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x64) zeroOffsets]
  funext j
  obtain ⟨p, q, rfl⟩ : ∃ (p : Fin 5000) (q : Fin 64), j = ix2 p q := ⟨j 0, j 1, eq_ix2 j⟩
  obtain ⟨-, -, -, -, e4, e5⟩ := indexMaps2 t
  have ht : t.val < 20 := lt_of_lt_of_eq t.isLt N_2
  have hr : t.val * 5000 + p.val < 100000 := by have := p.isLt; omega
  have hemb : ((cfg2.win 2).blk t).view.emb (ix2 p q) = ix2 (⟨t.val * 5000 + p.val, hr⟩ : Fin 100000) q := by
    funext a
    apply Fin.ext
    match a with
    | ⟨0, _⟩ => show win2_2.index t 0 * 5000 + 1 * p.val = t.val * 5000 + p.val; rw [e4]; omega
    | ⟨1, _⟩ => show win2_2.index t 1 * 64 + 1 * q.val = q.val; rw [e5]; omega
  show k2_pay1 (F := Ideal) (iblk2 V c 0 t) (iblk2 V c 1 t) (ix2 p q)
    = Cert.Spec.lin64 (F := Ideal) (V c main_v52) (V c main_arg6) (((cfg2.win 2).blk t).view.emb (ix2 p q))
  rw [hemb]
  exact blockProduct2_eq_lin64 (V c main_v52) (V c main_arg6) (iblk2 V c 0 t) (iblk2 V c 1 t) ⟨t.val * 5000 + p.val, hr⟩ p q
    (fun k => rows2_apply V c t p k ⟨t.val * 5000 + p.val, hr⟩ rfl) (fun k => weights2_apply V c t k q)

/-- An index of the result lies in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v53).slice (win2_2.rect t)).set ↔ _
  rw [View.set_slice_whole, Rect.mem_set_unit]
  exact Iff.rfl

/-- Row r of the result lies in the block of point r / 5000, which is written back. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, e4, e5⟩ := indexMaps2 ⟨(i 0).val / 5000, ht⟩
  refine ⟨⟨(i 0).val / 5000, ht⟩, flush2_2 _, ?_⟩
  rw [mem_block2]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 64 ≤ (i 1).val ∧ (i 1).val < win2_2.index ⟨(i 0).val / 5000, ht⟩ 1 * 64 + 64
    rw [e5]; omega

/-- The result array after region 2 is the specification's contraction of the arrays the region finds. -/
theorem final2 (c : Dev nD) :
    (dat2 V c).arrAt 2 cfg2.N = Cert.Spec.lin64 (F := Ideal) (V c main_v52) (V c main_arg6) :=
  (dat2 V c).arrAt_eq_of_cover 2 (Cert.Spec.lin64 (F := Ideal) (V c main_v52) (V c main_arg6))
    (fun t _ => flushed2_eq V c t) covered2

/-! ## Region 4 -/

/-- The index maps over the 20 grid points: the activations' and the result's blocks move down the rows with the
    point, the weights' block stays at the origin. -/
theorem indexMaps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block product at an entry: the sum over the 64 contracted coordinates. -/
theorem blockProduct4_apply (x0 : FVec Ideal S5000x64 .f32) (x1 : FVec Ideal S64x64 .f32) (p : Fin 5000) (q : Fin 64) :
    k4_pay1 (F := Ideal) x0 x1 (ix2 p q) = ∑ k : Fin 64, x0 (ix2 p k) * x1 (ix2 k q) := by
  unfold k4_pay1
  simp only [shapeCast_self]
  exact DenseLayers.matmul_rowcol_zero_apply (m := 5000) (k := 64) (n := 64)
    Facts₀.dot_S5000x64_S64x64_S5000x64_1_0_0_1_n_n_wf none
    (truncf .bf16 x0 Facts₀.bitsLt_bf16_f32) (truncf .bf16 x1 Facts₀.bitsLt_bf16_f32) p q

/-- A block product whose row p is row r of the activations and whose second operand is the weights is, along
    that row, the specification's contraction along row r. -/
theorem blockProduct4_eq_lin64 (X : FVec Ideal S100000x64 .f32) (W : FVec Ideal S64x64 .f32)
    (x0 : FVec Ideal S5000x64 .f32) (x1 : FVec Ideal S64x64 .f32) (r : Fin 100000) (p : Fin 5000) (q : Fin 64)
    (h0 : ∀ k : Fin 64, x0 (ix2 p k) = X (ix2 r k)) (h1 : ∀ k : Fin 64, x1 (ix2 k q) = W (ix2 k q)) :
    k4_pay1 (F := Ideal) x0 x1 (ix2 p q) = Cert.Spec.lin64 (F := Ideal) X W (ix2 r q) := by
  rw [blockProduct4_apply, lin64_apply]
  exact Finset.sum_congr rfl fun k _ => by rw [h0 k, h1 k]

/-- The activations' block at point t: its row p is row 5000 t + p of the array. -/
theorem rows4_apply (c : Dev nD) (t : Fin cfg4.N) (p : Fin 5000) (k : Fin 64) (r : Fin 100000)
    (hr : r.val = t.val * 5000 + p.val) :
    (iblk4 V c 0 t : Vec Ideal S5000x64 .f32) (ix2 p k)
      = (V c main_v78 : S100000x64.Idx → Elt Ideal .f32) (ix2 r k) := by
  obtain ⟨e0, e1, -⟩ := indexMaps4 t
  have h0 : (((win4_0.rect t).emb (ix2 p k)) (0 : Fin 2) : Nat) = r.val :=
    (win4_0.rect_emb_val t (ix2 p k) (0 : Fin 2)).trans (by
      show win4_0.index t (0 : Fin 2) * 5000 + p.val = r.val
      rw [e0, hr])
  have h1 : (((win4_0.rect t).emb (ix2 p k)) (1 : Fin 2) : Nat) = k.val :=
    (win4_0.rect_emb_val t (ix2 p k) (1 : Fin 2)).trans (by
      show win4_0.index t (1 : Fin 2) * 64 + k.val = k.val
      rw [e1, Nat.zero_mul, Nat.zero_add])
  exact congrArg (V c main_v78) (index2_eq (n0 := 100000) (n1 := 64) _ r k h0 h1)

/-- The weights' block at every point is the whole weight matrix. -/
theorem weights4_apply (c : Dev nD) (t : Fin cfg4.N) (k : Fin 64) (q : Fin 64) :
    (iblk4 V c 1 t : Vec Ideal S64x64 .f32) (ix2 k q)
      = (V c main_arg10 : S64x64.Idx → Elt Ideal .f32) (ix2 k q) := by
  obtain ⟨-, -, e2, e3, -⟩ := indexMaps4 t
  have h0 : (((win4_1.rect t).emb (ix2 k q)) (0 : Fin 2) : Nat) = k.val :=
    (win4_1.rect_emb_val t (ix2 k q) (0 : Fin 2)).trans (by
      show win4_1.index t (0 : Fin 2) * 64 + k.val = k.val
      rw [e2, Nat.zero_mul, Nat.zero_add])
  have h1 : (((win4_1.rect t).emb (ix2 k q)) (1 : Fin 2) : Nat) = q.val :=
    (win4_1.rect_emb_val t (ix2 k q) (1 : Fin 2)).trans (by
      show win4_1.index t (1 : Fin 2) * 64 + q.val = q.val
      rw [e3, Nat.zero_mul, Nat.zero_add])
  exact congrArg (V c main_arg10) (index2_eq (n0 := 64) (n1 := 64) _ k q h0 h1)

/-- What point t writes back is block t of the specification's contraction of the arrays the region finds. -/
theorem flushed4_eq (c : Dev nD) (t : Fin cfg4.N) :
    (dat4 V c).flushed 2 t
      = ((cfg4.win 2).blk t).view.read (Elt Ideal) (Cert.Spec.lin64 (F := Ideal) (V c main_v78) (V c main_arg10)) := by
  show (cfg4.win 2).cut (grid4.coords t) ((dat4 V c).after 2 t) = _
  rw [after4_2]
  unfold out4_2
  rw [View.canon_unit_zero zeroOffsets]
  simp only [View.ld_unit_zero (S := S5000x64) zeroOffsets, View.ld_unit_zero (S := S64x64) zeroOffsets]
  funext j
  obtain ⟨p, q, rfl⟩ : ∃ (p : Fin 5000) (q : Fin 64), j = ix2 p q := ⟨j 0, j 1, eq_ix2 j⟩
  obtain ⟨-, -, -, -, e4, e5⟩ := indexMaps4 t
  have ht : t.val < 20 := lt_of_lt_of_eq t.isLt N_4
  have hr : t.val * 5000 + p.val < 100000 := by have := p.isLt; omega
  have hemb : ((cfg4.win 2).blk t).view.emb (ix2 p q) = ix2 (⟨t.val * 5000 + p.val, hr⟩ : Fin 100000) q := by
    funext a
    apply Fin.ext
    match a with
    | ⟨0, _⟩ => show win4_2.index t 0 * 5000 + 1 * p.val = t.val * 5000 + p.val; rw [e4]; omega
    | ⟨1, _⟩ => show win4_2.index t 1 * 64 + 1 * q.val = q.val; rw [e5]; omega
  show k4_pay1 (F := Ideal) (iblk4 V c 0 t) (iblk4 V c 1 t) (ix2 p q)
    = Cert.Spec.lin64 (F := Ideal) (V c main_v78) (V c main_arg10) (((cfg4.win 2).blk t).view.emb (ix2 p q))
  rw [hemb]
  exact blockProduct4_eq_lin64 (V c main_v78) (V c main_arg10) (iblk4 V c 0 t) (iblk4 V c 1 t) ⟨t.val * 5000 + p.val, hr⟩ p q
    (fun k => rows4_apply V c t p k ⟨t.val * 5000 + p.val, hr⟩ rfl) (fun k => weights4_apply V c t k q)

/-- An index of the result lies in point t's block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v79).slice (win4_2.rect t)).set ↔ _
  rw [View.set_slice_whole, Rect.mem_set_unit]
  exact Iff.rfl

/-- Row r of the result lies in the block of point r / 5000, which is written back. -/
theorem covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨-, -, -, -, e4, e5⟩ := indexMaps4 ⟨(i 0).val / 5000, ht⟩
  refine ⟨⟨(i 0).val / 5000, ht⟩, flush4_2 _, ?_⟩
  rw [mem_block4]
  intro a
  match a with
  | ⟨0, _⟩ =>
    show win4_2.index ⟨(i 0).val / 5000, ht⟩ 0 * 5000 ≤ (i 0).val ∧ (i 0).val < win4_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ 1 * 64 ≤ (i 1).val ∧ (i 1).val < win4_2.index ⟨(i 0).val / 5000, ht⟩ 1 * 64 + 64
    rw [e5]; omega

/-- The result array after region 4 is the specification's contraction of the arrays the region finds. -/
theorem final4 (c : Dev nD) :
    (dat4 V c).arrAt 2 cfg4.N = Cert.Spec.lin64 (F := Ideal) (V c main_v78) (V c main_arg10) :=
  (dat4 V c).arrAt_eq_of_cover 2 (Cert.Spec.lin64 (F := Ideal) (V c main_v78) (V c main_arg10))
    (fun t _ => flushed4_eq V c t) covered4

end Cert.KernelIdeal.RegionValue

end
-- ==== Proof.RegionsNorm.lean ====
/-
  Regions 1, 3 and 5: the normalisation stage on [100000,64] activations with four [1,64] rows (column mean, column
  variance and the affine pair), once per layer.

  The grid has 20 points. Point t stages rows 5000 t … 5000 t + 4999 of the activations and the four rows whole, and
  writes back, at (p, q) of the block, max(((a (p, q) − mean q) · rsqrt(variance q + ε)) · g q + bt q, 0). The four
  rows are length-64 vectors reshaped to [1,64], so entry (0, q) of a row is entry q of its vector; the specification
  broadcasts the same vectors down the rows, so entry (5000 t + p, q) of the specification is the same expression.
  Every row r of the result lies in the block of point r / 5000, so the result array is the specification's.
-/
import proofs.«109477_j27238682591805_1_alg».proof.Proof.Spec
import proofs.«109477_j27238682591805_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, in the form the rectangle lemmas take. -/
private theorem zeroOffsets : (![0, 0] : Fin 2 → Nat) = fun _ => 0 := funext fun a => by fin_cases a <;> rfl

/-- An index of a rank-2 array is determined by its two coordinates. -/
private theorem index2_eq {n0 n1 : Nat} (i : (⟨2, ![n0, n1]⟩ : Shape).Idx) (a : Fin n0) (b : Fin n1)
    (h0 : (i 0).val = a.val) (h1 : (i 1).val = b.val) : i = ix2 a b :=
  funext fun d => match d with
    | ⟨0, _⟩ => Fin.ext h0
    | ⟨1, _⟩ => Fin.ext h1

/-! ## The stage at an entry, and the specification at an entry -/

/-- One entry of the stage: max(((a − m) · rsqrt(v + ε)) · g + b, 0), ε and 0 the words of the two constants. -/
def normEntry (a m v g b : EReal) : EReal :=
  max (((a - m) * Ideal.rsqrt (v + Ideal.ofBits .f32 0x3727C5AC#32)) * g + b) (Ideal.ofBits .f32 0x00000000#32)

/-- A length-64 vector made a row reads, at (0, q), the vector at q. -/
theorem row64_apply {α : Type} (v : S64.Idx → α) (u : Fin 1) (q : Fin 64) :
    broadcastInDim Cert.ReferenceIdeal.S1x64 ![1] Cert.ReferenceIdeal.Facts₀.bcast_S64_S1x64_1 v (ix2 u q) = v (ix1 q) := by
  refine broadcastInDim_apply ![1] _ v (ix2 u q) (ix1 q) fun a => ?_
  match a with
  | ⟨0, _⟩ => rfl

/-- A length-64 vector broadcast down the 100000 rows reads, at (r, q), the vector at q. -/
theorem rows64_apply (v : FVec Ideal S64 .f32) (r : Fin 100000) (q : Fin 64) :
    Cert.Spec.rows64 (F := Ideal) v (ix2 r q) = v (ix1 q) := by
  unfold Cert.Spec.rows64
  rw [broadcastInDim_oneRow_apply, row64_apply]

/-- The specification at an entry. -/
theorem bn_apply (A : FVec Ideal S100000x64 .f32) (mu vr g bt : FVec Ideal S64 .f32) (r : Fin 100000) (q : Fin 64) :
    Cert.Spec.bn (F := Ideal) A mu vr g bt (ix2 r q)
      = normEntry (A (ix2 r q)) (mu (ix1 q)) (vr (ix1 q)) (g (ix1 q)) (bt (ix1 q)) := by
  unfold Cert.Spec.bn
  show max (((A (ix2 r q) - Cert.Spec.rows64 (F := Ideal) mu (ix2 r q))
        * Cert.Spec.rows64 (F := Ideal) (Host.rsqrt (addf vr (broadcastInDim Cert.ReferenceIdeal.S64 ![] _ (constant (F := Ideal) Cert.ReferenceIdeal.S_ .f32 0x3727C5AC#32)))) (ix2 r q))
        * Cert.Spec.rows64 (F := Ideal) g (ix2 r q) + Cert.Spec.rows64 (F := Ideal) bt (ix2 r q)) (Ideal.ofBits .f32 0x00000000#32) = _
  rw [rows64_apply, rows64_apply, rows64_apply, rows64_apply]
  rfl

/-! ## Region 1 -/

/-- The index maps over the 20 grid points: the activations' and the result's blocks move down the rows with the
    point, the four rows' blocks stay at the origin. -/
theorem indexMaps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's store at an entry of the block. -/
theorem blockNorm1_apply (x0 : FVec Ideal S5000x64 .f32) (x1 x2 x3 x4 : FVec Ideal S1x64 .f32) (p : Fin 5000) (q : Fin 64) :
    k1_pay1 (F := Ideal) x0 x1 x2 x3 x4 (ix2 p q)
      = normEntry (x0 (ix2 p q)) (x1 (ix2 (0 : Fin 1) q)) (x2 (ix2 (0 : Fin 1) q)) (x3 (ix2 (0 : Fin 1) q)) (x4 (ix2 (0 : Fin 1) q)) := by
  unfold k1_pay1
  simp only [shapeCast_self]
  show max (((x0 (ix2 p q) - broadcastTo S5000x64 x1 _ (ix2 p q))
        * broadcastTo S5000x64 (rsqrt (addf x2 (broadcast S1x64 (Scalar.ofBits .f32 0x3727C5AC#32)))) _ (ix2 p q))
        * broadcastTo S5000x64 x3 _ (ix2 p q) + broadcastTo S5000x64 x4 _ (ix2 p q)) (Ideal.ofBits .f32 0x00000000#32) = _
  rw [broadcastTo_1b_ab_apply, broadcastTo_1b_ab_apply, broadcastTo_1b_ab_apply, broadcastTo_1b_ab_apply]
  rfl

/-- A block store whose row p is row r of the activations and whose four rows are the four vectors reshaped is, at
    (p, q), the specification at (r, q). -/
theorem blockNorm1_eq_bn (A : FVec Ideal S100000x64 .f32) (mu vr g bt : FVec Ideal S64 .f32)
    (x0 : FVec Ideal S5000x64 .f32) (x1 x2 x3 x4 : FVec Ideal S1x64 .f32) (r : Fin 100000) (p : Fin 5000) (q : Fin 64)
    (h0 : x0 (ix2 p q) = A (ix2 r q)) (h1 : x1 (ix2 (0 : Fin 1) q) = mu (ix1 q)) (h2 : x2 (ix2 (0 : Fin 1) q) = vr (ix1 q))
    (h3 : x3 (ix2 (0 : Fin 1) q) = g (ix1 q)) (h4 : x4 (ix2 (0 : Fin 1) q) = bt (ix1 q)) :
    k1_pay1 (F := Ideal) x0 x1 x2 x3 x4 (ix2 p q) = Cert.Spec.bn (F := Ideal) A mu vr g bt (ix2 r q) := by
  rw [blockNorm1_apply, bn_apply, h0, h1, h2, h3, h4]

/-- The activations' block at point t: its row p is row 5000 t + p of the array. -/
theorem act1_apply (c : Dev nD) (t : Fin cfg1.N) (p : Fin 5000) (q : Fin 64) (r : Fin 100000)
    (hr : r.val = t.val * 5000 + p.val) :
    (iblk1 V c 0 t : Vec Ideal S5000x64 .f32) (ix2 p q)
      = (V c main_v43 : S100000x64.Idx → Elt Ideal .f32) (ix2 r q) := by
  obtain ⟨e0, e1, -⟩ := indexMaps1 t
  have h0 : (((win1_0.rect t).emb (ix2 p q)) (0 : Fin 2) : Nat) = r.val :=
    (win1_0.rect_emb_val t (ix2 p q) (0 : Fin 2)).trans (by
      show win1_0.index t (0 : Fin 2) * 5000 + p.val = r.val
      rw [e0, hr])
  have h1 : (((win1_0.rect t).emb (ix2 p q)) (1 : Fin 2) : Nat) = q.val :=
    (win1_0.rect_emb_val t (ix2 p q) (1 : Fin 2)).trans (by
      show win1_0.index t (1 : Fin 2) * 64 + q.val = q.val
      rw [e1, Nat.zero_mul, Nat.zero_add])
  exact congrArg (V c main_v43) (index2_eq (n0 := 100000) (n1 := 64) _ r q h0 h1)

/-- Window 1's block at every point is the whole row; the row is a vector reshaped, so its entry (0, q) is the
    vector's entry q. -/
theorem row1_1_apply (c : Dev nD) (t : Fin cfg1.N) (q : Fin 64) (v : FVec Ideal S64 .f32)
    (hv : V c main_v48 = shapeCast S1x64 v shapeCasts_S64_S1x64) :
    (iblk1 V c 1 t : Vec Ideal S1x64 .f32) (ix2 (0 : Fin 1) q) = v (ix1 q) := by
  obtain ⟨-, -, e0, e1, -⟩ := indexMaps1 t
  have h0 : (((win1_1.rect t).emb (ix2 (0 : Fin 1) q)) (0 : Fin 2) : Nat) = (0 : Fin 1).val :=
    (win1_1.rect_emb_val t (ix2 (0 : Fin 1) q) (0 : Fin 2)).trans (by
      show win1_1.index t (0 : Fin 2) * 1 + 0 = 0
      rw [e0])
  have h1 : (((win1_1.rect t).emb (ix2 (0 : Fin 1) q)) (1 : Fin 2) : Nat) = q.val :=
    (win1_1.rect_emb_val t (ix2 (0 : Fin 1) q) (1 : Fin 2)).trans (by
      show win1_1.index t (1 : Fin 2) * 64 + q.val = q.val
      rw [e1, Nat.zero_mul, Nat.zero_add])
  have hread : (iblk1 V c 1 t : Vec Ideal S1x64 .f32) (ix2 (0 : Fin 1) q)
      = (V c main_v48 : S1x64.Idx → Elt Ideal .f32) (ix2 (0 : Fin 1) q) :=
    congrArg (V c main_v48) (index2_eq (n0 := 1) (n1 := 64) _ 0 q h0 h1)
  exact hread.trans ((congrFun hv (ix2 (0 : Fin 1) q)).trans (shapeCast_a_1a_apply v shapeCasts_S64_S1x64 0 q))

/-- Window 2's block at every point is the whole row; the row is a vector reshaped, so its entry (0, q) is the
    vector's entry q. -/
theorem row1_2_apply (c : Dev nD) (t : Fin cfg1.N) (q : Fin 64) (v : FVec Ideal S64 .f32)
    (hv : V c main_v49 = shapeCast S1x64 v shapeCasts_S64_S1x64) :
    (iblk1 V c 2 t : Vec Ideal S1x64 .f32) (ix2 (0 : Fin 1) q) = v (ix1 q) := by
  obtain ⟨-, -, -, -, e0, e1, -⟩ := indexMaps1 t
  have h0 : (((win1_2.rect t).emb (ix2 (0 : Fin 1) q)) (0 : Fin 2) : Nat) = (0 : Fin 1).val :=
    (win1_2.rect_emb_val t (ix2 (0 : Fin 1) q) (0 : Fin 2)).trans (by
      show win1_2.index t (0 : Fin 2) * 1 + 0 = 0
      rw [e0])
  have h1 : (((win1_2.rect t).emb (ix2 (0 : Fin 1) q)) (1 : Fin 2) : Nat) = q.val :=
    (win1_2.rect_emb_val t (ix2 (0 : Fin 1) q) (1 : Fin 2)).trans (by
      show win1_2.index t (1 : Fin 2) * 64 + q.val = q.val
      rw [e1, Nat.zero_mul, Nat.zero_add])
  have hread : (iblk1 V c 2 t : Vec Ideal S1x64 .f32) (ix2 (0 : Fin 1) q)
      = (V c main_v49 : S1x64.Idx → Elt Ideal .f32) (ix2 (0 : Fin 1) q) :=
    congrArg (V c main_v49) (index2_eq (n0 := 1) (n1 := 64) _ 0 q h0 h1)
  exact hread.trans ((congrFun hv (ix2 (0 : Fin 1) q)).trans (shapeCast_a_1a_apply v shapeCasts_S64_S1x64 0 q))

/-- Window 3's block at every point is the whole row; the row is a vector reshaped, so its entry (0, q) is the
    vector's entry q. -/
theorem row1_3_apply (c : Dev nD) (t : Fin cfg1.N) (q : Fin 64) (v : FVec Ideal S64 .f32)
    (hv : V c main_v50 = shapeCast S1x64 v shapeCasts_S64_S1x64) :
    (iblk1 V c 3 t : Vec Ideal S1x64 .f32) (ix2 (0 : Fin 1) q) = v (ix1 q) := by
  obtain ⟨-, -, -, -, -, -, e0, e1, -⟩ := indexMaps1 t
  have h0 : (((win1_3.rect t).emb (ix2 (0 : Fin 1) q)) (0 : Fin 2) : Nat) = (0 : Fin 1).val :=
    (win1_3.rect_emb_val t (ix2 (0 : Fin 1) q) (0 : Fin 2)).trans (by
      show win1_3.index t (0 : Fin 2) * 1 + 0 = 0
      rw [e0])
  have h1 : (((win1_3.rect t).emb (ix2 (0 : Fin 1) q)) (1 : Fin 2) : Nat) = q.val :=
    (win1_3.rect_emb_val t (ix2 (0 : Fin 1) q) (1 : Fin 2)).trans (by
      show win1_3.index t (1 : Fin 2) * 64 + q.val = q.val
      rw [e1, Nat.zero_mul, Nat.zero_add])
  have hread : (iblk1 V c 3 t : Vec Ideal S1x64 .f32) (ix2 (0 : Fin 1) q)
      = (V c main_v50 : S1x64.Idx → Elt Ideal .f32) (ix2 (0 : Fin 1) q) :=
    congrArg (V c main_v50) (index2_eq (n0 := 1) (n1 := 64) _ 0 q h0 h1)
  exact hread.trans ((congrFun hv (ix2 (0 : Fin 1) q)).trans (shapeCast_a_1a_apply v shapeCasts_S64_S1x64 0 q))

/-- Window 4's block at every point is the whole row; the row is a vector reshaped, so its entry (0, q) is the
    vector's entry q. -/
theorem row1_4_apply (c : Dev nD) (t : Fin cfg1.N) (q : Fin 64) (v : FVec Ideal S64 .f32)
    (hv : V c main_v51 = shapeCast S1x64 v shapeCasts_S64_S1x64) :
    (iblk1 V c 4 t : Vec Ideal S1x64 .f32) (ix2 (0 : Fin 1) q) = v (ix1 q) := by
  obtain ⟨-, -, -, -, -, -, -, -, e0, e1, -⟩ := indexMaps1 t
  have h0 : (((win1_4.rect t).emb (ix2 (0 : Fin 1) q)) (0 : Fin 2) : Nat) = (0 : Fin 1).val :=
    (win1_4.rect_emb_val t (ix2 (0 : Fin 1) q) (0 : Fin 2)).trans (by
      show win1_4.index t (0 : Fin 2) * 1 + 0 = 0
      rw [e0])
  have h1 : (((win1_4.rect t).emb (ix2 (0 : Fin 1) q)) (1 : Fin 2) : Nat) = q.val :=
    (win1_4.rect_emb_val t (ix2 (0 : Fin 1) q) (1 : Fin 2)).trans (by
      show win1_4.index t (1 : Fin 2) * 64 + q.val = q.val
      rw [e1, Nat.zero_mul, Nat.zero_add])
  have hread : (iblk1 V c 4 t : Vec Ideal S1x64 .f32) (ix2 (0 : Fin 1) q)
      = (V c main_v51 : S1x64.Idx → Elt Ideal .f32) (ix2 (0 : Fin 1) q) :=
    congrArg (V c main_v51) (index2_eq (n0 := 1) (n1 := 64) _ 0 q h0 h1)
  exact hread.trans ((congrFun hv (ix2 (0 : Fin 1) q)).trans (shapeCast_a_1a_apply v shapeCasts_S64_S1x64 0 q))

/-- What point t writes back is block t of the specification of the arrays the region finds. -/
theorem flushed1_eq (c : Dev nD) (mu vr g bt : FVec Ideal S64 .f32)
    (hmu : V c main_v48 = shapeCast S1x64 mu shapeCasts_S64_S1x64) (hvr : V c main_v49 = shapeCast S1x64 vr shapeCasts_S64_S1x64)
    (hg : V c main_v50 = shapeCast S1x64 g shapeCasts_S64_S1x64) (hbt : V c main_v51 = shapeCast S1x64 bt shapeCasts_S64_S1x64)
    (t : Fin cfg1.N) :
    (dat1 V c).flushed 5 t
      = ((cfg1.win 5).blk t).view.read (Elt Ideal) (Cert.Spec.bn (F := Ideal) (V c main_v43) mu vr g bt) := by
  show (cfg1.win 5).cut (grid1.coords t) ((dat1 V c).after 5 t) = _
  rw [after1_5]
  unfold out1_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e10, e11⟩ := indexMaps1 t
  have ht : t.val < 20 := lt_of_lt_of_eq t.isLt N_1
  have hr : t.val * 5000 + p.val < 100000 := by have := p.isLt; omega
  have hemb : ((cfg1.win 5).blk t).view.emb (ix2 p q) = ix2 (⟨t.val * 5000 + p.val, hr⟩ : Fin 100000) q := by
    funext a
    apply Fin.ext
    match a with
    | ⟨0, _⟩ => show win1_5.index t 0 * 5000 + 1 * p.val = t.val * 5000 + p.val; rw [e10]; omega
    | ⟨1, _⟩ => show win1_5.index t 1 * 64 + 1 * q.val = q.val; rw [e11]; omega
  show k1_pay1 (F := Ideal) (iblk1 V c 0 t) (iblk1 V c 1 t) (iblk1 V c 2 t) (iblk1 V c 3 t) (iblk1 V c 4 t) (ix2 p q)
    = Cert.Spec.bn (F := Ideal) (V c main_v43) mu vr g bt (((cfg1.win 5).blk t).view.emb (ix2 p q))
  rw [hemb]
  exact blockNorm1_eq_bn (V c main_v43) mu vr g bt (iblk1 V c 0 t) (iblk1 V c 1 t) (iblk1 V c 2 t) (iblk1 V c 3 t)
    (iblk1 V c 4 t) ⟨t.val * 5000 + p.val, hr⟩ p q
    (act1_apply V c t p q ⟨t.val * 5000 + p.val, hr⟩ rfl) (row1_1_apply V c t q mu hmu) (row1_2_apply V c t q vr hvr)
    (row1_3_apply V c t q g hg) (row1_4_apply V c t q bt hbt)

/-- An index of the result lies in point t's block iff each coordinate is in the block's range on its axis. -/
theorem mem_block1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v52).slice (win1_5.rect t)).set ↔ _
  rw [View.set_slice_whole, Rect.mem_set_unit]
  exact Iff.rfl

/-- Row r of the result lies in the block of point r / 5000, which is written back. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, e10, e11⟩ := indexMaps1 ⟨(i 0).val / 5000, ht⟩
  refine ⟨⟨(i 0).val / 5000, ht⟩, flush1_5 _, ?_⟩
  rw [mem_block1]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ 1 * 64 ≤ (i 1).val ∧ (i 1).val < win1_5.index ⟨(i 0).val / 5000, ht⟩ 1 * 64 + 64
    rw [e11]; omega

/-- The result array after region 1 is the specification's normalisation of the arrays the region finds. -/
theorem final1 (c : Dev nD) (mu vr g bt : FVec Ideal S64 .f32)
    (hmu : V c main_v48 = shapeCast S1x64 mu shapeCasts_S64_S1x64) (hvr : V c main_v49 = shapeCast S1x64 vr shapeCasts_S64_S1x64)
    (hg : V c main_v50 = shapeCast S1x64 g shapeCasts_S64_S1x64) (hbt : V c main_v51 = shapeCast S1x64 bt shapeCasts_S64_S1x64) :
    (dat1 V c).arrAt 5 cfg1.N = Cert.Spec.bn (F := Ideal) (V c main_v43) mu vr g bt :=
  (dat1 V c).arrAt_eq_of_cover 5 (Cert.Spec.bn (F := Ideal) (V c main_v43) mu vr g bt)
    (fun t _ => flushed1_eq V c mu vr g bt hmu hvr hg hbt t) covered1

/-! ## Region 3 -/

/-- The index maps over the 20 grid points: the activations' and the result's blocks move down the rows with the
    point, the four rows' blocks stay at the origin. -/
theorem indexMaps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body's store at an entry of the block. -/
theorem blockNorm3_apply (x0 : FVec Ideal S5000x64 .f32) (x1 x2 x3 x4 : FVec Ideal S1x64 .f32) (p : Fin 5000) (q : Fin 64) :
    k3_pay1 (F := Ideal) x0 x1 x2 x3 x4 (ix2 p q)
      = normEntry (x0 (ix2 p q)) (x1 (ix2 (0 : Fin 1) q)) (x2 (ix2 (0 : Fin 1) q)) (x3 (ix2 (0 : Fin 1) q)) (x4 (ix2 (0 : Fin 1) q)) := by
  unfold k3_pay1
  simp only [shapeCast_self]
  show max (((x0 (ix2 p q) - broadcastTo S5000x64 x1 _ (ix2 p q))
        * broadcastTo S5000x64 (rsqrt (addf x2 (broadcast S1x64 (Scalar.ofBits .f32 0x3727C5AC#32)))) _ (ix2 p q))
        * broadcastTo S5000x64 x3 _ (ix2 p q) + broadcastTo S5000x64 x4 _ (ix2 p q)) (Ideal.ofBits .f32 0x00000000#32) = _
  rw [broadcastTo_1b_ab_apply, broadcastTo_1b_ab_apply, broadcastTo_1b_ab_apply, broadcastTo_1b_ab_apply]
  rfl

/-- A block store whose row p is row r of the activations and whose four rows are the four vectors reshaped is, at
    (p, q), the specification at (r, q). -/
theorem blockNorm3_eq_bn (A : FVec Ideal S100000x64 .f32) (mu vr g bt : FVec Ideal S64 .f32)
    (x0 : FVec Ideal S5000x64 .f32) (x1 x2 x3 x4 : FVec Ideal S1x64 .f32) (r : Fin 100000) (p : Fin 5000) (q : Fin 64)
    (h0 : x0 (ix2 p q) = A (ix2 r q)) (h1 : x1 (ix2 (0 : Fin 1) q) = mu (ix1 q)) (h2 : x2 (ix2 (0 : Fin 1) q) = vr (ix1 q))
    (h3 : x3 (ix2 (0 : Fin 1) q) = g (ix1 q)) (h4 : x4 (ix2 (0 : Fin 1) q) = bt (ix1 q)) :
    k3_pay1 (F := Ideal) x0 x1 x2 x3 x4 (ix2 p q) = Cert.Spec.bn (F := Ideal) A mu vr g bt (ix2 r q) := by
  rw [blockNorm3_apply, bn_apply, h0, h1, h2, h3, h4]

/-- The activations' block at point t: its row p is row 5000 t + p of the array. -/
theorem act3_apply (c : Dev nD) (t : Fin cfg3.N) (p : Fin 5000) (q : Fin 64) (r : Fin 100000)
    (hr : r.val = t.val * 5000 + p.val) :
    (iblk3 V c 0 t : Vec Ideal S5000x64 .f32) (ix2 p q)
      = (V c main_v69 : S100000x64.Idx → Elt Ideal .f32) (ix2 r q) := by
  obtain ⟨e0, e1, -⟩ := indexMaps3 t
  have h0 : (((win3_0.rect t).emb (ix2 p q)) (0 : Fin 2) : Nat) = r.val :=
    (win3_0.rect_emb_val t (ix2 p q) (0 : Fin 2)).trans (by
      show win3_0.index t (0 : Fin 2) * 5000 + p.val = r.val
      rw [e0, hr])
  have h1 : (((win3_0.rect t).emb (ix2 p q)) (1 : Fin 2) : Nat) = q.val :=
    (win3_0.rect_emb_val t (ix2 p q) (1 : Fin 2)).trans (by
      show win3_0.index t (1 : Fin 2) * 64 + q.val = q.val
      rw [e1, Nat.zero_mul, Nat.zero_add])
  exact congrArg (V c main_v69) (index2_eq (n0 := 100000) (n1 := 64) _ r q h0 h1)

/-- Window 1's block at every point is the whole row; the row is a vector reshaped, so its entry (0, q) is the
    vector's entry q. -/
theorem row3_1_apply (c : Dev nD) (t : Fin cfg3.N) (q : Fin 64) (v : FVec Ideal S64 .f32)
    (hv : V c main_v74 = shapeCast S1x64 v shapeCasts_S64_S1x64) :
    (iblk3 V c 1 t : Vec Ideal S1x64 .f32) (ix2 (0 : Fin 1) q) = v (ix1 q) := by
  obtain ⟨-, -, e0, e1, -⟩ := indexMaps3 t
  have h0 : (((win3_1.rect t).emb (ix2 (0 : Fin 1) q)) (0 : Fin 2) : Nat) = (0 : Fin 1).val :=
    (win3_1.rect_emb_val t (ix2 (0 : Fin 1) q) (0 : Fin 2)).trans (by
      show win3_1.index t (0 : Fin 2) * 1 + 0 = 0
      rw [e0])
  have h1 : (((win3_1.rect t).emb (ix2 (0 : Fin 1) q)) (1 : Fin 2) : Nat) = q.val :=
    (win3_1.rect_emb_val t (ix2 (0 : Fin 1) q) (1 : Fin 2)).trans (by
      show win3_1.index t (1 : Fin 2) * 64 + q.val = q.val
      rw [e1, Nat.zero_mul, Nat.zero_add])
  have hread : (iblk3 V c 1 t : Vec Ideal S1x64 .f32) (ix2 (0 : Fin 1) q)
      = (V c main_v74 : S1x64.Idx → Elt Ideal .f32) (ix2 (0 : Fin 1) q) :=
    congrArg (V c main_v74) (index2_eq (n0 := 1) (n1 := 64) _ 0 q h0 h1)
  exact hread.trans ((congrFun hv (ix2 (0 : Fin 1) q)).trans (shapeCast_a_1a_apply v shapeCasts_S64_S1x64 0 q))

/-- Window 2's block at every point is the whole row; the row is a vector reshaped, so its entry (0, q) is the
    vector's entry q. -/
theorem row3_2_apply (c : Dev nD) (t : Fin cfg3.N) (q : Fin 64) (v : FVec Ideal S64 .f32)
    (hv : V c main_v75 = shapeCast S1x64 v shapeCasts_S64_S1x64) :
    (iblk3 V c 2 t : Vec Ideal S1x64 .f32) (ix2 (0 : Fin 1) q) = v (ix1 q) := by
  obtain ⟨-, -, -, -, e0, e1, -⟩ := indexMaps3 t
  have h0 : (((win3_2.rect t).emb (ix2 (0 : Fin 1) q)) (0 : Fin 2) : Nat) = (0 : Fin 1).val :=
    (win3_2.rect_emb_val t (ix2 (0 : Fin 1) q) (0 : Fin 2)).trans (by
      show win3_2.index t (0 : Fin 2) * 1 + 0 = 0
      rw [e0])
  have h1 : (((win3_2.rect t).emb (ix2 (0 : Fin 1) q)) (1 : Fin 2) : Nat) = q.val :=
    (win3_2.rect_emb_val t (ix2 (0 : Fin 1) q) (1 : Fin 2)).trans (by
      show win3_2.index t (1 : Fin 2) * 64 + q.val = q.val
      rw [e1, Nat.zero_mul, Nat.zero_add])
  have hread : (iblk3 V c 2 t : Vec Ideal S1x64 .f32) (ix2 (0 : Fin 1) q)
      = (V c main_v75 : S1x64.Idx → Elt Ideal .f32) (ix2 (0 : Fin 1) q) :=
    congrArg (V c main_v75) (index2_eq (n0 := 1) (n1 := 64) _ 0 q h0 h1)
  exact hread.trans ((congrFun hv (ix2 (0 : Fin 1) q)).trans (shapeCast_a_1a_apply v shapeCasts_S64_S1x64 0 q))

/-- Window 3's block at every point is the whole row; the row is a vector reshaped, so its entry (0, q) is the
    vector's entry q. -/
theorem row3_3_apply (c : Dev nD) (t : Fin cfg3.N) (q : Fin 64) (v : FVec Ideal S64 .f32)
    (hv : V c main_v76 = shapeCast S1x64 v shapeCasts_S64_S1x64) :
    (iblk3 V c 3 t : Vec Ideal S1x64 .f32) (ix2 (0 : Fin 1) q) = v (ix1 q) := by
  obtain ⟨-, -, -, -, -, -, e0, e1, -⟩ := indexMaps3 t
  have h0 : (((win3_3.rect t).emb (ix2 (0 : Fin 1) q)) (0 : Fin 2) : Nat) = (0 : Fin 1).val :=
    (win3_3.rect_emb_val t (ix2 (0 : Fin 1) q) (0 : Fin 2)).trans (by
      show win3_3.index t (0 : Fin 2) * 1 + 0 = 0
      rw [e0])
  have h1 : (((win3_3.rect t).emb (ix2 (0 : Fin 1) q)) (1 : Fin 2) : Nat) = q.val :=
    (win3_3.rect_emb_val t (ix2 (0 : Fin 1) q) (1 : Fin 2)).trans (by
      show win3_3.index t (1 : Fin 2) * 64 + q.val = q.val
      rw [e1, Nat.zero_mul, Nat.zero_add])
  have hread : (iblk3 V c 3 t : Vec Ideal S1x64 .f32) (ix2 (0 : Fin 1) q)
      = (V c main_v76 : S1x64.Idx → Elt Ideal .f32) (ix2 (0 : Fin 1) q) :=
    congrArg (V c main_v76) (index2_eq (n0 := 1) (n1 := 64) _ 0 q h0 h1)
  exact hread.trans ((congrFun hv (ix2 (0 : Fin 1) q)).trans (shapeCast_a_1a_apply v shapeCasts_S64_S1x64 0 q))

/-- Window 4's block at every point is the whole row; the row is a vector reshaped, so its entry (0, q) is the
    vector's entry q. -/
theorem row3_4_apply (c : Dev nD) (t : Fin cfg3.N) (q : Fin 64) (v : FVec Ideal S64 .f32)
    (hv : V c main_v77 = shapeCast S1x64 v shapeCasts_S64_S1x64) :
    (iblk3 V c 4 t : Vec Ideal S1x64 .f32) (ix2 (0 : Fin 1) q) = v (ix1 q) := by
  obtain ⟨-, -, -, -, -, -, -, -, e0, e1, -⟩ := indexMaps3 t
  have h0 : (((win3_4.rect t).emb (ix2 (0 : Fin 1) q)) (0 : Fin 2) : Nat) = (0 : Fin 1).val :=
    (win3_4.rect_emb_val t (ix2 (0 : Fin 1) q) (0 : Fin 2)).trans (by
      show win3_4.index t (0 : Fin 2) * 1 + 0 = 0
      rw [e0])
  have h1 : (((win3_4.rect t).emb (ix2 (0 : Fin 1) q)) (1 : Fin 2) : Nat) = q.val :=
    (win3_4.rect_emb_val t (ix2 (0 : Fin 1) q) (1 : Fin 2)).trans (by
      show win3_4.index t (1 : Fin 2) * 64 + q.val = q.val
      rw [e1, Nat.zero_mul, Nat.zero_add])
  have hread : (iblk3 V c 4 t : Vec Ideal S1x64 .f32) (ix2 (0 : Fin 1) q)
      = (V c main_v77 : S1x64.Idx → Elt Ideal .f32) (ix2 (0 : Fin 1) q) :=
    congrArg (V c main_v77) (index2_eq (n0 := 1) (n1 := 64) _ 0 q h0 h1)
  exact hread.trans ((congrFun hv (ix2 (0 : Fin 1) q)).trans (shapeCast_a_1a_apply v shapeCasts_S64_S1x64 0 q))

/-- What point t writes back is block t of the specification of the arrays the region finds. -/
theorem flushed3_eq (c : Dev nD) (mu vr g bt : FVec Ideal S64 .f32)
    (hmu : V c main_v74 = shapeCast S1x64 mu shapeCasts_S64_S1x64) (hvr : V c main_v75 = shapeCast S1x64 vr shapeCasts_S64_S1x64)
    (hg : V c main_v76 = shapeCast S1x64 g shapeCasts_S64_S1x64) (hbt : V c main_v77 = shapeCast S1x64 bt shapeCasts_S64_S1x64)
    (t : Fin cfg3.N) :
    (dat3 V c).flushed 5 t
      = ((cfg3.win 5).blk t).view.read (Elt Ideal) (Cert.Spec.bn (F := Ideal) (V c main_v69) mu vr g bt) := by
  show (cfg3.win 5).cut (grid3.coords t) ((dat3 V c).after 5 t) = _
  rw [after3_5]
  unfold out3_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e10, e11⟩ := indexMaps3 t
  have ht : t.val < 20 := lt_of_lt_of_eq t.isLt N_3
  have hr : t.val * 5000 + p.val < 100000 := by have := p.isLt; omega
  have hemb : ((cfg3.win 5).blk t).view.emb (ix2 p q) = ix2 (⟨t.val * 5000 + p.val, hr⟩ : Fin 100000) q := by
    funext a
    apply Fin.ext
    match a with
    | ⟨0, _⟩ => show win3_5.index t 0 * 5000 + 1 * p.val = t.val * 5000 + p.val; rw [e10]; omega
    | ⟨1, _⟩ => show win3_5.index t 1 * 64 + 1 * q.val = q.val; rw [e11]; omega
  show k3_pay1 (F := Ideal) (iblk3 V c 0 t) (iblk3 V c 1 t) (iblk3 V c 2 t) (iblk3 V c 3 t) (iblk3 V c 4 t) (ix2 p q)
    = Cert.Spec.bn (F := Ideal) (V c main_v69) mu vr g bt (((cfg3.win 5).blk t).view.emb (ix2 p q))
  rw [hemb]
  exact blockNorm3_eq_bn (V c main_v69) mu vr g bt (iblk3 V c 0 t) (iblk3 V c 1 t) (iblk3 V c 2 t) (iblk3 V c 3 t)
    (iblk3 V c 4 t) ⟨t.val * 5000 + p.val, hr⟩ p q
    (act3_apply V c t p q ⟨t.val * 5000 + p.val, hr⟩ rfl) (row3_1_apply V c t q mu hmu) (row3_2_apply V c t q vr hvr)
    (row3_3_apply V c t q g hg) (row3_4_apply V c t q bt hbt)

/-- An index of the result lies in point t's block iff each coordinate is in the block's range on its axis. -/
theorem mem_block3 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v78).slice (win3_5.rect t)).set ↔ _
  rw [View.set_slice_whole, Rect.mem_set_unit]
  exact Iff.rfl

/-- Row r of the result lies in the block of point r / 5000, which is written back. -/
theorem covered3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, -, -, -, -, e10, e11⟩ := indexMaps3 ⟨(i 0).val / 5000, ht⟩
  refine ⟨⟨(i 0).val / 5000, ht⟩, flush3_5 _, ?_⟩
  rw [mem_block3]
  intro a
  match a with
  | ⟨0, _⟩ =>
    show win3_5.index ⟨(i 0).val / 5000, ht⟩ 0 * 5000 ≤ (i 0).val ∧ (i 0).val < win3_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ 1 * 64 ≤ (i 1).val ∧ (i 1).val < win3_5.index ⟨(i 0).val / 5000, ht⟩ 1 * 64 + 64
    rw [e11]; omega

/-- The result array after region 3 is the specification's normalisation of the arrays the region finds. -/
theorem final3 (c : Dev nD) (mu vr g bt : FVec Ideal S64 .f32)
    (hmu : V c main_v74 = shapeCast S1x64 mu shapeCasts_S64_S1x64) (hvr : V c main_v75 = shapeCast S1x64 vr shapeCasts_S64_S1x64)
    (hg : V c main_v76 = shapeCast S1x64 g shapeCasts_S64_S1x64) (hbt : V c main_v77 = shapeCast S1x64 bt shapeCasts_S64_S1x64) :
    (dat3 V c).arrAt 5 cfg3.N = Cert.Spec.bn (F := Ideal) (V c main_v69) mu vr g bt :=
  (dat3 V c).arrAt_eq_of_cover 5 (Cert.Spec.bn (F := Ideal) (V c main_v69) mu vr g bt)
    (fun t _ => flushed3_eq V c mu vr g bt hmu hvr hg hbt t) covered3

/-! ## Region 5 -/

/-- The index maps over the 20 grid points: the activations' and the result's blocks move down the rows with the
    point, the four rows' blocks stay at the origin. -/
theorem indexMaps5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The body's store at an entry of the block. -/
theorem blockNorm5_apply (x0 : FVec Ideal S5000x64 .f32) (x1 x2 x3 x4 : FVec Ideal S1x64 .f32) (p : Fin 5000) (q : Fin 64) :
    k5_pay1 (F := Ideal) x0 x1 x2 x3 x4 (ix2 p q)
      = normEntry (x0 (ix2 p q)) (x1 (ix2 (0 : Fin 1) q)) (x2 (ix2 (0 : Fin 1) q)) (x3 (ix2 (0 : Fin 1) q)) (x4 (ix2 (0 : Fin 1) q)) := by
  unfold k5_pay1
  simp only [shapeCast_self]
  show max (((x0 (ix2 p q) - broadcastTo S5000x64 x1 _ (ix2 p q))
        * broadcastTo S5000x64 (rsqrt (addf x2 (broadcast S1x64 (Scalar.ofBits .f32 0x3727C5AC#32)))) _ (ix2 p q))
        * broadcastTo S5000x64 x3 _ (ix2 p q) + broadcastTo S5000x64 x4 _ (ix2 p q)) (Ideal.ofBits .f32 0x00000000#32) = _
  rw [broadcastTo_1b_ab_apply, broadcastTo_1b_ab_apply, broadcastTo_1b_ab_apply, broadcastTo_1b_ab_apply]
  rfl

/-- A block store whose row p is row r of the activations and whose four rows are the four vectors reshaped is, at
    (p, q), the specification at (r, q). -/
theorem blockNorm5_eq_bn (A : FVec Ideal S100000x64 .f32) (mu vr g bt : FVec Ideal S64 .f32)
    (x0 : FVec Ideal S5000x64 .f32) (x1 x2 x3 x4 : FVec Ideal S1x64 .f32) (r : Fin 100000) (p : Fin 5000) (q : Fin 64)
    (h0 : x0 (ix2 p q) = A (ix2 r q)) (h1 : x1 (ix2 (0 : Fin 1) q) = mu (ix1 q)) (h2 : x2 (ix2 (0 : Fin 1) q) = vr (ix1 q))
    (h3 : x3 (ix2 (0 : Fin 1) q) = g (ix1 q)) (h4 : x4 (ix2 (0 : Fin 1) q) = bt (ix1 q)) :
    k5_pay1 (F := Ideal) x0 x1 x2 x3 x4 (ix2 p q) = Cert.Spec.bn (F := Ideal) A mu vr g bt (ix2 r q) := by
  rw [blockNorm5_apply, bn_apply, h0, h1, h2, h3, h4]

/-- The activations' block at point t: its row p is row 5000 t + p of the array. -/
theorem act5_apply (c : Dev nD) (t : Fin cfg5.N) (p : Fin 5000) (q : Fin 64) (r : Fin 100000)
    (hr : r.val = t.val * 5000 + p.val) :
    (iblk5 V c 0 t : Vec Ideal S5000x64 .f32) (ix2 p q)
      = (V c main_v95 : S100000x64.Idx → Elt Ideal .f32) (ix2 r q) := by
  obtain ⟨e0, e1, -⟩ := indexMaps5 t
  have h0 : (((win5_0.rect t).emb (ix2 p q)) (0 : Fin 2) : Nat) = r.val :=
    (win5_0.rect_emb_val t (ix2 p q) (0 : Fin 2)).trans (by
      show win5_0.index t (0 : Fin 2) * 5000 + p.val = r.val
      rw [e0, hr])
  have h1 : (((win5_0.rect t).emb (ix2 p q)) (1 : Fin 2) : Nat) = q.val :=
    (win5_0.rect_emb_val t (ix2 p q) (1 : Fin 2)).trans (by
      show win5_0.index t (1 : Fin 2) * 64 + q.val = q.val
      rw [e1, Nat.zero_mul, Nat.zero_add])
  exact congrArg (V c main_v95) (index2_eq (n0 := 100000) (n1 := 64) _ r q h0 h1)

/-- Window 1's block at every point is the whole row; the row is a vector reshaped, so its entry (0, q) is the
    vector's entry q. -/
theorem row5_1_apply (c : Dev nD) (t : Fin cfg5.N) (q : Fin 64) (v : FVec Ideal S64 .f32)
    (hv : V c main_v100 = shapeCast S1x64 v shapeCasts_S64_S1x64) :
    (iblk5 V c 1 t : Vec Ideal S1x64 .f32) (ix2 (0 : Fin 1) q) = v (ix1 q) := by
  obtain ⟨-, -, e0, e1, -⟩ := indexMaps5 t
  have h0 : (((win5_1.rect t).emb (ix2 (0 : Fin 1) q)) (0 : Fin 2) : Nat) = (0 : Fin 1).val :=
    (win5_1.rect_emb_val t (ix2 (0 : Fin 1) q) (0 : Fin 2)).trans (by
      show win5_1.index t (0 : Fin 2) * 1 + 0 = 0
      rw [e0])
  have h1 : (((win5_1.rect t).emb (ix2 (0 : Fin 1) q)) (1 : Fin 2) : Nat) = q.val :=
    (win5_1.rect_emb_val t (ix2 (0 : Fin 1) q) (1 : Fin 2)).trans (by
      show win5_1.index t (1 : Fin 2) * 64 + q.val = q.val
      rw [e1, Nat.zero_mul, Nat.zero_add])
  have hread : (iblk5 V c 1 t : Vec Ideal S1x64 .f32) (ix2 (0 : Fin 1) q)
      = (V c main_v100 : S1x64.Idx → Elt Ideal .f32) (ix2 (0 : Fin 1) q) :=
    congrArg (V c main_v100) (index2_eq (n0 := 1) (n1 := 64) _ 0 q h0 h1)
  exact hread.trans ((congrFun hv (ix2 (0 : Fin 1) q)).trans (shapeCast_a_1a_apply v shapeCasts_S64_S1x64 0 q))

/-- Window 2's block at every point is the whole row; the row is a vector reshaped, so its entry (0, q) is the
    vector's entry q. -/
theorem row5_2_apply (c : Dev nD) (t : Fin cfg5.N) (q : Fin 64) (v : FVec Ideal S64 .f32)
    (hv : V c main_v101 = shapeCast S1x64 v shapeCasts_S64_S1x64) :
    (iblk5 V c 2 t : Vec Ideal S1x64 .f32) (ix2 (0 : Fin 1) q) = v (ix1 q) := by
  obtain ⟨-, -, -, -, e0, e1, -⟩ := indexMaps5 t
  have h0 : (((win5_2.rect t).emb (ix2 (0 : Fin 1) q)) (0 : Fin 2) : Nat) = (0 : Fin 1).val :=
    (win5_2.rect_emb_val t (ix2 (0 : Fin 1) q) (0 : Fin 2)).trans (by
      show win5_2.index t (0 : Fin 2) * 1 + 0 = 0
      rw [e0])
  have h1 : (((win5_2.rect t).emb (ix2 (0 : Fin 1) q)) (1 : Fin 2) : Nat) = q.val :=
    (win5_2.rect_emb_val t (ix2 (0 : Fin 1) q) (1 : Fin 2)).trans (by
      show win5_2.index t (1 : Fin 2) * 64 + q.val = q.val
      rw [e1, Nat.zero_mul, Nat.zero_add])
  have hread : (iblk5 V c 2 t : Vec Ideal S1x64 .f32) (ix2 (0 : Fin 1) q)
      = (V c main_v101 : S1x64.Idx → Elt Ideal .f32) (ix2 (0 : Fin 1) q) :=
    congrArg (V c main_v101) (index2_eq (n0 := 1) (n1 := 64) _ 0 q h0 h1)
  exact hread.trans ((congrFun hv (ix2 (0 : Fin 1) q)).trans (shapeCast_a_1a_apply v shapeCasts_S64_S1x64 0 q))

/-- Window 3's block at every point is the whole row; the row is a vector reshaped, so its entry (0, q) is the
    vector's entry q. -/
theorem row5_3_apply (c : Dev nD) (t : Fin cfg5.N) (q : Fin 64) (v : FVec Ideal S64 .f32)
    (hv : V c main_v102 = shapeCast S1x64 v shapeCasts_S64_S1x64) :
    (iblk5 V c 3 t : Vec Ideal S1x64 .f32) (ix2 (0 : Fin 1) q) = v (ix1 q) := by
  obtain ⟨-, -, -, -, -, -, e0, e1, -⟩ := indexMaps5 t
  have h0 : (((win5_3.rect t).emb (ix2 (0 : Fin 1) q)) (0 : Fin 2) : Nat) = (0 : Fin 1).val :=
    (win5_3.rect_emb_val t (ix2 (0 : Fin 1) q) (0 : Fin 2)).trans (by
      show win5_3.index t (0 : Fin 2) * 1 + 0 = 0
      rw [e0])
  have h1 : (((win5_3.rect t).emb (ix2 (0 : Fin 1) q)) (1 : Fin 2) : Nat) = q.val :=
    (win5_3.rect_emb_val t (ix2 (0 : Fin 1) q) (1 : Fin 2)).trans (by
      show win5_3.index t (1 : Fin 2) * 64 + q.val = q.val
      rw [e1, Nat.zero_mul, Nat.zero_add])
  have hread : (iblk5 V c 3 t : Vec Ideal S1x64 .f32) (ix2 (0 : Fin 1) q)
      = (V c main_v102 : S1x64.Idx → Elt Ideal .f32) (ix2 (0 : Fin 1) q) :=
    congrArg (V c main_v102) (index2_eq (n0 := 1) (n1 := 64) _ 0 q h0 h1)
  exact hread.trans ((congrFun hv (ix2 (0 : Fin 1) q)).trans (shapeCast_a_1a_apply v shapeCasts_S64_S1x64 0 q))

/-- Window 4's block at every point is the whole row; the row is a vector reshaped, so its entry (0, q) is the
    vector's entry q. -/
theorem row5_4_apply (c : Dev nD) (t : Fin cfg5.N) (q : Fin 64) (v : FVec Ideal S64 .f32)
    (hv : V c main_v103 = shapeCast S1x64 v shapeCasts_S64_S1x64) :
    (iblk5 V c 4 t : Vec Ideal S1x64 .f32) (ix2 (0 : Fin 1) q) = v (ix1 q) := by
  obtain ⟨-, -, -, -, -, -, -, -, e0, e1, -⟩ := indexMaps5 t
  have h0 : (((win5_4.rect t).emb (ix2 (0 : Fin 1) q)) (0 : Fin 2) : Nat) = (0 : Fin 1).val :=
    (win5_4.rect_emb_val t (ix2 (0 : Fin 1) q) (0 : Fin 2)).trans (by
      show win5_4.index t (0 : Fin 2) * 1 + 0 = 0
      rw [e0])
  have h1 : (((win5_4.rect t).emb (ix2 (0 : Fin 1) q)) (1 : Fin 2) : Nat) = q.val :=
    (win5_4.rect_emb_val t (ix2 (0 : Fin 1) q) (1 : Fin 2)).trans (by
      show win5_4.index t (1 : Fin 2) * 64 + q.val = q.val
      rw [e1, Nat.zero_mul, Nat.zero_add])
  have hread : (iblk5 V c 4 t : Vec Ideal S1x64 .f32) (ix2 (0 : Fin 1) q)
      = (V c main_v103 : S1x64.Idx → Elt Ideal .f32) (ix2 (0 : Fin 1) q) :=
    congrArg (V c main_v103) (index2_eq (n0 := 1) (n1 := 64) _ 0 q h0 h1)
  exact hread.trans ((congrFun hv (ix2 (0 : Fin 1) q)).trans (shapeCast_a_1a_apply v shapeCasts_S64_S1x64 0 q))

/-- What point t writes back is block t of the specification of the arrays the region finds. -/
theorem flushed5_eq (c : Dev nD) (mu vr g bt : FVec Ideal S64 .f32)
    (hmu : V c main_v100 = shapeCast S1x64 mu shapeCasts_S64_S1x64) (hvr : V c main_v101 = shapeCast S1x64 vr shapeCasts_S64_S1x64)
    (hg : V c main_v102 = shapeCast S1x64 g shapeCasts_S64_S1x64) (hbt : V c main_v103 = shapeCast S1x64 bt shapeCasts_S64_S1x64)
    (t : Fin cfg5.N) :
    (dat5 V c).flushed 5 t
      = ((cfg5.win 5).blk t).view.read (Elt Ideal) (Cert.Spec.bn (F := Ideal) (V c main_v95) mu vr g bt) := by
  show (cfg5.win 5).cut (grid5.coords t) ((dat5 V c).after 5 t) = _
  rw [after5_5]
  unfold out5_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e10, e11⟩ := indexMaps5 t
  have ht : t.val < 20 := lt_of_lt_of_eq t.isLt N_5
  have hr : t.val * 5000 + p.val < 100000 := by have := p.isLt; omega
  have hemb : ((cfg5.win 5).blk t).view.emb (ix2 p q) = ix2 (⟨t.val * 5000 + p.val, hr⟩ : Fin 100000) q := by
    funext a
    apply Fin.ext
    match a with
    | ⟨0, _⟩ => show win5_5.index t 0 * 5000 + 1 * p.val = t.val * 5000 + p.val; rw [e10]; omega
    | ⟨1, _⟩ => show win5_5.index t 1 * 64 + 1 * q.val = q.val; rw [e11]; omega
  show k5_pay1 (F := Ideal) (iblk5 V c 0 t) (iblk5 V c 1 t) (iblk5 V c 2 t) (iblk5 V c 3 t) (iblk5 V c 4 t) (ix2 p q)
    = Cert.Spec.bn (F := Ideal) (V c main_v95) mu vr g bt (((cfg5.win 5).blk t).view.emb (ix2 p q))
  rw [hemb]
  exact blockNorm5_eq_bn (V c main_v95) mu vr g bt (iblk5 V c 0 t) (iblk5 V c 1 t) (iblk5 V c 2 t) (iblk5 V c 3 t)
    (iblk5 V c 4 t) ⟨t.val * 5000 + p.val, hr⟩ p q
    (act5_apply V c t p q ⟨t.val * 5000 + p.val, hr⟩ rfl) (row5_1_apply V c t q mu hmu) (row5_2_apply V c t q vr hvr)
    (row5_3_apply V c t q g hg) (row5_4_apply V c t q bt hbt)

/-- An index of the result lies in point t's block iff each coordinate is in the block's range on its axis. -/
theorem mem_block5 (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v104).slice (win5_5.rect t)).set ↔ _
  rw [View.set_slice_whole, Rect.mem_set_unit]
  exact Iff.rfl

/-- Row r of the result lies in the block of point r / 5000, which is written back. -/
theorem covered5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨-, -, -, -, -, -, -, -, -, -, e10, e11⟩ := indexMaps5 ⟨(i 0).val / 5000, ht⟩
  refine ⟨⟨(i 0).val / 5000, ht⟩, flush5_5 _, ?_⟩
  rw [mem_block5]
  intro a
  match a with
  | ⟨0, _⟩ =>
    show win5_5.index ⟨(i 0).val / 5000, ht⟩ 0 * 5000 ≤ (i 0).val ∧ (i 0).val < win5_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win5_5.index ⟨(i 0).val / 5000, ht⟩ 1 * 64 ≤ (i 1).val ∧ (i 1).val < win5_5.index ⟨(i 0).val / 5000, ht⟩ 1 * 64 + 64
    rw [e11]; omega

/-- The result array after region 5 is the specification's normalisation of the arrays the region finds. -/
theorem final5 (c : Dev nD) (mu vr g bt : FVec Ideal S64 .f32)
    (hmu : V c main_v100 = shapeCast S1x64 mu shapeCasts_S64_S1x64) (hvr : V c main_v101 = shapeCast S1x64 vr shapeCasts_S64_S1x64)
    (hg : V c main_v102 = shapeCast S1x64 g shapeCasts_S64_S1x64) (hbt : V c main_v103 = shapeCast S1x64 bt shapeCasts_S64_S1x64) :
    (dat5 V c).arrAt 5 cfg5.N = Cert.Spec.bn (F := Ideal) (V c main_v95) mu vr g bt :=
  (dat5 V c).arrAt_eq_of_cover 5 (Cert.Spec.bn (F := Ideal) (V c main_v95) mu vr g bt)
    (fun t _ => flushed5_eq V c mu vr g bt hmu hvr hg hbt t) covered5

end Cert.KernelIdeal.RegionValue

end
-- ==== Proof.RegionsHead.lean ====
/-
  Regions 6 and 7: the two head layers, max(h · w + b, 0) with h : [100000,64], w : [64,32], b : [32], and
  h · w + b with h : [100000,32], w : [32,1], b : [1].

  The grid has 20 points. Point t stages rows 5000 t … 5000 t + 4999 of h, the whole of w and the bias row whole,
  multiplies the two blocks into a zero accumulator (the narrowing to bf16 is the identity on extended reals), adds
  the bias row to every row of the product (and, in the first, clamps at zero), and writes the block back to rows
  5000 t … 5000 t + 4999 of the result. The bias row is the bias vector reshaped to one row, so its entry (0, q) is
  the vector's entry q; the specification broadcasts the same vector down the rows. Entry (5000 t + p, q) of the
  specification is therefore the stored entry (p, q); every row r of the result lies in the block of point
  r / 5000, so the result array is the specification's.
-/
import proofs.«109477_j27238682591805_1_alg».proof.Proof.Spec
import proofs.«109477_j27238682591805_1_alg».proof.Proof.Gen.KernelIdeal.Frame
import proofs.«109477_j27238682591805_1_alg».proof.Proof.LibDenseLayers
import proofs.«109477_j27238682591805_1_alg».proof.Proof.LibHostMatmul
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, in the form the rectangle lemmas take. -/
private theorem zeroOffsets : (![0, 0] : Fin 2 → Nat) = fun _ => 0 := funext fun a => by fin_cases a <;> rfl

/-- An index of a rank-2 array is determined by its two coordinates. -/
private theorem index2_eq {n0 n1 : Nat} (i : (⟨2, ![n0, n1]⟩ : Shape).Idx) (a : Fin n0) (b : Fin n1)
    (h0 : (i 0).val = a.val) (h1 : (i 1).val = b.val) : i = ix2 a b :=
  funext fun d => match d with
    | ⟨0, _⟩ => Fin.ext h0
    | ⟨1, _⟩ => Fin.ext h1

/-! ## The specification at an entry -/

/-- x · w for x : [100000,64], w : [64,32] at an entry: the sum over the contracted coordinate. -/
theorem lin32_apply (X : FVec Ideal S100000x64 .f32) (W : FVec Ideal S64x32 .f32) (r : Fin 100000) (q : Fin 32) :
    Cert.Spec.lin32 (F := Ideal) X W (ix2 r q) = ∑ k : Fin 64, X (ix2 r k) * W (ix2 k q) := by
  unfold Cert.Spec.lin32
  exact DenseLayers.dotGeneral_rowcol_apply (m := 100000) (k := 64) (n := 32)
    Cert.ReferenceIdeal.Facts₀.dot_S100000x64_S64x32_S100000x32_1_0_0_1_n_n_wf none X W r q

/-- x · w for x : [100000,32], w : [32,1] at an entry: the sum over the contracted coordinate. -/
theorem lin1_apply (X : FVec Ideal S100000x32 .f32) (W : FVec Ideal S32x1 .f32) (r : Fin 100000) (q : Fin 1) :
    Cert.Spec.lin1 (F := Ideal) X W (ix2 r q) = ∑ k : Fin 32, X (ix2 r k) * W (ix2 k q) := by
  unfold Cert.Spec.lin1
  exact DenseLayers.dotGeneral_rowcol_apply (m := 100000) (k := 32) (n := 1)
    Cert.ReferenceIdeal.Facts₀.dot_S100000x32_S32x1_S100000x1_1_0_0_1_n_n_wf none X W r q

/-- A length-32 vector made a row reads, at (0, q), the vector at q. -/
theorem row32_apply {α : Type} (v : S32.Idx → α) (u : Fin 1) (q : Fin 32) :
    broadcastInDim Cert.ReferenceIdeal.S1x32 ![1] Cert.ReferenceIdeal.Facts₀.bcast_S32_S1x32_1 v (ix2 u q) = v (ix1 q) := by
  refine broadcastInDim_apply ![1] _ v (ix2 u q) (ix1 q) fun a => ?_
  match a with
  | ⟨0, _⟩ => rfl

/-- A length-1 vector made a row reads, at (0, 0), the vector's one entry. -/
theorem row1_apply {α : Type} (v : S1.Idx → α) (u : Fin 1) (q : Fin 1) :
    broadcastInDim Cert.ReferenceIdeal.S1x1 ![1] Cert.ReferenceIdeal.Facts₀.bcast_S1_S1x1_1 v (ix2 u q) = v (ix1 q) := by
  refine broadcastInDim_apply ![1] _ v (ix2 u q) (ix1 q) fun a => ?_
  match a with
  | ⟨0, _⟩ => show q.val = 0; have := q.isLt; omega

/-- The first head layer at an entry. -/
theorem head1_apply (H : FVec Ideal S100000x64 .f32) (W : FVec Ideal S64x32 .f32) (b : FVec Ideal S32 .f32)
    (r : Fin 100000) (q : Fin 32) :
    Cert.Spec.head1 (F := Ideal) H W b (ix2 r q)
      = max ((∑ k : Fin 64, H (ix2 r k) * W (ix2 k q)) + b (ix1 q)) (Ideal.ofBits .f32 0x00000000#32) := by
  unfold Cert.Spec.head1
  show max (Cert.Spec.lin32 (F := Ideal) H W (ix2 r q)
      + broadcastInDim Cert.ReferenceIdeal.S100000x32 ![0, 1] _ (broadcastInDim Cert.ReferenceIdeal.S1x32 ![1] _ b) (ix2 r q))
      (Ideal.ofBits .f32 0x00000000#32) = _
  rw [lin32_apply, broadcastInDim_oneRow_apply, row32_apply]

/-- The second head layer at an entry. -/
theorem head2_apply (H : FVec Ideal S100000x32 .f32) (W : FVec Ideal S32x1 .f32) (b : FVec Ideal S1 .f32)
    (r : Fin 100000) (q : Fin 1) :
    Cert.Spec.head2 (F := Ideal) H W b (ix2 r q) = (∑ k : Fin 32, H (ix2 r k) * W (ix2 k q)) + b (ix1 q) := by
  unfold Cert.Spec.head2
  show Cert.Spec.lin1 (F := Ideal) H W (ix2 r q)
      + broadcastInDim Cert.ReferenceIdeal.S100000x1 ![0, 1] _ (broadcastInDim Cert.ReferenceIdeal.S1x1 ![1] _ b) (ix2 r q) = _
  rw [lin1_apply, broadcastInDim_oneRow_apply, row1_apply]

/-! ## Region 6 -/

/-- The index maps over the 20 grid points: the activations' and the result's blocks move down the rows with the
    point, the weights' and the bias row's blocks stay at the origin. -/
theorem indexMaps6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's store at an entry of the block: the block product's entry plus the bias row's entry, clamped at zero. -/
theorem blockHead6_apply (x0 : FVec Ideal S5000x64 .f32) (x1 : FVec Ideal S64x32 .f32) (x2 : FVec Ideal S1x32 .f32)
    (p : Fin 5000) (q : Fin 32) :
    k6_pay1 (F := Ideal) x0 x1 x2 (ix2 p q)
      = max ((∑ k : Fin 64, x0 (ix2 p k) * x1 (ix2 k q)) + x2 (ix2 (0 : Fin 1) q)) (Ideal.ofBits .f32 0x00000000#32) := by
  unfold k6_pay1
  simp only [shapeCast_self]
  show max (matmul dot_S5000x64_S64x32_S5000x32_1_0_0_1_n_n none (truncf .bf16 x0 Facts₀.bitsLt_bf16_f32) (truncf .bf16 x1 Facts₀.bitsLt_bf16_f32)
      (constant (F := Ideal) S5000x32 .f32 0x00000000#32) (ix2 p q) + broadcastTo S5000x32 x2 _ (ix2 p q)) (Ideal.ofBits .f32 0x00000000#32) = _
  rw [broadcastTo_1b_ab_apply]
  refine congrArg (fun z : EReal => max (z + x2 (ix2 (0 : Fin 1) q)) (Ideal.ofBits .f32 0x00000000#32)) ?_
  exact DenseLayers.matmul_rowcol_zero_apply (m := 5000) (k := 64) (n := 32)
    Facts₀.dot_S5000x64_S64x32_S5000x32_1_0_0_1_n_n_wf none
    (truncf .bf16 x0 Facts₀.bitsLt_bf16_f32) (truncf .bf16 x1 Facts₀.bitsLt_bf16_f32) p q

/-- A block store whose row p is row r of the activations, whose second operand is the weights and whose bias row
    is the bias vector reshaped is, at (p, q), the specification at (r, q). -/
theorem blockHead6_eq_head1 (H : FVec Ideal S100000x64 .f32) (W : FVec Ideal S64x32 .f32) (b : FVec Ideal S32 .f32)
    (x0 : FVec Ideal S5000x64 .f32) (x1 : FVec Ideal S64x32 .f32) (x2 : FVec Ideal S1x32 .f32)
    (r : Fin 100000) (p : Fin 5000) (q : Fin 32)
    (h0 : ∀ k : Fin 64, x0 (ix2 p k) = H (ix2 r k)) (h1 : ∀ k : Fin 64, x1 (ix2 k q) = W (ix2 k q))
    (h2 : x2 (ix2 (0 : Fin 1) q) = b (ix1 q)) :
    k6_pay1 (F := Ideal) x0 x1 x2 (ix2 p q) = Cert.Spec.head1 (F := Ideal) H W b (ix2 r q) := by
  rw [blockHead6_apply, head1_apply, h2]
  refine congrArg (fun z : EReal => max (z + b (ix1 q)) (Ideal.ofBits .f32 0x00000000#32)) ?_
  exact Finset.sum_congr rfl fun k _ => by rw [h0 k, h1 k]

/-- The activations' block at point t: its row p is row 5000 t + p of the array. -/
theorem rows6_apply (c : Dev nD) (t : Fin cfg6.N) (p : Fin 5000) (k : Fin 64) (r : Fin 100000)
    (hr : r.val = t.val * 5000 + p.val) :
    (iblk6 V c 0 t : Vec Ideal S5000x64 .f32) (ix2 p k)
      = (V c main_v104 : S100000x64.Idx → Elt Ideal .f32) (ix2 r k) := by
  obtain ⟨e0, e1, -⟩ := indexMaps6 t
  have h0 : (((win6_0.rect t).emb (ix2 p k)) (0 : Fin 2) : Nat) = r.val :=
    (win6_0.rect_emb_val t (ix2 p k) (0 : Fin 2)).trans (by
      show win6_0.index t (0 : Fin 2) * 5000 + p.val = r.val
      rw [e0, hr])
  have h1 : (((win6_0.rect t).emb (ix2 p k)) (1 : Fin 2) : Nat) = k.val :=
    (win6_0.rect_emb_val t (ix2 p k) (1 : Fin 2)).trans (by
      show win6_0.index t (1 : Fin 2) * 64 + k.val = k.val
      rw [e1, Nat.zero_mul, Nat.zero_add])
  exact congrArg (V c main_v104) (index2_eq (n0 := 100000) (n1 := 64) _ r k h0 h1)

/-- The weights' block at every point is the whole weight matrix. -/
theorem weights6_apply (c : Dev nD) (t : Fin cfg6.N) (k : Fin 64) (q : Fin 32) :
    (iblk6 V c 1 t : Vec Ideal S64x32 .f32) (ix2 k q)
      = (V c main_arg14 : S64x32.Idx → Elt Ideal .f32) (ix2 k q) := by
  obtain ⟨-, -, e2, e3, -⟩ := indexMaps6 t
  have h0 : (((win6_1.rect t).emb (ix2 k q)) (0 : Fin 2) : Nat) = k.val :=
    (win6_1.rect_emb_val t (ix2 k q) (0 : Fin 2)).trans (by
      show win6_1.index t (0 : Fin 2) * 64 + k.val = k.val
      rw [e2, Nat.zero_mul, Nat.zero_add])
  have h1 : (((win6_1.rect t).emb (ix2 k q)) (1 : Fin 2) : Nat) = q.val :=
    (win6_1.rect_emb_val t (ix2 k q) (1 : Fin 2)).trans (by
      show win6_1.index t (1 : Fin 2) * 32 + q.val = q.val
      rw [e3, Nat.zero_mul, Nat.zero_add])
  exact congrArg (V c main_arg14) (index2_eq (n0 := 64) (n1 := 32) _ k q h0 h1)

/-- The bias row's block at every point is the whole row; the row is the bias vector reshaped, so its entry (0, q)
    is the vector's entry q. -/
theorem bias6_apply (c : Dev nD) (t : Fin cfg6.N) (q : Fin 32) (b : FVec Ideal S32 .f32)
    (hb : V c main_v105 = shapeCast S1x32 b shapeCasts_S32_S1x32) :
    (iblk6 V c 2 t : Vec Ideal S1x32 .f32) (ix2 (0 : Fin 1) q) = b (ix1 q) := by
  obtain ⟨-, -, -, -, e0, e1, -⟩ := indexMaps6 t
  have h0 : (((win6_2.rect t).emb (ix2 (0 : Fin 1) q)) (0 : Fin 2) : Nat) = (0 : Fin 1).val :=
    (win6_2.rect_emb_val t (ix2 (0 : Fin 1) q) (0 : Fin 2)).trans (by
      show win6_2.index t (0 : Fin 2) * 1 + 0 = 0
      rw [e0])
  have h1 : (((win6_2.rect t).emb (ix2 (0 : Fin 1) q)) (1 : Fin 2) : Nat) = q.val :=
    (win6_2.rect_emb_val t (ix2 (0 : Fin 1) q) (1 : Fin 2)).trans (by
      show win6_2.index t (1 : Fin 2) * 32 + q.val = q.val
      rw [e1, Nat.zero_mul, Nat.zero_add])
  have hread : (iblk6 V c 2 t : Vec Ideal S1x32 .f32) (ix2 (0 : Fin 1) q)
      = (V c main_v105 : S1x32.Idx → Elt Ideal .f32) (ix2 (0 : Fin 1) q) :=
    congrArg (V c main_v105) (index2_eq (n0 := 1) (n1 := 32) _ 0 q h0 h1)
  exact hread.trans ((congrFun hb (ix2 (0 : Fin 1) q)).trans (shapeCast_a_1a_apply b shapeCasts_S32_S1x32 0 q))

/-- What point t writes back is block t of the specification of the arrays the region finds. -/
theorem flushed6_eq (c : Dev nD) (b : FVec Ideal S32 .f32) (hb : V c main_v105 = shapeCast S1x32 b shapeCasts_S32_S1x32)
    (t : Fin cfg6.N) :
    (dat6 V c).flushed 3 t
      = ((cfg6.win 3).blk t).view.read (Elt Ideal) (Cert.Spec.head1 (F := Ideal) (V c main_v104) (V c main_arg14) b) := by
  show (cfg6.win 3).cut (grid6.coords t) ((dat6 V c).after 3 t) = _
  rw [after6_3]
  unfold out6_3
  rw [View.canon_unit_zero zeroOffsets]
  simp only [View.ld_unit_zero (S := S5000x64) zeroOffsets, View.ld_unit_zero (S := S64x32) zeroOffsets,
    View.ld_unit_zero (S := S1x32) zeroOffsets]
  funext j
  obtain ⟨p, q, rfl⟩ : ∃ (p : Fin 5000) (q : Fin 32), j = ix2 p q := ⟨j 0, j 1, eq_ix2 j⟩
  obtain ⟨-, -, -, -, -, -, e6, e7⟩ := indexMaps6 t
  have ht : t.val < 20 := lt_of_lt_of_eq t.isLt N_6
  have hr : t.val * 5000 + p.val < 100000 := by have := p.isLt; omega
  have hemb : ((cfg6.win 3).blk t).view.emb (ix2 p q) = ix2 (⟨t.val * 5000 + p.val, hr⟩ : Fin 100000) q := by
    funext a
    apply Fin.ext
    match a with
    | ⟨0, _⟩ => show win6_3.index t 0 * 5000 + 1 * p.val = t.val * 5000 + p.val; rw [e6]; omega
    | ⟨1, _⟩ => show win6_3.index t 1 * 32 + 1 * q.val = q.val; rw [e7]; omega
  show k6_pay1 (F := Ideal) (iblk6 V c 0 t) (iblk6 V c 1 t) (iblk6 V c 2 t) (ix2 p q)
    = Cert.Spec.head1 (F := Ideal) (V c main_v104) (V c main_arg14) b (((cfg6.win 3).blk t).view.emb (ix2 p q))
  rw [hemb]
  exact blockHead6_eq_head1 (V c main_v104) (V c main_arg14) b (iblk6 V c 0 t) (iblk6 V c 1 t) (iblk6 V c 2 t)
    ⟨t.val * 5000 + p.val, hr⟩ p q
    (fun k => rows6_apply V c t p k ⟨t.val * 5000 + p.val, hr⟩ rfl) (fun k => weights6_apply V c t k q)
    (bias6_apply V c t q b hb)

/-- An index of the result lies in point t's block iff each coordinate is in the block's range on its axis. -/
theorem mem_block6 (t : Fin cfg6.N) (i : S100000x32.Idx) :
    i ∈ ((cfg6.win 3).blk t).view.set ↔ ∀ a : Fin 2, win6_3.index t a * S5000x32.size a ≤ (i a).val
      ∧ (i a).val < win6_3.index t a * S5000x32.size a + S5000x32.size a := by
  show i ∈ ((View.whole main_v106).slice (win6_3.rect t)).set ↔ _
  rw [View.set_slice_whole, Rect.mem_set_unit]
  exact Iff.rfl

/-- Row r of the result lies in the block of point r / 5000, which is written back. -/
theorem covered6 (i : S100000x32.Idx) :
    ∃ t : Fin cfg6.N, (cfg6.win 3).flush t = true ∧ i ∈ ((cfg6.win 3).blk t).view.set := by
  have hi0 : (i 0).val < 100000 := (i 0).isLt
  have hi1 : (i 1).val < 32 := (i 1).isLt
  have hN : cfg6.N = 20 := N_6
  have ht : (i 0).val / 5000 < cfg6.N := by rw [hN]; omega
  obtain ⟨-, -, -, -, -, -, e6, e7⟩ := indexMaps6 ⟨(i 0).val / 5000, ht⟩
  refine ⟨⟨(i 0).val / 5000, ht⟩, flush6_3 _, ?_⟩
  rw [mem_block6]
  intro a
  match a with
  | ⟨0, _⟩ =>
    show win6_3.index ⟨(i 0).val / 5000, ht⟩ 0 * 5000 ≤ (i 0).val ∧ (i 0).val < win6_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win6_3.index ⟨(i 0).val / 5000, ht⟩ 1 * 32 ≤ (i 1).val ∧ (i 1).val < win6_3.index ⟨(i 0).val / 5000, ht⟩ 1 * 32 + 32
    rw [e7]; omega

/-- The result array after region 6 is the specification's first head layer of the arrays the region finds. -/
theorem final6 (c : Dev nD) (b : FVec Ideal S32 .f32) (hb : V c main_v105 = shapeCast S1x32 b shapeCasts_S32_S1x32) :
    (dat6 V c).arrAt 3 cfg6.N = Cert.Spec.head1 (F := Ideal) (V c main_v104) (V c main_arg14) b :=
  (dat6 V c).arrAt_eq_of_cover 3 (Cert.Spec.head1 (F := Ideal) (V c main_v104) (V c main_arg14) b)
    (fun t _ => flushed6_eq V c b hb t) covered6

/-! ## Region 7 -/

/-- The index maps over the 20 grid points: the activations' and the result's blocks move down the rows with the
    point, the weights' and the bias row's blocks stay at the origin. -/
theorem indexMaps7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's store at an entry of the block: the block product's entry plus the bias row's entry. -/
theorem blockHead7_apply (x0 : FVec Ideal S5000x32 .f32) (x1 : FVec Ideal S32x1 .f32) (x2 : FVec Ideal S1x1 .f32)
    (p : Fin 5000) (q : Fin 1) :
    k7_pay1 (F := Ideal) x0 x1 x2 (ix2 p q)
      = (∑ k : Fin 32, x0 (ix2 p k) * x1 (ix2 k q)) + x2 (ix2 (0 : Fin 1) q) := by
  unfold k7_pay1
  simp only [shapeCast_self]
  show matmul dot_S5000x32_S32x1_S5000x1_1_0_0_1_n_n none (truncf .bf16 x0 Facts₀.bitsLt_bf16_f32) (truncf .bf16 x1 Facts₀.bitsLt_bf16_f32)
      (constant (F := Ideal) S5000x1 .f32 0x00000000#32) (ix2 p q) + broadcastTo S5000x1 x2 _ (ix2 p q) = _
  rw [broadcastTo_1b_ab_apply]
  refine congrArg (fun z : EReal => z + x2 (ix2 (0 : Fin 1) q)) ?_
  exact DenseLayers.matmul_rowcol_zero_apply (m := 5000) (k := 32) (n := 1)
    Facts₀.dot_S5000x32_S32x1_S5000x1_1_0_0_1_n_n_wf none
    (truncf .bf16 x0 Facts₀.bitsLt_bf16_f32) (truncf .bf16 x1 Facts₀.bitsLt_bf16_f32) p q

/-- A block store whose row p is row r of the activations, whose second operand is the weights and whose bias row
    is the bias vector reshaped is, at (p, q), the specification at (r, q). -/
theorem blockHead7_eq_head2 (H : FVec Ideal S100000x32 .f32) (W : FVec Ideal S32x1 .f32) (b : FVec Ideal S1 .f32)
    (x0 : FVec Ideal S5000x32 .f32) (x1 : FVec Ideal S32x1 .f32) (x2 : FVec Ideal S1x1 .f32)
    (r : Fin 100000) (p : Fin 5000) (q : Fin 1)
    (h0 : ∀ k : Fin 32, x0 (ix2 p k) = H (ix2 r k)) (h1 : ∀ k : Fin 32, x1 (ix2 k q) = W (ix2 k q))
    (h2 : x2 (ix2 (0 : Fin 1) q) = b (ix1 q)) :
    k7_pay1 (F := Ideal) x0 x1 x2 (ix2 p q) = Cert.Spec.head2 (F := Ideal) H W b (ix2 r q) := by
  rw [blockHead7_apply, head2_apply, h2]
  refine congrArg (fun z : EReal => z + b (ix1 q)) ?_
  exact Finset.sum_congr rfl fun k _ => by rw [h0 k, h1 k]

/-- The activations' block at point t: its row p is row 5000 t + p of the array. -/
theorem rows7_apply (c : Dev nD) (t : Fin cfg7.N) (p : Fin 5000) (k : Fin 32) (r : Fin 100000)
    (hr : r.val = t.val * 5000 + p.val) :
    (iblk7 V c 0 t : Vec Ideal S5000x32 .f32) (ix2 p k)
      = (V c main_v106 : S100000x32.Idx → Elt Ideal .f32) (ix2 r k) := by
  obtain ⟨e0, e1, -⟩ := indexMaps7 t
  have h0 : (((win7_0.rect t).emb (ix2 p k)) (0 : Fin 2) : Nat) = r.val :=
    (win7_0.rect_emb_val t (ix2 p k) (0 : Fin 2)).trans (by
      show win7_0.index t (0 : Fin 2) * 5000 + p.val = r.val
      rw [e0, hr])
  have h1 : (((win7_0.rect t).emb (ix2 p k)) (1 : Fin 2) : Nat) = k.val :=
    (win7_0.rect_emb_val t (ix2 p k) (1 : Fin 2)).trans (by
      show win7_0.index t (1 : Fin 2) * 32 + k.val = k.val
      rw [e1, Nat.zero_mul, Nat.zero_add])
  exact congrArg (V c main_v106) (index2_eq (n0 := 100000) (n1 := 32) _ r k h0 h1)

/-- The weights' block at every point is the whole weight matrix. -/
theorem weights7_apply (c : Dev nD) (t : Fin cfg7.N) (k : Fin 32) (q : Fin 1) :
    (iblk7 V c 1 t : Vec Ideal S32x1 .f32) (ix2 k q)
      = (V c main_arg16 : S32x1.Idx → Elt Ideal .f32) (ix2 k q) := by
  obtain ⟨-, -, e2, e3, -⟩ := indexMaps7 t
  have h0 : (((win7_1.rect t).emb (ix2 k q)) (0 : Fin 2) : Nat) = k.val :=
    (win7_1.rect_emb_val t (ix2 k q) (0 : Fin 2)).trans (by
      show win7_1.index t (0 : Fin 2) * 32 + k.val = k.val
      rw [e2, Nat.zero_mul, Nat.zero_add])
  have h1 : (((win7_1.rect t).emb (ix2 k q)) (1 : Fin 2) : Nat) = q.val :=
    (win7_1.rect_emb_val t (ix2 k q) (1 : Fin 2)).trans (by
      show win7_1.index t (1 : Fin 2) * 1 + q.val = q.val
      rw [e3, Nat.zero_mul, Nat.zero_add])
  exact congrArg (V c main_arg16) (index2_eq (n0 := 32) (n1 := 1) _ k q h0 h1)

/-- The bias row's block at every point is the whole row; the row is the bias vector reshaped, so its entry (0, q)
    is the vector's entry q. -/
theorem bias7_apply (c : Dev nD) (t : Fin cfg7.N) (q : Fin 1) (b : FVec Ideal S1 .f32)
    (hb : V c main_v107 = shapeCast S1x1 b shapeCasts_S1_S1x1) :
    (iblk7 V c 2 t : Vec Ideal S1x1 .f32) (ix2 (0 : Fin 1) q) = b (ix1 q) := by
  obtain ⟨-, -, -, -, e0, e1, -⟩ := indexMaps7 t
  have h0 : (((win7_2.rect t).emb (ix2 (0 : Fin 1) q)) (0 : Fin 2) : Nat) = (0 : Fin 1).val :=
    (win7_2.rect_emb_val t (ix2 (0 : Fin 1) q) (0 : Fin 2)).trans (by
      show win7_2.index t (0 : Fin 2) * 1 + 0 = 0
      rw [e0])
  have h1 : (((win7_2.rect t).emb (ix2 (0 : Fin 1) q)) (1 : Fin 2) : Nat) = q.val :=
    (win7_2.rect_emb_val t (ix2 (0 : Fin 1) q) (1 : Fin 2)).trans (by
      show win7_2.index t (1 : Fin 2) * 1 + q.val = q.val
      rw [e1, Nat.zero_mul, Nat.zero_add])
  have hread : (iblk7 V c 2 t : Vec Ideal S1x1 .f32) (ix2 (0 : Fin 1) q)
      = (V c main_v107 : S1x1.Idx → Elt Ideal .f32) (ix2 (0 : Fin 1) q) :=
    congrArg (V c main_v107) (index2_eq (n0 := 1) (n1 := 1) _ 0 q h0 h1)
  exact hread.trans ((congrFun hb (ix2 (0 : Fin 1) q)).trans (shapeCast_a_1a_apply b shapeCasts_S1_S1x1 0 q))

/-- What point t writes back is block t of the specification of the arrays the region finds. -/
theorem flushed7_eq (c : Dev nD) (b : FVec Ideal S1 .f32) (hb : V c main_v107 = shapeCast S1x1 b shapeCasts_S1_S1x1)
    (t : Fin cfg7.N) :
    (dat7 V c).flushed 3 t
      = ((cfg7.win 3).blk t).view.read (Elt Ideal) (Cert.Spec.head2 (F := Ideal) (V c main_v106) (V c main_arg16) b) := by
  show (cfg7.win 3).cut (grid7.coords t) ((dat7 V c).after 3 t) = _
  rw [after7_3]
  unfold out7_3
  rw [View.canon_unit_zero zeroOffsets]
  simp only [View.ld_unit_zero (S := S5000x32) zeroOffsets, View.ld_unit_zero (S := S32x1) zeroOffsets,
    View.ld_unit_zero (S := S1x1) zeroOffsets]
  funext j
  obtain ⟨p, q, rfl⟩ : ∃ (p : Fin 5000) (q : Fin 1), j = ix2 p q := ⟨j 0, j 1, eq_ix2 j⟩
  obtain ⟨-, -, -, -, -, -, e6, e7⟩ := indexMaps7 t
  have ht : t.val < 20 := lt_of_lt_of_eq t.isLt N_7
  have hr : t.val * 5000 + p.val < 100000 := by have := p.isLt; omega
  have hemb : ((cfg7.win 3).blk t).view.emb (ix2 p q) = ix2 (⟨t.val * 5000 + p.val, hr⟩ : Fin 100000) q := by
    funext a
    apply Fin.ext
    match a with
    | ⟨0, _⟩ => show win7_3.index t 0 * 5000 + 1 * p.val = t.val * 5000 + p.val; rw [e6]; omega
    | ⟨1, _⟩ => show win7_3.index t 1 * 1 + 1 * q.val = q.val; rw [e7]; omega
  show k7_pay1 (F := Ideal) (iblk7 V c 0 t) (iblk7 V c 1 t) (iblk7 V c 2 t) (ix2 p q)
    = Cert.Spec.head2 (F := Ideal) (V c main_v106) (V c main_arg16) b (((cfg7.win 3).blk t).view.emb (ix2 p q))
  rw [hemb]
  exact blockHead7_eq_head2 (V c main_v106) (V c main_arg16) b (iblk7 V c 0 t) (iblk7 V c 1 t) (iblk7 V c 2 t)
    ⟨t.val * 5000 + p.val, hr⟩ p q
    (fun k => rows7_apply V c t p k ⟨t.val * 5000 + p.val, hr⟩ rfl) (fun k => weights7_apply V c t k q)
    (bias7_apply V c t q b hb)

/-- An index of the result lies in point t's block iff each coordinate is in the block's range on its axis. -/
theorem mem_block7 (t : Fin cfg7.N) (i : S100000x1.Idx) :
    i ∈ ((cfg7.win 3).blk t).view.set ↔ ∀ a : Fin 2, win7_3.index t a * S5000x1.size a ≤ (i a).val
      ∧ (i a).val < win7_3.index t a * S5000x1.size a + S5000x1.size a := by
  show i ∈ ((View.whole main_v108).slice (win7_3.rect t)).set ↔ _
  rw [View.set_slice_whole, Rect.mem_set_unit]
  exact Iff.rfl

/-- Row r of the result lies in the block of point r / 5000, which is written back. -/
theorem covered7 (i : S100000x1.Idx) :
    ∃ t : Fin cfg7.N, (cfg7.win 3).flush t = true ∧ i ∈ ((cfg7.win 3).blk t).view.set := by
  have hi0 : (i 0).val < 100000 := (i 0).isLt
  have hi1 : (i 1).val < 1 := (i 1).isLt
  have hN : cfg7.N = 20 := N_7
  have ht : (i 0).val / 5000 < cfg7.N := by rw [hN]; omega
  obtain ⟨-, -, -, -, -, -, e6, e7⟩ := indexMaps7 ⟨(i 0).val / 5000, ht⟩
  refine ⟨⟨(i 0).val / 5000, ht⟩, flush7_3 _, ?_⟩
  rw [mem_block7]
  intro a
  match a with
  | ⟨0, _⟩ =>
    show win7_3.index ⟨(i 0).val / 5000, ht⟩ 0 * 5000 ≤ (i 0).val ∧ (i 0).val < win7_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win7_3.index ⟨(i 0).val / 5000, ht⟩ 1 * 1 ≤ (i 1).val ∧ (i 1).val < win7_3.index ⟨(i 0).val / 5000, ht⟩ 1 * 1 + 1
    rw [e7]; omega

/-- The result array after region 7 is the specification's second head layer of the arrays the region finds. -/
theorem final7 (c : Dev nD) (b : FVec Ideal S1 .f32) (hb : V c main_v107 = shapeCast S1x1 b shapeCasts_S1_S1x1) :
    (dat7 V c).arrAt 3 cfg7.N = Cert.Spec.head2 (F := Ideal) (V c main_v106) (V c main_arg16) b :=
  (dat7 V c).arrAt_eq_of_cover 3 (Cert.Spec.head2 (F := Ideal) (V c main_v106) (V c main_arg16) b)
    (fun t _ => flushed7_eq V c b hb t) covered7

end Cert.KernelIdeal.RegionValue

end
-- ==== Proof.KernelStages.lean ====
/-
  The kernel's boundary contents stage by stage: after each dense region its output array is the specification's
  stage applied to the arrays the region read (a projection, a normalisation with the clamp at zero, a head layer), the
  four statistic and affine vectors reaching a normalisation region as rows, and the result the last column as a vector.
-/
import proofs.«109477_j27238682591805_1_alg».proof.Proof.KernelCarry
import proofs.«109477_j27238682591805_1_alg».proof.Proof.Spec
import proofs.«109477_j27238682591805_1_alg».proof.Proof.RegionsLinear
import proofs.«109477_j27238682591805_1_alg».proof.Proof.RegionsNorm
import proofs.«109477_j27238682591805_1_alg».proof.Proof.RegionsHead

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Layer 1 -/

/-- The first projection: the node features times the first weight matrix. -/
theorem proj1 : W2 m ρ c (Proc.devRef .tc main_v27) = Spec.lin128 (m ((c : Thread nD τ).loc main_arg0)) (m ((c : Thread nD τ).loc main_arg2)) := by
  have h := (W2_arr m ρ c 2).trans (RegionValue.final0 (V1 m ρ) c)
  rw [show V1 m ρ c main_arg0 = m ((c : Thread nD τ).loc main_arg0) from Carry.arg0_at1 m ρ c,
    show V1 m ρ c main_arg2 = m ((c : Thread nD τ).loc main_arg2) from Carry.arg2_at1 m ρ c] at h
  exact h

theorem row48 : W5 m ρ c (Proc.devRef .tc main_v48) = shapeCast S1x64 (W4 m ρ c (Proc.devRef .tc main_v46)) shapeCasts_S64_S1x64 := by
  show after hostOps1_2 (W4 m ρ c) _ = _
  generalize W4 m ρ c = X
  simp only [hostOps1_2]; after_results; rfl
theorem row49 : W5 m ρ c (Proc.devRef .tc main_v49) = shapeCast S1x64 (W4 m ρ c (Proc.devRef .tc main_v47)) shapeCasts_S64_S1x64 := by
  show after hostOps1_2 (W4 m ρ c) _ = _
  generalize W4 m ρ c = X
  simp only [hostOps1_2]; after_results; rfl
theorem row50 : W5 m ρ c (Proc.devRef .tc main_v50) = shapeCast S1x64 (m ((c : Thread nD τ).loc main_arg4)) shapeCasts_S64_S1x64 := by
  rw [← Carry.arg4_at4 m ρ c]
  show after hostOps1_2 (W4 m ρ c) _ = _
  generalize W4 m ρ c = X
  simp only [hostOps1_2]; after_results; rfl
theorem row51 : W5 m ρ c (Proc.devRef .tc main_v51) = shapeCast S1x64 (m ((c : Thread nD τ).loc main_arg5)) shapeCasts_S64_S1x64 := by
  rw [← Carry.arg5_at4 m ρ c]
  show after hostOps1_2 (W4 m ρ c) _ = _
  generalize W4 m ρ c = X
  simp only [hostOps1_2]; after_results; rfl

/-- The first normalisation, of the aggregated features with their column statistics. -/
theorem norm1 : W6 m ρ c (Proc.devRef .tc main_v52) = Spec.bn (W4 m ρ c (Proc.devRef .tc main_v43)) (W4 m ρ c (Proc.devRef .tc main_v46))
    (W4 m ρ c (Proc.devRef .tc main_v47)) (m ((c : Thread nD τ).loc main_arg4)) (m ((c : Thread nD τ).loc main_arg5)) := by
  have h := (W6_arr m ρ c 5).trans (RegionValue.final1 (V5 m ρ) c _ _ _ _ (row48 m ρ c) (row49 m ρ c) (row50 m ρ c) (row51 m ρ c))
  rw [show V5 m ρ c main_v43 = W4 m ρ c (Proc.devRef .tc main_v43) from Carry.v43_5_4 m ρ c] at h
  exact h

/-! ## Layer 2 -/

/-- The second projection. -/
theorem proj2 : W7 m ρ c (Proc.devRef .tc main_v53) = Spec.lin64 (W6 m ρ c (Proc.devRef .tc main_v52)) (m ((c : Thread nD τ).loc main_arg6)) := by
  have h := (W7_arr m ρ c 2).trans (RegionValue.final2 (V6 m ρ) c)
  rw [show V6 m ρ c main_arg6 = m ((c : Thread nD τ).loc main_arg6) from Carry.arg6_at6 m ρ c] at h
  exact h

theorem row74 : W10 m ρ c (Proc.devRef .tc main_v74) = shapeCast S1x64 (W9 m ρ c (Proc.devRef .tc main_v72)) shapeCasts_S64_S1x64 := by
  show after hostOps3_2 (W9 m ρ c) _ = _
  generalize W9 m ρ c = X
  simp only [hostOps3_2]; after_results; rfl
theorem row75 : W10 m ρ c (Proc.devRef .tc main_v75) = shapeCast S1x64 (W9 m ρ c (Proc.devRef .tc main_v73)) shapeCasts_S64_S1x64 := by
  show after hostOps3_2 (W9 m ρ c) _ = _
  generalize W9 m ρ c = X
  simp only [hostOps3_2]; after_results; rfl
theorem row76 : W10 m ρ c (Proc.devRef .tc main_v76) = shapeCast S1x64 (m ((c : Thread nD τ).loc main_arg8)) shapeCasts_S64_S1x64 := by
  rw [← Carry.arg8_at9 m ρ c]
  show after hostOps3_2 (W9 m ρ c) _ = _
  generalize W9 m ρ c = X
  simp only [hostOps3_2]; after_results; rfl
theorem row77 : W10 m ρ c (Proc.devRef .tc main_v77) = shapeCast S1x64 (m ((c : Thread nD τ).loc main_arg9)) shapeCasts_S64_S1x64 := by
  rw [← Carry.arg9_at9 m ρ c]
  show after hostOps3_2 (W9 m ρ c) _ = _
  generalize W9 m ρ c = X
  simp only [hostOps3_2]; after_results; rfl

/-- The second normalisation. -/
theorem norm2 : W11 m ρ c (Proc.devRef .tc main_v78) = Spec.bn (W9 m ρ c (Proc.devRef .tc main_v69)) (W9 m ρ c (Proc.devRef .tc main_v72))
    (W9 m ρ c (Proc.devRef .tc main_v73)) (m ((c : Thread nD τ).loc main_arg8)) (m ((c : Thread nD τ).loc main_arg9)) := by
  have h := (W11_arr m ρ c 5).trans (RegionValue.final3 (V10 m ρ) c _ _ _ _ (row74 m ρ c) (row75 m ρ c) (row76 m ρ c) (row77 m ρ c))
  rw [show V10 m ρ c main_v69 = W9 m ρ c (Proc.devRef .tc main_v69) from Carry.v69_10_9 m ρ c] at h
  exact h

/-! ## Layer 3 -/

/-- The third projection. -/
theorem proj3 : W12 m ρ c (Proc.devRef .tc main_v79) = Spec.lin64 (W11 m ρ c (Proc.devRef .tc main_v78)) (m ((c : Thread nD τ).loc main_arg10)) := by
  have h := (W12_arr m ρ c 2).trans (RegionValue.final4 (V11 m ρ) c)
  rw [show V11 m ρ c main_arg10 = m ((c : Thread nD τ).loc main_arg10) from Carry.arg10_at11 m ρ c] at h
  exact h

theorem row100 : W15 m ρ c (Proc.devRef .tc main_v100) = shapeCast S1x64 (W14 m ρ c (Proc.devRef .tc main_v98)) shapeCasts_S64_S1x64 := by
  show after hostOps5_2 (W14 m ρ c) _ = _
  generalize W14 m ρ c = X
  simp only [hostOps5_2]; after_results; rfl
theorem row101 : W15 m ρ c (Proc.devRef .tc main_v101) = shapeCast S1x64 (W14 m ρ c (Proc.devRef .tc main_v99)) shapeCasts_S64_S1x64 := by
  show after hostOps5_2 (W14 m ρ c) _ = _
  generalize W14 m ρ c = X
  simp only [hostOps5_2]; after_results; rfl
theorem row102 : W15 m ρ c (Proc.devRef .tc main_v102) = shapeCast S1x64 (m ((c : Thread nD τ).loc main_arg12)) shapeCasts_S64_S1x64 := by
  rw [← Carry.arg12_at14 m ρ c]
  show after hostOps5_2 (W14 m ρ c) _ = _
  generalize W14 m ρ c = X
  simp only [hostOps5_2]; after_results; rfl
theorem row103 : W15 m ρ c (Proc.devRef .tc main_v103) = shapeCast S1x64 (m ((c : Thread nD τ).loc main_arg13)) shapeCasts_S64_S1x64 := by
  rw [← Carry.arg13_at14 m ρ c]
  show after hostOps5_2 (W14 m ρ c) _ = _
  generalize W14 m ρ c = X
  simp only [hostOps5_2]; after_results; rfl

/-- The third normalisation. -/
theorem norm3 : W16 m ρ c (Proc.devRef .tc main_v104) = Spec.bn (W14 m ρ c (Proc.devRef .tc main_v95)) (W14 m ρ c (Proc.devRef .tc main_v98))
    (W14 m ρ c (Proc.devRef .tc main_v99)) (m ((c : Thread nD τ).loc main_arg12)) (m ((c : Thread nD τ).loc main_arg13)) := by
  have h := (W16_arr m ρ c 5).trans (RegionValue.final5 (V15 m ρ) c _ _ _ _ (row100 m ρ c) (row101 m ρ c) (row102 m ρ c) (row103 m ρ c))
  rw [show V15 m ρ c main_v95 = W14 m ρ c (Proc.devRef .tc main_v95) from Carry.v95_15_14 m ρ c] at h
  exact h

/-! ## The head -/

theorem row105 : W17 m ρ c (Proc.devRef .tc main_v105) = shapeCast S1x32 (m ((c : Thread nD τ).loc main_arg15)) shapeCasts_S32_S1x32 := by
  rw [← Carry.arg15_at16 m ρ c]
  show after hostOps6 (W16 m ρ c) _ = _
  generalize W16 m ρ c = X
  simp only [hostOps6]; after_results; rfl

/-- The first head layer: a projection to 32 columns, its bias, the clamp at zero. -/
theorem head1 : W18 m ρ c (Proc.devRef .tc main_v106) = Spec.head1 (W16 m ρ c (Proc.devRef .tc main_v104)) (m ((c : Thread nD τ).loc main_arg14)) (m ((c : Thread nD τ).loc main_arg15)) := by
  have h := (W18_arr m ρ c 3).trans (RegionValue.final6 (V17 m ρ) c _ (row105 m ρ c))
  rw [show V17 m ρ c main_v104 = W16 m ρ c (Proc.devRef .tc main_v104) from Carry.v104_17_16 m ρ c,
    show V17 m ρ c main_arg14 = m ((c : Thread nD τ).loc main_arg14) from Carry.arg14_at17 m ρ c] at h
  exact h

theorem row107 : W19 m ρ c (Proc.devRef .tc main_v107) = shapeCast S1x1 (m ((c : Thread nD τ).loc main_arg17)) shapeCasts_S1_S1x1 := by
  rw [← Carry.arg17_at18 m ρ c]
  show after hostOps7 (W18 m ρ c) _ = _
  generalize W18 m ρ c = X
  simp only [hostOps7]; after_results; rfl

/-- The second head layer: a projection to one column and its bias. -/
theorem head2 : W20 m ρ c (Proc.devRef .tc main_v108) = Spec.head2 (W18 m ρ c (Proc.devRef .tc main_v106)) (m ((c : Thread nD τ).loc main_arg16)) (m ((c : Thread nD τ).loc main_arg17)) := by
  have h := (W20_arr m ρ c 3).trans (RegionValue.final7 (V19 m ρ) c _ (row107 m ρ c))
  rw [show V19 m ρ c main_v106 = W18 m ρ c (Proc.devRef .tc main_v106) from Carry.v106_19_18 m ρ c,
    show V19 m ρ c main_arg16 = m ((c : Thread nD τ).loc main_arg16) from Carry.arg16_at19 m ρ c] at h
  exact h

/-- The result: the one output column as a vector. -/
theorem out : W21 m ρ c (Proc.devRef .tc main_v109) = shapeCast S100000 (W20 m ρ c (Proc.devRef .tc main_v108)) shapeCasts_S100000x1_S100000 := by
  show after hostOps8 (W20 m ρ c) _ = _
  generalize W20 m ρ c = X
  simp only [hostOps8]; after_results; rfl

end Cert.KernelIdeal.Stages

end
-- ==== Proof.RefOps.lean ====
/- The reference program's @main as lists of its host operations, in order, every call of an outlined function
   replaced by that function's operations over the call's own buffers (a call of the variance function holds the
   call of the select function it makes, inlined likewise). The line is cut into eleven consecutive pieces: the
   graph normalisation coefficients, then per layer the matrix product, the aggregation with its column statistics,
   the normalisation with its rectifier, and last the two dense heads. -/
import proofs.«109477_j27238682591805_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.StableHlo Idealize.SL.Sem

variable {F : FTy → Type} [FloatOps F]

/-- The edge lists with a self-loop per node appended, the in-degree of each node as a scatter-add of ones, its inverse square root, and the product of the two ends' coefficients per edge (%0 … %26). 33 operations. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)) ]

/-- Layer 1: the input rows times the first weight matrix (%27). 1 operation. -/
abbrev ops1d : List (HloOp τ sig (Elt F)) :=
  [ StableHlo.binary main_arg0 main_arg2 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Layer 1: the rows gathered along the edges' sources, scaled per edge, summed into the targets, the bias added (%43); the column means (%46); the column variances, the outlined variance function's operations standing at its call (%47). 47 operations. -/
abbrev ops1h : List (HloOp τ sig (Elt F)) :=
  [ StableHlo.nullary main_c_4 (constantI S_ 32 0#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v27 main_v33 main_v34 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v26 main_v35 (broadcastInDim S1700000x1 ![0] bcast_S1700000_S1700000x1_0 : (⟨S1700000, .f32⟩ : BufTy).Contents (Elt F) → (⟨S1700000x1, .f32⟩ : BufTy).Contents (Elt F)),
    StableHlo.unary main_v35 main_v36 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v34 main_v36 main_v37 (mulf : (⟨S1700000x64, .f32⟩ : BufTy).Contents (Elt F) → (⟨S1700000x64, .f32⟩ : BufTy).Contents (Elt F) → (⟨S1700000x64, .f32⟩ : BufTy).Contents (Elt F)),
    StableHlo.nullary main_cst_6 (constant S_ .f32 0x00000000#32),
    StableHlo.unary main_cst_6 main_v38 (broadcastInDim S100000x64 ![] bcast_S_S100000x64 : (⟨S_, .f32⟩ : BufTy).Contents (Elt F) → (⟨S100000x64, .f32⟩ : BufTy).Contents (Elt F)),
    StableHlo.unary main_v6 main_v39 (broadcastInDim S1700000x1 ![0] bcast_S1700000_S1700000x1_0 : (⟨S1700000, .i32⟩ : BufTy).Contents (Elt F) → (⟨S1700000x1, .i32⟩ : BufTy).Contents (Elt F)),
    StableHlo.ternary main_v38 main_v39 main_v37 main_v40 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x00000000#32),
    StableHlo.binary main_v43 main_cst_7 main_v44 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v45 (broadcastInDim S64 ![] bcast_S_S64 : (⟨S_, .f32⟩ : BufTy).Contents (Elt F) → (⟨S64, .f32⟩ : BufTy).Contents (Elt F)),
    StableHlo.binary main_v44 main_v45 main_v46 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary (.of main_call0_cst : StableHlo.TRef sig ⟨S_, .f32⟩) (constant S_ .f32 0x00000000#32),
    StableHlo.TRef.binary (.of main_v43 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1),
    StableHlo.TRef.binary (.of main_v43 : StableHlo.TRef sig ⟨S100000x64, .f32⟩) (.of main_call0_v4 : StableHlo.TRef sig ⟨S100000x64, .f32⟩) (.of main_call0_v5 : StableHlo.TRef sig ⟨S100000x64, .f32⟩) subf,
    StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v47 : StableHlo.TRef sig ⟨S64, .f32⟩) (fun p a b => select (broadcastInDim S64 ![] bcast_S_S64 p) a b) ]

/-- Layer 1: centred, divided by the root of variance plus epsilon, scaled and shifted per column, and the maximum with zero, the outlined function's operations standing at its call (%48 … %63). 19 operations. -/
abbrev ops1b : List (HloOp τ sig (Elt F)) :=
  [ StableHlo.unary main_v46 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v49 main_v50 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v51 (broadcastInDim S64 ![] bcast_S_S64 : (⟨S_, .f32⟩ : BufTy).Contents (Elt F) → (⟨S64, .f32⟩ : BufTy).Contents (Elt F)),
    StableHlo.binary main_v47 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v55 main_v56 (mulf : (⟨S100000x64, .f32⟩ : BufTy).Contents (Elt F) → (⟨S100000x64, .f32⟩ : BufTy).Contents (Elt F) → (⟨S100000x64, .f32⟩ : BufTy).Contents (Elt F)),
    StableHlo.unary main_arg4 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v58 main_v59 (mulf : (⟨S100000x64, .f32⟩ : BufTy).Contents (Elt F) → (⟨S100000x64, .f32⟩ : BufTy).Contents (Elt F) → (⟨S100000x64, .f32⟩ : BufTy).Contents (Elt F)),
    StableHlo.unary main_arg5 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v61 main_v62 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v62 : StableHlo.TRef sig ⟨S100000x64, .f32⟩) (.of main_call1_v0 : StableHlo.TRef sig ⟨S100000x64, .f32⟩) (.of main_v63 : StableHlo.TRef sig ⟨S100000x64, .f32⟩) maximumf ]

/-- Layer 2: the rows times the second weight matrix (%64). 1 operation. -/
abbrev ops2d : List (HloOp τ sig (Elt F)) :=
  [ StableHlo.binary main_v63 main_arg6 main_v64 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer 2: aggregation along the edges and the bias (%80), the column means (%83) and variances (%84). 47 operations. -/
abbrev ops2h : List (HloOp τ sig (Elt F)) :=
  [ StableHlo.nullary main_c_11 (constantI S_ 32 0#32),
    StableHlo.unary main_c_11 main_v65 (broadcastInDim S1700000 ![] bcast_S_S1700000 : (⟨S_, .i32⟩ : BufTy).Contents (Elt F) → (⟨S1700000, .i32⟩ : BufTy).Contents (Elt F)),
    StableHlo.binary main_v3 main_v65 main_v66 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v67 (broadcastInDim S1700000 ![] bcast_S_S1700000 : (⟨S_, .i32⟩ : BufTy).Contents (Elt F) → (⟨S1700000, .i32⟩ : BufTy).Contents (Elt F)),
    StableHlo.binary main_v3 main_v67 main_v68 (addi : (⟨S1700000, .i32⟩ : BufTy).Contents (Elt F) → (⟨S1700000, .i32⟩ : BufTy).Contents (Elt F) → (⟨S1700000, .i32⟩ : BufTy).Contents (Elt F)),
    StableHlo.ternary main_v66 main_v68 main_v3 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v69 main_v70 (broadcastInDim S1700000x1 ![0] bcast_S1700000_S1700000x1_0 : (⟨S1700000, .i32⟩ : BufTy).Contents (Elt F) → (⟨S1700000x1, .i32⟩ : BufTy).Contents (Elt F)),
    StableHlo.binary main_v64 main_v70 main_v71 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v26 main_v72 (broadcastInDim S1700000x1 ![0] bcast_S1700000_S1700000x1_0 : (⟨S1700000, .f32⟩ : BufTy).Contents (Elt F) → (⟨S1700000x1, .f32⟩ : BufTy).Contents (Elt F)),
    StableHlo.unary main_v72 main_v73 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v71 main_v73 main_v74 (mulf : (⟨S1700000x64, .f32⟩ : BufTy).Contents (Elt F) → (⟨S1700000x64, .f32⟩ : BufTy).Contents (Elt F) → (⟨S1700000x64, .f32⟩ : BufTy).Contents (Elt F)),
    StableHlo.nullary main_cst_13 (constant S_ .f32 0x00000000#32),
    StableHlo.unary main_cst_13 main_v75 (broadcastInDim S100000x64 ![] bcast_S_S100000x64 : (⟨S_, .f32⟩ : BufTy).Contents (Elt F) → (⟨S100000x64, .f32⟩ : BufTy).Contents (Elt F)),
    StableHlo.unary main_v6 main_v76 (broadcastInDim S1700000x1 ![0] bcast_S1700000_S1700000x1_0 : (⟨S1700000, .i32⟩ : BufTy).Contents (Elt F) → (⟨S1700000x1, .i32⟩ : BufTy).Contents (Elt F)),
    StableHlo.ternary main_v75 main_v76 main_v74 main_v77 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg7 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.binary main_v80 main_cst_14 main_v81 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v82 (broadcastInDim S64 ![] bcast_S_S64 : (⟨S_, .f32⟩ : BufTy).Contents (Elt F) → (⟨S64, .f32⟩ : BufTy).Contents (Elt F)),
    StableHlo.binary main_v81 main_v82 main_v83 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v80 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1),
    StableHlo.TRef.binary (.of main_v80 : StableHlo.TRef sig ⟨S100000x64, .f32⟩) (.of main_call2_v4 : StableHlo.TRef sig ⟨S100000x64, .f32⟩) (.of main_call2_v5 : StableHlo.TRef sig ⟨S100000x64, .f32⟩) subf,
    StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v84 : StableHlo.TRef sig ⟨S64, .f32⟩) (fun p a b => select (broadcastInDim S64 ![] bcast_S_S64 p) a b) ]

/-- Layer 2: the normalisation, the affine map per column and the maximum with zero (%85 … %100). 19 operations. -/
abbrev ops2b : List (HloOp τ sig (Elt F)) :=
  [ StableHlo.unary main_v83 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v86 main_v87 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v88 (broadcastInDim S64 ![] bcast_S_S64 : (⟨S_, .f32⟩ : BufTy).Contents (Elt F) → (⟨S64, .f32⟩ : BufTy).Contents (Elt F)),
    StableHlo.binary main_v84 main_v88 main_v89 (addf : (⟨S64, .f32⟩ : BufTy).Contents (Elt F) → (⟨S64, .f32⟩ : BufTy).Contents (Elt F) → (⟨S64, .f32⟩ : BufTy).Contents (Elt F)),
    StableHlo.unary main_v89 main_v90 (Host.rsqrt : (⟨S64, .f32⟩ : BufTy).Contents (Elt F) → (⟨S64, .f32⟩ : BufTy).Contents (Elt F)),
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v92 main_v93 (mulf : (⟨S100000x64, .f32⟩ : BufTy).Contents (Elt F) → (⟨S100000x64, .f32⟩ : BufTy).Contents (Elt F) → (⟨S100000x64, .f32⟩ : BufTy).Contents (Elt F)),
    StableHlo.unary main_arg8 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (mulf : (⟨S100000x64, .f32⟩ : BufTy).Contents (Elt F) → (⟨S100000x64, .f32⟩ : BufTy).Contents (Elt F) → (⟨S100000x64, .f32⟩ : BufTy).Contents (Elt F)),
    StableHlo.unary main_arg9 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v98 main_v99 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v99 : StableHlo.TRef sig ⟨S100000x64, .f32⟩) (.of main_call3_v0 : StableHlo.TRef sig ⟨S100000x64, .f32⟩) (.of main_v100 : StableHlo.TRef sig ⟨S100000x64, .f32⟩) maximumf ]

/-- Layer 3: the rows times the third weight matrix (%101). 1 operation. -/
abbrev ops3d : List (HloOp τ sig (Elt F)) :=
  [ StableHlo.binary main_v100 main_arg10 main_v101 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer 3: aggregation along the edges and the bias (%117), the column means (%120) and variances (%121). 47 operations. -/
abbrev ops3h : List (HloOp τ sig (Elt F)) :=
  [ StableHlo.nullary main_c_18 (constantI S_ 32 0#32),
    StableHlo.unary main_c_18 main_v102 (broadcastInDim S1700000 ![] bcast_S_S1700000 : (⟨S_, .i32⟩ : BufTy).Contents (Elt F) → (⟨S1700000, .i32⟩ : BufTy).Contents (Elt F)),
    StableHlo.binary main_v3 main_v102 main_v103 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v104 (broadcastInDim S1700000 ![] bcast_S_S1700000 : (⟨S_, .i32⟩ : BufTy).Contents (Elt F) → (⟨S1700000, .i32⟩ : BufTy).Contents (Elt F)),
    StableHlo.binary main_v3 main_v104 main_v105 (addi : (⟨S1700000, .i32⟩ : BufTy).Contents (Elt F) → (⟨S1700000, .i32⟩ : BufTy).Contents (Elt F) → (⟨S1700000, .i32⟩ : BufTy).Contents (Elt F)),
    StableHlo.ternary main_v103 main_v105 main_v3 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v106 main_v107 (broadcastInDim S1700000x1 ![0] bcast_S1700000_S1700000x1_0 : (⟨S1700000, .i32⟩ : BufTy).Contents (Elt F) → (⟨S1700000x1, .i32⟩ : BufTy).Contents (Elt F)),
    StableHlo.binary main_v101 main_v107 main_v108 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v26 main_v109 (broadcastInDim S1700000x1 ![0] bcast_S1700000_S1700000x1_0 : (⟨S1700000, .f32⟩ : BufTy).Contents (Elt F) → (⟨S1700000x1, .f32⟩ : BufTy).Contents (Elt F)),
    StableHlo.unary main_v109 main_v110 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v108 main_v110 main_v111 (mulf : (⟨S1700000x64, .f32⟩ : BufTy).Contents (Elt F) → (⟨S1700000x64, .f32⟩ : BufTy).Contents (Elt F) → (⟨S1700000x64, .f32⟩ : BufTy).Contents (Elt F)),
    StableHlo.nullary main_cst_20 (constant S_ .f32 0x00000000#32),
    StableHlo.unary main_cst_20 main_v112 (broadcastInDim S100000x64 ![] bcast_S_S100000x64 : (⟨S_, .f32⟩ : BufTy).Contents (Elt F) → (⟨S100000x64, .f32⟩ : BufTy).Contents (Elt F)),
    StableHlo.unary main_v6 main_v113 (broadcastInDim S1700000x1 ![0] bcast_S1700000_S1700000x1_0 : (⟨S1700000, .i32⟩ : BufTy).Contents (Elt F) → (⟨S1700000x1, .i32⟩ : BufTy).Contents (Elt F)),
    StableHlo.ternary main_v112 main_v113 main_v111 main_v114 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg11 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S100000x64 ![0, 1] bcast_S1x64_S100000x64_0_1 : (⟨S1x64, .f32⟩ : BufTy).Contents (Elt F) → (⟨S100000x64, .f32⟩ : BufTy).Contents (Elt F)),
    StableHlo.binary main_v114 main_v116 main_v117 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x00000000#32),
    StableHlo.binary main_v117 main_cst_21 main_v118 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_22 (constant S_ .f32 0x47C35000#32),
    StableHlo.unary main_cst_22 main_v119 (broadcastInDim S64 ![] bcast_S_S64 : (⟨S_, .f32⟩ : BufTy).Contents (Elt F) → (⟨S64, .f32⟩ : BufTy).Contents (Elt F)),
    StableHlo.binary main_v118 main_v119 main_v120 (Host.divf : (⟨S64, .f32⟩ : BufTy).Contents (Elt F) → (⟨S64, .f32⟩ : BufTy).Contents (Elt F) → (⟨S64, .f32⟩ : BufTy).Contents (Elt F)),
    StableHlo.nullary main_c_23 (constantI S_ 32 0#32),
    StableHlo.TRef.nullary (.of main_call4_cst : StableHlo.TRef sig ⟨S_, .f32⟩) (constant S_ .f32 0x00000000#32),
    StableHlo.TRef.binary (.of main_v117 : StableHlo.TRef sig ⟨S100000x64, .f32⟩) (.of main_call4_cst : StableHlo.TRef sig ⟨S_, .f32⟩) (.of main_call4_v0 : StableHlo.TRef sig ⟨S64, .f32⟩) (fun x v => Host.reduceAdd x v reducesTo_S100000x64_S64_d0 h_S_),
    StableHlo.TRef.unary (.of main_call4_v0 : StableHlo.TRef sig ⟨S64, .f32⟩) (.of main_call4_v1 : StableHlo.TRef sig ⟨S1x64, .f32⟩) (broadcastInDim S1x64 ![1] bcast_S64_S1x64_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x64, .f32⟩) (broadcastInDim S1x64 ![] bcast_S_S1x64),
    StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf,
    StableHlo.TRef.unary (.of main_call4_v3 : StableHlo.TRef sig ⟨S1x64, .f32⟩) (.of main_call4_v4 : StableHlo.TRef sig ⟨S100000x64, .f32⟩) (broadcastInDim S100000x64 ![0, 1] bcast_S1x64_S100000x64_0_1),
    StableHlo.TRef.binary (.of main_v117 : StableHlo.TRef sig ⟨S100000x64, .f32⟩) (.of main_call4_v4 : StableHlo.TRef sig ⟨S100000x64, .f32⟩) (.of main_call4_v5 : StableHlo.TRef sig ⟨S100000x64, .f32⟩) subf,
    StableHlo.TRef.binary (.of main_call4_v5 : StableHlo.TRef sig ⟨S100000x64, .f32⟩) (.of main_call4_v5 : StableHlo.TRef sig ⟨S100000x64, .f32⟩) (.of main_call4_v6 : StableHlo.TRef sig ⟨S100000x64, .f32⟩) mulf,
    StableHlo.TRef.unary (.of main_c_23 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x64, .f32⟩) (.of main_call4_cst_2 : StableHlo.TRef sig ⟨S_, .f32⟩) (.of main_call4_v9 : StableHlo.TRef sig ⟨S64, .f32⟩) (fun x v => Host.reduceAdd x v reducesTo_S100000x64_S64_d0 h_S_),
    StableHlo.TRef.unary (.of main_call4_v8 : StableHlo.TRef sig ⟨S_, .f32⟩) (.of main_call4_v10 : StableHlo.TRef sig ⟨S64, .f32⟩) (broadcastInDim S64 ![] bcast_S_S64),
    StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S64, .f32⟩) (broadcastInDim S64 ![] bcast_S_S64),
    StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v121 : StableHlo.TRef sig ⟨S64, .f32⟩) (fun p a b => select (broadcastInDim S64 ![] bcast_S_S64 p) a b) ]

/-- Layer 3: the normalisation, the affine map per column and the maximum with zero (%122 … %137). 19 operations. -/
abbrev ops3b : List (HloOp τ sig (Elt F)) :=
  [ StableHlo.unary main_v120 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v123 main_v124 (subf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3727C5AC#32),
    StableHlo.unary main_cst_24 main_v125 (broadcastInDim S64 ![] bcast_S_S64 : (⟨S_, .f32⟩ : BufTy).Contents (Elt F) → (⟨S64, .f32⟩ : BufTy).Contents (Elt F)),
    StableHlo.binary main_v121 main_v125 main_v126 (addf : (⟨S64, .f32⟩ : BufTy).Contents (Elt F) → (⟨S64, .f32⟩ : BufTy).Contents (Elt F) → (⟨S64, .f32⟩ : BufTy).Contents (Elt F)),
    StableHlo.unary main_v126 main_v127 (Host.rsqrt : (⟨S64, .f32⟩ : BufTy).Contents (Elt F) → (⟨S64, .f32⟩ : BufTy).Contents (Elt F)),
    StableHlo.unary main_v127 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v129 main_v130 (mulf : (⟨S100000x64, .f32⟩ : BufTy).Contents (Elt F) → (⟨S100000x64, .f32⟩ : BufTy).Contents (Elt F) → (⟨S100000x64, .f32⟩ : BufTy).Contents (Elt F)),
    StableHlo.unary main_arg12 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S100000x64 ![0, 1] bcast_S1x64_S100000x64_0_1 : (⟨S1x64, .f32⟩ : BufTy).Contents (Elt F) → (⟨S100000x64, .f32⟩ : BufTy).Contents (Elt F)),
    StableHlo.binary main_v130 main_v132 main_v133 (mulf : (⟨S100000x64, .f32⟩ : BufTy).Contents (Elt F) → (⟨S100000x64, .f32⟩ : BufTy).Contents (Elt F) → (⟨S100000x64, .f32⟩ : BufTy).Contents (Elt F)),
    StableHlo.unary main_arg13 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v135 main_v136 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x64, .f32⟩) (broadcastInDim S100000x64 ![] bcast_S_S100000x64),
    StableHlo.TRef.binary (.of main_v136 : StableHlo.TRef sig ⟨S100000x64, .f32⟩) (.of main_call5_v0 : StableHlo.TRef sig ⟨S100000x64, .f32⟩) (.of main_v137 : StableHlo.TRef sig ⟨S100000x64, .f32⟩) maximumf ]

/-- The two dense heads: the maximum with zero of the rows times a matrix plus a bias, then the rows times a column plus a scalar, read as a vector (%138 … %147). 12 operations. -/
abbrev ops4 : List (HloOp τ sig (Elt F)) :=
  [ StableHlo.binary main_v137 main_arg14 main_v138 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg15 main_v139 (broadcastInDim S1x32 ![1] bcast_S32_S1x32_1 : (⟨S32, .f32⟩ : BufTy).Contents (Elt F) → (⟨S1x32, .f32⟩ : BufTy).Contents (Elt F)),
    StableHlo.unary main_v139 main_v140 (broadcastInDim S100000x32 ![0, 1] bcast_S1x32_S100000x32_0_1 : (⟨S1x32, .f32⟩ : BufTy).Contents (Elt F) → (⟨S100000x32, .f32⟩ : BufTy).Contents (Elt F)),
    StableHlo.binary main_v138 main_v140 main_v141 (addf : (⟨S100000x32, .f32⟩ : BufTy).Contents (Elt F) → (⟨S100000x32, .f32⟩ : BufTy).Contents (Elt F) → (⟨S100000x32, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x32, .f32⟩) (broadcastInDim S100000x32 ![] bcast_S_S100000x32),
    StableHlo.TRef.binary (.of main_v141 : StableHlo.TRef sig ⟨S100000x32, .f32⟩) (.of main_call6_v0 : StableHlo.TRef sig ⟨S100000x32, .f32⟩) (.of main_v142 : StableHlo.TRef sig ⟨S100000x32, .f32⟩) maximumf,
    StableHlo.binary main_v142 main_arg16 main_v143 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg17 main_v144 (broadcastInDim S1x1 ![1] bcast_S1_S1x1_1 : (⟨S1, .f32⟩ : BufTy).Contents (Elt F) → (⟨S1x1, .f32⟩ : BufTy).Contents (Elt F)),
    StableHlo.unary main_v144 main_v145 (broadcastInDim S100000x1 ![0, 1] bcast_S1x1_S100000x1_0_1 : (⟨S1x1, .f32⟩ : BufTy).Contents (Elt F) → (⟨S100000x1, .f32⟩ : BufTy).Contents (Elt F)),
    StableHlo.binary main_v143 main_v145 main_v146 (addf : (⟨S100000x1, .f32⟩ : BufTy).Contents (Elt F) → (⟨S100000x1, .f32⟩ : BufTy).Contents (Elt F) → (⟨S100000x1, .f32⟩ : BufTy).Contents (Elt F)),
    StableHlo.reshape main_v146 main_v147 rfl shapeCasts_S100000x1_S100000 ]

/-- @main's 246 operations, in order. -/
abbrev ops : List (HloOp τ sig (Elt F)) :=
  ops0 ++ ops1d ++ ops1h ++ ops1b ++ ops2d ++ ops2h ++ ops2b ++ ops3d ++ ops3h ++ ops3b ++ ops4

end Cert.ReferenceIdeal.HandRun

end
-- ==== Proof.RefRun.lean ====
/- The reference program's run. @main is the straight line of its 246 host operations (the outlined functions'
   operations standing at their calls): each of its three printed windows is the line of its own operations by
   computation, and the windows in order are the whole list. Every operation touches TensorCore buffers only and
   determines its result, so from any memory with zero counters every weakly fair execution terminates with each
   buffer at the fold of the operations over the launch contents. No operation writes an argument buffer (the
   written buffers are listed piece by piece, and no argument is among them), so the arguments end unchanged. -/
import proofs.«109477_j27238682591805_1_alg».proof.Proof.RefOps

noncomputable section

namespace Cert.ReferenceIdeal.HandRun

open Cert.ReferenceIdeal Cert.ReferenceIdeal.Gen Idealize.ShloMosaic Idealize.ShloMosaic.StableHlo Idealize.SL.Sem

variable {F : FTy → Type} [FloatOps F]

/-! ## @main is the line -/

/-- The first window's operations: the coefficients, the first product, the first aggregation and statistics. -/
abbrev win0 : List (HloOp τ sig (Elt F)) := ops0 ++ ops1d ++ ops1h
/-- The second window's: the first normalisation, the second product, aggregation and statistics, and the second
    normalisation up to its rectifier. -/
abbrev win1 : List (HloOp τ sig (Elt F)) := ops1b ++ ops2d ++ ops2h ++ ops2b.take 16
/-- The third window's: the second rectifier, the third layer, the heads. -/
abbrev win2 : List (HloOp τ sig (Elt F)) := ops2b.drop 16 ++ ops3d ++ ops3h ++ ops3b ++ ops4

set_option maxRecDepth 8192 in
set_option maxHeartbeats 4000000 in
/-- Window 0 unfolds (its calls' bodies with it) to the chain of its operations' steps. -/
theorem main_part0_eq (c : Dev nD) : main_part0 (F := F) c = seq win0 := rfl

set_option maxRecDepth 8192 in
set_option maxHeartbeats 4000000 in
/-- Window 1 unfolds (its calls' bodies with it) to the chain of its operations' steps. -/
theorem main_part1_eq (c : Dev nD) : main_part1 (F := F) c = seq win1 := rfl

set_option maxRecDepth 8192 in
set_option maxHeartbeats 4000000 in
/-- Window 2 unfolds (its calls' bodies with it) to the chain of its operations' steps. -/
theorem main_part2_eq (c : Dev nD) : main_part2 (F := F) c = seq win2 := rfl

/-- Eleven lists in a row, the seventh cut at a position, are three groups in a row. -/
theorem regroup {α : Type} (a b c d e f g h i j k : List α) (n : Nat) :
    a ++ b ++ c ++ d ++ e ++ f ++ g ++ h ++ i ++ j ++ k
      = (a ++ b ++ c) ++ ((d ++ e ++ f ++ g.take n) ++ (g.drop n ++ h ++ i ++ j ++ k)) := by
  conv_lhs => rw [← List.take_append_drop n g]
  simp only [List.append_assoc]

theorem ops_windows : (ops : List (HloOp τ sig (Elt F))) = win0 ++ (win1 ++ win2) :=
  regroup ops0 ops1d ops1h ops1b ops2d ops2h ops2b ops3d ops3h ops3b ops4 16

/-- @main runs its windows in order; each is its operations' line; lines in a row are the line of the concatenation. -/
theorem main_eq (c : Dev nD) : main (F := F) c = seq ops := by
  rw [ops_windows, seq_append win0 (win1 ++ win2), seq_append win1 win2, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops0_fresh : ∀ op ∈ (ops0 : List (HloOp τ sig (Elt F))), op.fresh = ∅ := by
  intro _ h; (repeat (cases h with | head => rfl | tail _ h => ?_)); exact nomatch h

theorem ops1d_sub : (ops1d : List (HloOp τ sig (Elt F))).Forall fun op => op.bufs ⊆ tcRefs τ sig :=
  binary_bufs_sub ..
theorem ops1d_fresh : ∀ op ∈ (ops1d : List (HloOp τ sig (Elt F))), op.fresh = ∅ := by
  intro _ h; (repeat (cases h with | head => rfl | tail _ h => ?_)); exact nomatch h

theorem ops1h_sub : (ops1h : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops1h_fresh : ∀ op ∈ (ops1h : List (HloOp τ sig (Elt F))), op.fresh = ∅ := by
  intro _ h; (repeat (cases h with | head => rfl | tail _ h => ?_)); exact nomatch h

theorem ops1b_sub : (ops1b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops1b_fresh : ∀ op ∈ (ops1b : List (HloOp τ sig (Elt F))), op.fresh = ∅ := by
  intro _ h; (repeat (cases h with | head => rfl | tail _ h => ?_)); exact nomatch h

theorem ops2d_sub : (ops2d : List (HloOp τ sig (Elt F))).Forall fun op => op.bufs ⊆ tcRefs τ sig :=
  binary_bufs_sub ..
theorem ops2d_fresh : ∀ op ∈ (ops2d : List (HloOp τ sig (Elt F))), op.fresh = ∅ := by
  intro _ h; (repeat (cases h with | head => rfl | tail _ h => ?_)); exact nomatch h

theorem ops2h_sub : (ops2h : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops2h_fresh : ∀ op ∈ (ops2h : List (HloOp τ sig (Elt F))), op.fresh = ∅ := by
  intro _ h; (repeat (cases h with | head => rfl | tail _ h => ?_)); exact nomatch h

theorem ops2b_sub : (ops2b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops2b_fresh : ∀ op ∈ (ops2b : List (HloOp τ sig (Elt F))), op.fresh = ∅ := by
  intro _ h; (repeat (cases h with | head => rfl | tail _ h => ?_)); exact nomatch h

theorem ops3d_sub : (ops3d : List (HloOp τ sig (Elt F))).Forall fun op => op.bufs ⊆ tcRefs τ sig :=
  binary_bufs_sub ..
theorem ops3d_fresh : ∀ op ∈ (ops3d : List (HloOp τ sig (Elt F))), op.fresh = ∅ := by
  intro _ h; (repeat (cases h with | head => rfl | tail _ h => ?_)); exact nomatch h

theorem ops3h_sub : (ops3h : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops3h_fresh : ∀ op ∈ (ops3h : List (HloOp τ sig (Elt F))), op.fresh = ∅ := by
  intro _ h; (repeat (cases h with | head => rfl | tail _ h => ?_)); exact nomatch h

theorem ops3b_sub : (ops3b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops3b_fresh : ∀ op ∈ (ops3b : List (HloOp τ sig (Elt F))), op.fresh = ∅ := by
  intro _ h; (repeat (cases h with | head => rfl | tail _ h => ?_)); exact nomatch h

theorem ops4_sub : (ops4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩
theorem ops4_fresh : ∀ op ∈ (ops4 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr (List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨List.forall_iff_forall_mem.mp ops0_sub, List.forall_iff_forall_mem.mp ops1d_sub⟩, List.forall_iff_forall_mem.mp ops1h_sub⟩, List.forall_iff_forall_mem.mp ops1b_sub⟩, List.forall_iff_forall_mem.mp ops2d_sub⟩, List.forall_iff_forall_mem.mp ops2h_sub⟩, List.forall_iff_forall_mem.mp ops2b_sub⟩, List.forall_iff_forall_mem.mp ops3d_sub⟩, List.forall_iff_forall_mem.mp ops3h_sub⟩, List.forall_iff_forall_mem.mp ops3b_sub⟩, List.forall_iff_forall_mem.mp ops4_sub⟩)

theorem ops_fresh : ∀ op ∈ (ops : List (HloOp τ sig (Elt F))), op.fresh = ∅ :=
  List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨List.forall_mem_append.mpr ⟨ops0_fresh, ops1d_fresh⟩, ops1h_fresh⟩, ops1b_fresh⟩, ops2d_fresh⟩, ops2h_fresh⟩, ops2b_fresh⟩, ops3d_fresh⟩, ops3h_fresh⟩, ops3b_fresh⟩, ops4_fresh⟩

/-! ## The run -/

/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The arguments are not written -/

/-- An operation writing one buffer, a member of the list, writes inside the list. -/
theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

/-- The fold over two lists in a row is the second's over the first's. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- A buffer each of two lists keeps, the two in a row keep. -/
theorem keep_app {l₁ l₂ : List (HloOp τ sig (Elt F))} {b : DevRef τ sig} (h₁ : ∀ V, after l₁ V b = V b) (h₂ : ∀ V, after l₂ V b = V b)
    (V : Valuation τ sig (Elt F)) : after (l₁ ++ l₂) V b = V b := by rw [after_app, h₂, h₁]

/-- The buffers the operations of ops0 write. -/
abbrev ops0_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem ops0_writes : (ops0 : List (HloOp τ sig (Elt F))).Forall fun op => op.writes ⊆ (ops0_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_cst rfl (by decide),
   writes_sub_of_mem main_v7 rfl (by decide),
   writes_sub_of_mem main_cst_0 rfl (by decide),
   writes_sub_of_mem main_v8 rfl (by decide),
   writes_sub_of_mem main_v9 rfl (by decide),
   writes_sub_of_mem main_v10 rfl (by decide),
   writes_sub_of_mem main_v11 rfl (by decide),
   writes_sub_of_mem main_c rfl (by decide),
   writes_sub_of_mem main_v12 rfl (by decide),
   writes_sub_of_mem main_v13 rfl (by decide),
   writes_sub_of_mem main_c_1 rfl (by decide),
   writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_c_2 rfl (by decide),
   writes_sub_of_mem main_v19 rfl (by decide),
   writes_sub_of_mem main_v20 rfl (by decide),
   writes_sub_of_mem main_c_3 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide),
   writes_sub_of_mem main_v26 rfl (by decide)⟩

/-- The buffers the operations of ops1d write. -/
abbrev ops1d_W : List (Ref sig .tc) := [main_v27]
theorem ops1d_writes : (ops1d : List (HloOp τ sig (Elt F))).Forall fun op => op.writes ⊆ (ops1d_W.map (Proc.devRef (τ := τ) .tc)).toFinset :=
  writes_sub_of_mem main_v27 rfl (by decide)

/-- The buffers the operations of ops1h write. -/
abbrev ops1h_W : List (Ref sig .tc) := [main_c_4, main_v28, main_v29, main_c_5, main_v30, main_v31, main_v32, main_v33, main_v34, main_v35, main_v36, main_v37, main_cst_6, main_v38, main_v39, main_v40, main_v41, main_v42, main_v43, main_cst_7, main_v44, main_cst_8, main_v45, main_v46, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]
theorem ops1h_writes : (ops1h : List (HloOp τ sig (Elt F))).Forall fun op => op.writes ⊆ (ops1h_W.map (Proc.devRef (τ := τ) .tc)).toFinset :=
  ⟨writes_sub_of_mem main_c_4 rfl (by decide),
   writes_sub_of_mem main_v28 rfl (by decide),
   writes_sub_of_mem main_v29 rfl (by decide),
   writes_sub_of_mem main_c_5 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_cst_6 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_cst_7 rfl (by decide),
   writes_sub_of_mem main_v44 rfl (by decide),
   writes_sub_of_mem main_cst_8 rfl (by decide),
   writes_sub_of_mem main_v45 rfl (by decide),
   writes_sub_of_mem main_v46 rfl (by decide),
   writes_sub_of_mem main_c_9 rfl (by decide),
   writes_sub_of_mem main_call0_cst rfl (by decide),
   writes_sub_of_mem main_call0_v0 rfl (by decide),
   writes_sub_of_mem main_call0_v1 rfl (by decide),
   writes_sub_of_mem main_call0_cst_0 rfl (by decide),
   writes_sub_of_mem main_call0_v2 rfl (by decide),
   writes_sub_of_mem main_call0_v3 rfl (by decide),
   writes_sub_of_mem main_call0_v4 rfl (by decide),
   writes_sub_of_mem main_call0_v5 rfl (by decide),
   writes_sub_of_mem main_call0_v6 rfl (by decide),
   writes_sub_of_mem main_call0_v7 rfl (by decide),
   writes_sub_of_mem main_call0_cst_1 rfl (by decide),
   writes_sub_of_mem main_call0_v8 rfl (by decide),
   writes_sub_of_mem main_call0_cst_2 rfl (by decide),
   writes_sub_of_mem main_call0_v9 rfl (by decide),
   writes_sub_of_mem main_call0_v10 rfl (by decide),
   writes_sub_of_mem main_call0_v11 rfl (by decide),
   writes_sub_of_mem main_call0_cst_3 rfl (by decide),
   writes_sub_of_mem main_call0_v12 rfl (by decide),
   writes_sub_of_mem main_call0_cst_4 rfl (by decide),
   writes_sub_of_mem main_call0_call0_v0 rfl (by decide),
   writes_sub_of_mem main_call0_call0_v1 rfl (by decide),
   writes_sub_of_mem main_v47 rfl (by decide)⟩

/-- The buffers the operations of ops1b write. -/
abbrev ops1b_W : List (Ref sig .tc) := [main_v48, main_v49, main_v50, main_cst_10, main_v51, main_v52, main_v53, main_v54, main_v55, main_v56, main_v57, main_v58, main_v59, main_v60, main_v61, main_v62, main_call1_cst, main_call1_v0, main_v63]
theorem ops1b_writes : (ops1b : List (HloOp τ sig (Elt F))).Forall fun op => op.writes ⊆ (ops1b_W.map (Proc.devRef (τ := τ) .tc)).toFinset :=
  ⟨writes_sub_of_mem main_v48 rfl (by decide),
   writes_sub_of_mem main_v49 rfl (by decide),
   writes_sub_of_mem main_v50 rfl (by decide),
   writes_sub_of_mem main_cst_10 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_call1_cst rfl (by decide),
   writes_sub_of_mem main_call1_v0 rfl (by decide),
   writes_sub_of_mem main_v63 rfl (by decide)⟩

/-- The buffers the operations of ops2d write. -/
abbrev ops2d_W : List (Ref sig .tc) := [main_v64]
theorem ops2d_writes : (ops2d : List (HloOp τ sig (Elt F))).Forall fun op => op.writes ⊆ (ops2d_W.map (Proc.devRef (τ := τ) .tc)).toFinset :=
  writes_sub_of_mem main_v64 rfl (by decide)

/-- The buffers the operations of ops2h write. -/
abbrev ops2h_W : List (Ref sig .tc) := [main_c_11, main_v65, main_v66, main_c_12, main_v67, main_v68, main_v69, main_v70, main_v71, main_v72, main_v73, main_v74, main_cst_13, main_v75, main_v76, main_v77, main_v78, main_v79, main_v80, main_cst_14, main_v81, main_cst_15, main_v82, main_v83, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84]
theorem ops2h_writes : (ops2h : List (HloOp τ sig (Elt F))).Forall fun op => op.writes ⊆ (ops2h_W.map (Proc.devRef (τ := τ) .tc)).toFinset :=
  ⟨writes_sub_of_mem main_c_11 rfl (by decide),
   writes_sub_of_mem main_v65 rfl (by decide),
   writes_sub_of_mem main_v66 rfl (by decide),
   writes_sub_of_mem main_c_12 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_cst_13 rfl (by decide),
   writes_sub_of_mem main_v75 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_cst_14 rfl (by decide),
   writes_sub_of_mem main_v81 rfl (by decide),
   writes_sub_of_mem main_cst_15 rfl (by decide),
   writes_sub_of_mem main_v82 rfl (by decide),
   writes_sub_of_mem main_v83 rfl (by decide),
   writes_sub_of_mem main_c_16 rfl (by decide),
   writes_sub_of_mem main_call2_cst rfl (by decide),
   writes_sub_of_mem main_call2_v0 rfl (by decide),
   writes_sub_of_mem main_call2_v1 rfl (by decide),
   writes_sub_of_mem main_call2_cst_0 rfl (by decide),
   writes_sub_of_mem main_call2_v2 rfl (by decide),
   writes_sub_of_mem main_call2_v3 rfl (by decide),
   writes_sub_of_mem main_call2_v4 rfl (by decide),
   writes_sub_of_mem main_call2_v5 rfl (by decide),
   writes_sub_of_mem main_call2_v6 rfl (by decide),
   writes_sub_of_mem main_call2_v7 rfl (by decide),
   writes_sub_of_mem main_call2_cst_1 rfl (by decide),
   writes_sub_of_mem main_call2_v8 rfl (by decide),
   writes_sub_of_mem main_call2_cst_2 rfl (by decide),
   writes_sub_of_mem main_call2_v9 rfl (by decide),
   writes_sub_of_mem main_call2_v10 rfl (by decide),
   writes_sub_of_mem main_call2_v11 rfl (by decide),
   writes_sub_of_mem main_call2_cst_3 rfl (by decide),
   writes_sub_of_mem main_call2_v12 rfl (by decide),
   writes_sub_of_mem main_call2_cst_4 rfl (by decide),
   writes_sub_of_mem main_call2_call0_v0 rfl (by decide),
   writes_sub_of_mem main_call2_call0_v1 rfl (by decide),
   writes_sub_of_mem main_v84 rfl (by decide)⟩

/-- The buffers the operations of ops2b write. -/
abbrev ops2b_W : List (Ref sig .tc) := [main_v85, main_v86, main_v87, main_cst_17, main_v88, main_v89, main_v90, main_v91, main_v92, main_v93, main_v94, main_v95, main_v96, main_v97, main_v98, main_v99, main_call3_cst, main_call3_v0, main_v100]
theorem ops2b_writes : (ops2b : List (HloOp τ sig (Elt F))).Forall fun op => op.writes ⊆ (ops2b_W.map (Proc.devRef (τ := τ) .tc)).toFinset :=
  ⟨writes_sub_of_mem main_v85 rfl (by decide),
   writes_sub_of_mem main_v86 rfl (by decide),
   writes_sub_of_mem main_v87 rfl (by decide),
   writes_sub_of_mem main_cst_17 rfl (by decide),
   writes_sub_of_mem main_v88 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_call3_cst rfl (by decide),
   writes_sub_of_mem main_call3_v0 rfl (by decide),
   writes_sub_of_mem main_v100 rfl (by decide)⟩

/-- The buffers the operations of ops3d write. -/
abbrev ops3d_W : List (Ref sig .tc) := [main_v101]
theorem ops3d_writes : (ops3d : List (HloOp τ sig (Elt F))).Forall fun op => op.writes ⊆ (ops3d_W.map (Proc.devRef (τ := τ) .tc)).toFinset :=
  writes_sub_of_mem main_v101 rfl (by decide)

/-- The buffers the operations of ops3h write. -/
abbrev ops3h_W : List (Ref sig .tc) := [main_c_18, main_v102, main_v103, main_c_19, main_v104, main_v105, main_v106, main_v107, main_v108, main_v109, main_v110, main_v111, main_cst_20, main_v112, main_v113, main_v114, main_v115, main_v116, main_v117, main_cst_21, main_v118, main_cst_22, main_v119, main_v120, main_c_23, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v121]
theorem ops3h_writes : (ops3h : List (HloOp τ sig (Elt F))).Forall fun op => op.writes ⊆ (ops3h_W.map (Proc.devRef (τ := τ) .tc)).toFinset :=
  ⟨writes_sub_of_mem main_c_18 rfl (by decide),
   writes_sub_of_mem main_v102 rfl (by decide),
   writes_sub_of_mem main_v103 rfl (by decide),
   writes_sub_of_mem main_c_19 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_v109 rfl (by decide),
   writes_sub_of_mem main_v110 rfl (by decide),
   writes_sub_of_mem main_v111 rfl (by decide),
   writes_sub_of_mem main_cst_20 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_cst_21 rfl (by decide),
   writes_sub_of_mem main_v118 rfl (by decide),
   writes_sub_of_mem main_cst_22 rfl (by decide),
   writes_sub_of_mem main_v119 rfl (by decide),
   writes_sub_of_mem main_v120 rfl (by decide),
   writes_sub_of_mem main_c_23 rfl (by decide),
   writes_sub_of_mem main_call4_cst rfl (by decide),
   writes_sub_of_mem main_call4_v0 rfl (by decide),
   writes_sub_of_mem main_call4_v1 rfl (by decide),
   writes_sub_of_mem main_call4_cst_0 rfl (by decide),
   writes_sub_of_mem main_call4_v2 rfl (by decide),
   writes_sub_of_mem main_call4_v3 rfl (by decide),
   writes_sub_of_mem main_call4_v4 rfl (by decide),
   writes_sub_of_mem main_call4_v5 rfl (by decide),
   writes_sub_of_mem main_call4_v6 rfl (by decide),
   writes_sub_of_mem main_call4_v7 rfl (by decide),
   writes_sub_of_mem main_call4_cst_1 rfl (by decide),
   writes_sub_of_mem main_call4_v8 rfl (by decide),
   writes_sub_of_mem main_call4_cst_2 rfl (by decide),
   writes_sub_of_mem main_call4_v9 rfl (by decide),
   writes_sub_of_mem main_call4_v10 rfl (by decide),
   writes_sub_of_mem main_call4_v11 rfl (by decide),
   writes_sub_of_mem main_call4_cst_3 rfl (by decide),
   writes_sub_of_mem main_call4_v12 rfl (by decide),
   writes_sub_of_mem main_call4_cst_4 rfl (by decide),
   writes_sub_of_mem main_call4_call0_v0 rfl (by decide),
   writes_sub_of_mem main_call4_call0_v1 rfl (by decide),
   writes_sub_of_mem main_v121 rfl (by decide)⟩

/-- The buffers the operations of ops3b write. -/
abbrev ops3b_W : List (Ref sig .tc) := [main_v122, main_v123, main_v124, main_cst_24, main_v125, main_v126, main_v127, main_v128, main_v129, main_v130, main_v131, main_v132, main_v133, main_v134, main_v135, main_v136, main_call5_cst, main_call5_v0, main_v137]
theorem ops3b_writes : (ops3b : List (HloOp τ sig (Elt F))).Forall fun op => op.writes ⊆ (ops3b_W.map (Proc.devRef (τ := τ) .tc)).toFinset :=
  ⟨writes_sub_of_mem main_v122 rfl (by decide),
   writes_sub_of_mem main_v123 rfl (by decide),
   writes_sub_of_mem main_v124 rfl (by decide),
   writes_sub_of_mem main_cst_24 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide),
   writes_sub_of_mem main_v132 rfl (by decide),
   writes_sub_of_mem main_v133 rfl (by decide),
   writes_sub_of_mem main_v134 rfl (by decide),
   writes_sub_of_mem main_v135 rfl (by decide),
   writes_sub_of_mem main_v136 rfl (by decide),
   writes_sub_of_mem main_call5_cst rfl (by decide),
   writes_sub_of_mem main_call5_v0 rfl (by decide),
   writes_sub_of_mem main_v137 rfl (by decide)⟩

/-- The buffers the operations of ops4 write. -/
abbrev ops4_W : List (Ref sig .tc) := [main_v138, main_v139, main_v140, main_v141, main_call6_cst, main_call6_v0, main_v142, main_v143, main_v144, main_v145, main_v146, main_v147]
theorem ops4_writes : (ops4 : List (HloOp τ sig (Elt F))).Forall fun op => op.writes ⊆ (ops4_W.map (Proc.devRef (τ := τ) .tc)).toFinset :=
  ⟨writes_sub_of_mem main_v138 rfl (by decide),
   writes_sub_of_mem main_v139 rfl (by decide),
   writes_sub_of_mem main_v140 rfl (by decide),
   writes_sub_of_mem main_v141 rfl (by decide),
   writes_sub_of_mem main_call6_cst rfl (by decide),
   writes_sub_of_mem main_call6_v0 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_v147 rfl (by decide)⟩

/-- A buffer none of the eleven pieces writes holds at the end what it held at the start. -/
theorem kept (r : Ref sig .tc) (h_ops0 : r ∉ ops0_W) (h_ops1d : r ∉ ops1d_W) (h_ops1h : r ∉ ops1h_W) (h_ops1b : r ∉ ops1b_W) (h_ops2d : r ∉ ops2d_W) (h_ops2h : r ∉ ops2h_W) (h_ops2b : r ∉ ops2b_W) (h_ops3d : r ∉ ops3d_W) (h_ops3h : r ∉ ops3h_W) (h_ops3b : r ∉ ops3b_W) (h_ops4 : r ∉ ops4_W)
    (V : Valuation τ sig (Elt F)) : after ops V (Proc.devRef .tc r) = V (Proc.devRef .tc r) :=
  keep_app (keep_app (keep_app (keep_app (keep_app (keep_app (keep_app (keep_app (keep_app (keep_app (fun V => after_of_writes_sub ops0 V ops0_writes h_ops0) (fun V => after_of_writes_sub ops1d V ops1d_writes h_ops1d)) (fun V => after_of_writes_sub ops1h V ops1h_writes h_ops1h)) (fun V => after_of_writes_sub ops1b V ops1b_writes h_ops1b)) (fun V => after_of_writes_sub ops2d V ops2d_writes h_ops2d)) (fun V => after_of_writes_sub ops2h V ops2h_writes h_ops2h)) (fun V => after_of_writes_sub ops2b V ops2b_writes h_ops2b)) (fun V => after_of_writes_sub ops3d V ops3d_writes h_ops3d)) (fun V => after_of_writes_sub ops3h V ops3h_writes h_ops3h)) (fun V => after_of_writes_sub ops3b V ops3b_writes h_ops3b)) (fun V => after_of_writes_sub ops4 V ops4_writes h_ops4) V

theorem kept_arg0 (V : Valuation τ sig (Elt F)) : after ops V (Proc.devRef .tc main_arg0) = V (Proc.devRef .tc main_arg0) :=
  kept main_arg0 (by decide) (by decide) (by decide) (by decide) (by decide) (by decide) (by decide) (by decide) (by decide) (by decide) (by decide) V
theorem kept_arg1 (V : Valuation τ sig (Elt F)) : after ops V (Proc.devRef .tc main_arg1) = V (Proc.devRef .tc main_arg1) :=
  kept main_arg1 (by decide) (by decide) (by decide) (by decide) (by decide) (by decide) (by decide) (by decide) (by decide) (by decide) (by decide) V
theorem kept_arg2 (V : Valuation τ sig (Elt F)) : after ops V (Proc.devRef .tc main_arg2) = V (Proc.devRef .tc main_arg2) :=
  kept main_arg2 (by decide) (by decide) (by decide) (by decide) (by decide) (by decide) (by decide) (by decide) (by decide) (by decide) (by decide) V
theorem kept_arg3 (V : Valuation τ sig (Elt F)) : after ops V (Proc.devRef .tc main_arg3) = V (Proc.devRef .tc main_arg3) :=
  kept main_arg3 (by decide) (by decide) (by decide) (by decide) (by decide) (by decide) (by decide) (by decide) (by decide) (by decide) (by decide) V
theorem kept_arg4 (V : Valuation τ sig (Elt F)) : after ops V (Proc.devRef .tc main_arg4) = V (Proc.devRef .tc main_arg4) :=
  kept main_arg4 (by decide) (by decide) (by decide) (by decide) (by decide) (by decide) (by decide) (by decide) (by decide) (by decide) (by decide) V
theorem kept_arg5 (V : Valuation τ sig (Elt F)) : after ops V (Proc.devRef .tc main_arg5) = V (Proc.devRef .tc main_arg5) :=
  kept main_arg5 (by decide) (by decide) (by decide) (by decide) (by decide) (by decide) (by decide) (by decide) (by decide) (by decide) (by decide) V
theorem kept_arg6 (V : Valuation τ sig (Elt F)) : after ops V (Proc.devRef .tc main_arg6) = V (Proc.devRef .tc main_arg6) :=
  kept main_arg6 (by decide) (by decide) (by decide) (by decide) (by decide) (by decide) (by decide) (by decide) (by decide) (by decide) (by decide) V
theorem kept_arg7 (V : Valuation τ sig (Elt F)) : after ops V (Proc.devRef .tc main_arg7) = V (Proc.devRef .tc main_arg7) :=
  kept main_arg7 (by decide) (by decide) (by decide) (by decide) (by decide) (by decide) (by decide) (by decide) (by decide) (by decide) (by decide) V
theorem kept_arg8 (V : Valuation τ sig (Elt F)) : after ops V (Proc.devRef .tc main_arg8) = V (Proc.devRef .tc main_arg8) :=
  kept main_arg8 (by decide) (by decide) (by decide) (by decide) (by decide) (by decide) (by decide) (by decide) (by decide) (by decide) (by decide) V
theorem kept_arg9 (V : Valuation τ sig (Elt F)) : after ops V (Proc.devRef .tc main_arg9) = V (Proc.devRef .tc main_arg9) :=
  kept main_arg9 (by decide) (by decide) (by decide) (by decide) (by decide) (by decide) (by decide) (by decide) (by decide) (by decide) (by decide) V
theorem kept_arg10 (V : Valuation τ sig (Elt F)) : after ops V (Proc.devRef .tc main_arg10) = V (Proc.devRef .tc main_arg10) :=
  kept main_arg10 (by decide) (by decide) (by decide) (by decide) (by decide) (by decide) (by decide) (by decide) (by decide) (by decide) (by decide) V
theorem kept_arg11 (V : Valuation τ sig (Elt F)) : after ops V (Proc.devRef .tc main_arg11) = V (Proc.devRef .tc main_arg11) :=
  kept main_arg11 (by decide) (by decide) (by decide) (by decide) (by decide) (by decide) (by decide) (by decide) (by decide) (by decide) (by decide) V
theorem kept_arg12 (V : Valuation τ sig (Elt F)) : after ops V (Proc.devRef .tc main_arg12) = V (Proc.devRef .tc main_arg12) :=
  kept main_arg12 (by decide) (by decide) (by decide) (by decide) (by decide) (by decide) (by decide) (by decide) (by decide) (by decide) (by decide) V
theorem kept_arg13 (V : Valuation τ sig (Elt F)) : after ops V (Proc.devRef .tc main_arg13) = V (Proc.devRef .tc main_arg13) :=
  kept main_arg13 (by decide) (by decide) (by decide) (by decide) (by decide) (by decide) (by decide) (by decide) (by decide) (by decide) (by decide) V
theorem kept_arg14 (V : Valuation τ sig (Elt F)) : after ops V (Proc.devRef .tc main_arg14) = V (Proc.devRef .tc main_arg14) :=
  kept main_arg14 (by decide) (by decide) (by decide) (by decide) (by decide) (by decide) (by decide) (by decide) (by decide) (by decide) (by decide) V
theorem kept_arg15 (V : Valuation τ sig (Elt F)) : after ops V (Proc.devRef .tc main_arg15) = V (Proc.devRef .tc main_arg15) :=
  kept main_arg15 (by decide) (by decide) (by decide) (by decide) (by decide) (by decide) (by decide) (by decide) (by decide) (by decide) (by decide) V
theorem kept_arg16 (V : Valuation τ sig (Elt F)) : after ops V (Proc.devRef .tc main_arg16) = V (Proc.devRef .tc main_arg16) :=
  kept main_arg16 (by decide) (by decide) (by decide) (by decide) (by decide) (by decide) (by decide) (by decide) (by decide) (by decide) (by decide) V
theorem kept_arg17 (V : Valuation τ sig (Elt F)) : after ops V (Proc.devRef .tc main_arg17) = V (Proc.devRef .tc main_arg17) :=
  kept main_arg17 (by decide) (by decide) (by decide) (by decide) (by decide) (by decide) (by decide) (by decide) (by decide) (by decide) (by decide) V

/-! ## The frame -/

/-- From any memory with zero counters every weakly fair execution of @main terminates without a fault, and every
    argument buffer ends as it began. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _)⟩)
    (run m g)

end Cert.ReferenceIdeal.HandRun

end
-- ==== Proof.RefStages.lean ====
/-
  The reference's @main read chunk by chunk. Its operations run in eleven consecutive chunks: the edge lists and
  normalisation coefficients; per layer the projection (one contraction), the aggregation with its column statistics,
  and the normalisation with the clamp at zero; and the two head layers with the final reshape. The contents after each
  chunk are the fold of its operations over the contents before it. The projection, normalisation and head chunks are the
  dense stages of the specification applied to the buffers they read; buffers a chunk does not write are unchanged.
-/
import proofs.«109477_j27238682591805_1_alg».proof.Proof.RefOps
import proofs.«109477_j27238682591805_1_alg».proof.Proof.Spec

set_option maxRecDepth 16384

noncomputable section

namespace Cert.ReferenceIdeal.Stages

open Idealize.ShloMosaic Idealize.ShloMosaic.TcCoe Idealize.SL.Sem Idealize.ShloMosaic.StableHlo
open Cert.ReferenceIdeal Cert.ReferenceIdeal.Gen Cert.ReferenceIdeal.HandRun

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A reference none of a chunk's operations writes reads the same after the chunk. -/
macro "host_keep" "[" ops:ident "]" : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (V : Valuation τ sig (Elt F))

/-- The contents after each chunk, from contents `V` at the launch. -/
abbrev Q0 : Valuation τ sig (Elt F) := after ops0 V
abbrev Q1 : Valuation τ sig (Elt F) := after ops1d (Q0 V)
abbrev Q2 : Valuation τ sig (Elt F) := after ops1h (Q1 V)
abbrev Q3 : Valuation τ sig (Elt F) := after ops1b (Q2 V)
abbrev Q4 : Valuation τ sig (Elt F) := after ops2d (Q3 V)
abbrev Q5 : Valuation τ sig (Elt F) := after ops2h (Q4 V)
abbrev Q6 : Valuation τ sig (Elt F) := after ops2b (Q5 V)
abbrev Q7 : Valuation τ sig (Elt F) := after ops3d (Q6 V)
abbrev Q8 : Valuation τ sig (Elt F) := after ops3h (Q7 V)
abbrev Q9 : Valuation τ sig (Elt F) := after ops3b (Q8 V)
abbrev Q10 : Valuation τ sig (Elt F) := after ops4 (Q9 V)

/-- The whole run is the last of them. -/
theorem after_ops : after ops V = Q10 V := by
  simp only [ops, after_append]

/-! ## The dense chunks are the specification's stages -/

theorem dot1 : Q1 V (Proc.devRef .tc main_v27) = Spec.lin128 (Q0 V (Proc.devRef .tc main_arg0)) (Q0 V (Proc.devRef .tc main_arg2)) := by
  show after ops1d (Q0 V) _ = _
  generalize Q0 V = X
  simp only [ops1d]; after_results; rfl
theorem dot2 : Q4 V (Proc.devRef .tc main_v64) = Spec.lin64 (Q3 V (Proc.devRef .tc main_v63)) (Q3 V (Proc.devRef .tc main_arg6)) := by
  show after ops2d (Q3 V) _ = _
  generalize Q3 V = X
  simp only [ops2d]; after_results; rfl
theorem dot3 : Q7 V (Proc.devRef .tc main_v101) = Spec.lin64 (Q6 V (Proc.devRef .tc main_v100)) (Q6 V (Proc.devRef .tc main_arg10)) := by
  show after ops3d (Q6 V) _ = _
  generalize Q6 V = X
  simp only [ops3d]; after_results; rfl

theorem norm1 : Q3 V (Proc.devRef .tc main_v63) = Spec.bn (Q2 V (Proc.devRef .tc main_v43)) (Q2 V (Proc.devRef .tc main_v46))
    (Q2 V (Proc.devRef .tc main_v47)) (Q2 V (Proc.devRef .tc main_arg4)) (Q2 V (Proc.devRef .tc main_arg5)) := by
  show after ops1b (Q2 V) _ = _
  generalize Q2 V = X
  simp only [ops1b]; after_results_simp; rfl
theorem norm2 : Q6 V (Proc.devRef .tc main_v100) = Spec.bn (Q5 V (Proc.devRef .tc main_v80)) (Q5 V (Proc.devRef .tc main_v83))
    (Q5 V (Proc.devRef .tc main_v84)) (Q5 V (Proc.devRef .tc main_arg8)) (Q5 V (Proc.devRef .tc main_arg9)) := by
  show after ops2b (Q5 V) _ = _
  generalize Q5 V = X
  simp only [ops2b]; after_results_simp; rfl
theorem norm3 : Q9 V (Proc.devRef .tc main_v137) = Spec.bn (Q8 V (Proc.devRef .tc main_v117)) (Q8 V (Proc.devRef .tc main_v120))
    (Q8 V (Proc.devRef .tc main_v121)) (Q8 V (Proc.devRef .tc main_arg12)) (Q8 V (Proc.devRef .tc main_arg13)) := by
  show after ops3b (Q8 V) _ = _
  generalize Q8 V = X
  simp only [ops3b]; after_results_simp; rfl

theorem head : Q10 V (Proc.devRef .tc main_v147) = shapeCast S100000
    (Spec.head2 (Spec.head1 (Q9 V (Proc.devRef .tc main_v137)) (Q9 V (Proc.devRef .tc main_arg14)) (Q9 V (Proc.devRef .tc main_arg15)))
      (Q9 V (Proc.devRef .tc main_arg16)) (Q9 V (Proc.devRef .tc main_arg17))) shapeCasts_S100000x1_S100000 := by
  show after ops4 (Q9 V) _ = _
  generalize Q9 V = X
  simp only [ops4]; after_results_simp; rfl

/-! ## Buffers carried across chunks -/

theorem arg0_at0 : Q0 V (Proc.devRef .tc main_arg0) = V (Proc.devRef .tc main_arg0) :=
  calc Q0 V (Proc.devRef .tc main_arg0)
    _ = V (Proc.devRef .tc main_arg0) := by host_keep [ops0]

theorem arg2_at0 : Q0 V (Proc.devRef .tc main_arg2) = V (Proc.devRef .tc main_arg2) :=
  calc Q0 V (Proc.devRef .tc main_arg2)
    _ = V (Proc.devRef .tc main_arg2) := by host_keep [ops0]

theorem arg3_at1 : Q1 V (Proc.devRef .tc main_arg3) = V (Proc.devRef .tc main_arg3) :=
  calc Q1 V (Proc.devRef .tc main_arg3)
    _ = Q0 V (Proc.devRef .tc main_arg3) := by host_keep [ops1d]
    _ = V (Proc.devRef .tc main_arg3) := by host_keep [ops0]

theorem arg4_at2 : Q2 V (Proc.devRef .tc main_arg4) = V (Proc.devRef .tc main_arg4) :=
  calc Q2 V (Proc.devRef .tc main_arg4)
    _ = Q1 V (Proc.devRef .tc main_arg4) := by host_keep [ops1h]
    _ = Q0 V (Proc.devRef .tc main_arg4) := by host_keep [ops1d]
    _ = V (Proc.devRef .tc main_arg4) := by host_keep [ops0]

theorem arg5_at2 : Q2 V (Proc.devRef .tc main_arg5) = V (Proc.devRef .tc main_arg5) :=
  calc Q2 V (Proc.devRef .tc main_arg5)
    _ = Q1 V (Proc.devRef .tc main_arg5) := by host_keep [ops1h]
    _ = Q0 V (Proc.devRef .tc main_arg5) := by host_keep [ops1d]
    _ = V (Proc.devRef .tc main_arg5) := by host_keep [ops0]

theorem arg6_at3 : Q3 V (Proc.devRef .tc main_arg6) = V (Proc.devRef .tc main_arg6) :=
  calc Q3 V (Proc.devRef .tc main_arg6)
    _ = Q2 V (Proc.devRef .tc main_arg6) := by host_keep [ops1b]
    _ = Q1 V (Proc.devRef .tc main_arg6) := by host_keep [ops1h]
    _ = Q0 V (Proc.devRef .tc main_arg6) := by host_keep [ops1d]
    _ = V (Proc.devRef .tc main_arg6) := by host_keep [ops0]

theorem arg7_at4 : Q4 V (Proc.devRef .tc main_arg7) = V (Proc.devRef .tc main_arg7) :=
  calc Q4 V (Proc.devRef .tc main_arg7)
    _ = Q3 V (Proc.devRef .tc main_arg7) := by host_keep [ops2d]
    _ = Q2 V (Proc.devRef .tc main_arg7) := by host_keep [ops1b]
    _ = Q1 V (Proc.devRef .tc main_arg7) := by host_keep [ops1h]
    _ = Q0 V (Proc.devRef .tc main_arg7) := by host_keep [ops1d]
    _ = V (Proc.devRef .tc main_arg7) := by host_keep [ops0]

theorem arg8_at5 : Q5 V (Proc.devRef .tc main_arg8) = V (Proc.devRef .tc main_arg8) :=
  calc Q5 V (Proc.devRef .tc main_arg8)
    _ = Q4 V (Proc.devRef .tc main_arg8) := by host_keep [ops2h]
    _ = Q3 V (Proc.devRef .tc main_arg8) := by host_keep [ops2d]
    _ = Q2 V (Proc.devRef .tc main_arg8) := by host_keep [ops1b]
    _ = Q1 V (Proc.devRef .tc main_arg8) := by host_keep [ops1h]
    _ = Q0 V (Proc.devRef .tc main_arg8) := by host_keep [ops1d]
    _ = V (Proc.devRef .tc main_arg8) := by host_keep [ops0]

theorem arg9_at5 : Q5 V (Proc.devRef .tc main_arg9) = V (Proc.devRef .tc main_arg9) :=
  calc Q5 V (Proc.devRef .tc main_arg9)
    _ = Q4 V (Proc.devRef .tc main_arg9) := by host_keep [ops2h]
    _ = Q3 V (Proc.devRef .tc main_arg9) := by host_keep [ops2d]
    _ = Q2 V (Proc.devRef .tc main_arg9) := by host_keep [ops1b]
    _ = Q1 V (Proc.devRef .tc main_arg9) := by host_keep [ops1h]
    _ = Q0 V (Proc.devRef .tc main_arg9) := by host_keep [ops1d]
    _ = V (Proc.devRef .tc main_arg9) := by host_keep [ops0]

theorem arg10_at6 : Q6 V (Proc.devRef .tc main_arg10) = V (Proc.devRef .tc main_arg10) :=
  calc Q6 V (Proc.devRef .tc main_arg10)
    _ = Q5 V (Proc.devRef .tc main_arg10) := by host_keep [ops2b]
    _ = Q4 V (Proc.devRef .tc main_arg10) := by host_keep [ops2h]
    _ = Q3 V (Proc.devRef .tc main_arg10) := by host_keep [ops2d]
    _ = Q2 V (Proc.devRef .tc main_arg10) := by host_keep [ops1b]
    _ = Q1 V (Proc.devRef .tc main_arg10) := by host_keep [ops1h]
    _ = Q0 V (Proc.devRef .tc main_arg10) := by host_keep [ops1d]
    _ = V (Proc.devRef .tc main_arg10) := by host_keep [ops0]

theorem arg11_at7 : Q7 V (Proc.devRef .tc main_arg11) = V (Proc.devRef .tc main_arg11) :=
  calc Q7 V (Proc.devRef .tc main_arg11)
    _ = Q6 V (Proc.devRef .tc main_arg11) := by host_keep [ops3d]
    _ = Q5 V (Proc.devRef .tc main_arg11) := by host_keep [ops2b]
    _ = Q4 V (Proc.devRef .tc main_arg11) := by host_keep [ops2h]
    _ = Q3 V (Proc.devRef .tc main_arg11) := by host_keep [ops2d]
    _ = Q2 V (Proc.devRef .tc main_arg11) := by host_keep [ops1b]
    _ = Q1 V (Proc.devRef .tc main_arg11) := by host_keep [ops1h]
    _ = Q0 V (Proc.devRef .tc main_arg11) := by host_keep [ops1d]
    _ = V (Proc.devRef .tc main_arg11) := by host_keep [ops0]

theorem arg12_at8 : Q8 V (Proc.devRef .tc main_arg12) = V (Proc.devRef .tc main_arg12) :=
  calc Q8 V (Proc.devRef .tc main_arg12)
    _ = Q7 V (Proc.devRef .tc main_arg12) := by host_keep [ops3h]
    _ = Q6 V (Proc.devRef .tc main_arg12) := by host_keep [ops3d]
    _ = Q5 V (Proc.devRef .tc main_arg12) := by host_keep [ops2b]
    _ = Q4 V (Proc.devRef .tc main_arg12) := by host_keep [ops2h]
    _ = Q3 V (Proc.devRef .tc main_arg12) := by host_keep [ops2d]
    _ = Q2 V (Proc.devRef .tc main_arg12) := by host_keep [ops1b]
    _ = Q1 V (Proc.devRef .tc main_arg12) := by host_keep [ops1h]
    _ = Q0 V (Proc.devRef .tc main_arg12) := by host_keep [ops1d]
    _ = V (Proc.devRef .tc main_arg12) := by host_keep [ops0]

theorem arg13_at8 : Q8 V (Proc.devRef .tc main_arg13) = V (Proc.devRef .tc main_arg13) :=
  calc Q8 V (Proc.devRef .tc main_arg13)
    _ = Q7 V (Proc.devRef .tc main_arg13) := by host_keep [ops3h]
    _ = Q6 V (Proc.devRef .tc main_arg13) := by host_keep [ops3d]
    _ = Q5 V (Proc.devRef .tc main_arg13) := by host_keep [ops2b]
    _ = Q4 V (Proc.devRef .tc main_arg13) := by host_keep [ops2h]
    _ = Q3 V (Proc.devRef .tc main_arg13) := by host_keep [ops2d]
    _ = Q2 V (Proc.devRef .tc main_arg13) := by host_keep [ops1b]
    _ = Q1 V (Proc.devRef .tc main_arg13) := by host_keep [ops1h]
    _ = Q0 V (Proc.devRef .tc main_arg13) := by host_keep [ops1d]
    _ = V (Proc.devRef .tc main_arg13) := by host_keep [ops0]

theorem arg14_at9 : Q9 V (Proc.devRef .tc main_arg14) = V (Proc.devRef .tc main_arg14) :=
  calc Q9 V (Proc.devRef .tc main_arg14)
    _ = Q8 V (Proc.devRef .tc main_arg14) := by host_keep [ops3b]
    _ = Q7 V (Proc.devRef .tc main_arg14) := by host_keep [ops3h]
    _ = Q6 V (Proc.devRef .tc main_arg14) := by host_keep [ops3d]
    _ = Q5 V (Proc.devRef .tc main_arg14) := by host_keep [ops2b]
    _ = Q4 V (Proc.devRef .tc main_arg14) := by host_keep [ops2h]
    _ = Q3 V (Proc.devRef .tc main_arg14) := by host_keep [ops2d]
    _ = Q2 V (Proc.devRef .tc main_arg14) := by host_keep [ops1b]
    _ = Q1 V (Proc.devRef .tc main_arg14) := by host_keep [ops1h]
    _ = Q0 V (Proc.devRef .tc main_arg14) := by host_keep [ops1d]
    _ = V (Proc.devRef .tc main_arg14) := by host_keep [ops0]

theorem arg15_at9 : Q9 V (Proc.devRef .tc main_arg15) = V (Proc.devRef .tc main_arg15) :=
  calc Q9 V (Proc.devRef .tc main_arg15)
    _ = Q8 V (Proc.devRef .tc main_arg15) := by host_keep [ops3b]
    _ = Q7 V (Proc.devRef .tc main_arg15) := by host_keep [ops3h]
    _ = Q6 V (Proc.devRef .tc main_arg15) := by host_keep [ops3d]
    _ = Q5 V (Proc.devRef .tc main_arg15) := by host_keep [ops2b]
    _ = Q4 V (Proc.devRef .tc main_arg15) := by host_keep [ops2h]
    _ = Q3 V (Proc.devRef .tc main_arg15) := by host_keep [ops2d]
    _ = Q2 V (Proc.devRef .tc main_arg15) := by host_keep [ops1b]
    _ = Q1 V (Proc.devRef .tc main_arg15) := by host_keep [ops1h]
    _ = Q0 V (Proc.devRef .tc main_arg15) := by host_keep [ops1d]
    _ = V (Proc.devRef .tc main_arg15) := by host_keep [ops0]

theorem arg16_at9 : Q9 V (Proc.devRef .tc main_arg16) = V (Proc.devRef .tc main_arg16) :=
  calc Q9 V (Proc.devRef .tc main_arg16)
    _ = Q8 V (Proc.devRef .tc main_arg16) := by host_keep [ops3b]
    _ = Q7 V (Proc.devRef .tc main_arg16) := by host_keep [ops3h]
    _ = Q6 V (Proc.devRef .tc main_arg16) := by host_keep [ops3d]
    _ = Q5 V (Proc.devRef .tc main_arg16) := by host_keep [ops2b]
    _ = Q4 V (Proc.devRef .tc main_arg16) := by host_keep [ops2h]
    _ = Q3 V (Proc.devRef .tc main_arg16) := by host_keep [ops2d]
    _ = Q2 V (Proc.devRef .tc main_arg16) := by host_keep [ops1b]
    _ = Q1 V (Proc.devRef .tc main_arg16) := by host_keep [ops1h]
    _ = Q0 V (Proc.devRef .tc main_arg16) := by host_keep [ops1d]
    _ = V (Proc.devRef .tc main_arg16) := by host_keep [ops0]

theorem arg17_at9 : Q9 V (Proc.devRef .tc main_arg17) = V (Proc.devRef .tc main_arg17) :=
  calc Q9 V (Proc.devRef .tc main_arg17)
    _ = Q8 V (Proc.devRef .tc main_arg17) := by host_keep [ops3b]
    _ = Q7 V (Proc.devRef .tc main_arg17) := by host_keep [ops3h]
    _ = Q6 V (Proc.devRef .tc main_arg17) := by host_keep [ops3d]
    _ = Q5 V (Proc.devRef .tc main_arg17) := by host_keep [ops2b]
    _ = Q4 V (Proc.devRef .tc main_arg17) := by host_keep [ops2h]
    _ = Q3 V (Proc.devRef .tc main_arg17) := by host_keep [ops2d]
    _ = Q2 V (Proc.devRef .tc main_arg17) := by host_keep [ops1b]
    _ = Q1 V (Proc.devRef .tc main_arg17) := by host_keep [ops1h]
    _ = Q0 V (Proc.devRef .tc main_arg17) := by host_keep [ops1d]
    _ = V (Proc.devRef .tc main_arg17) := by host_keep [ops0]

theorem v3_1_0 : Q1 V (Proc.devRef .tc main_v3) = Q0 V (Proc.devRef .tc main_v3) :=
  calc Q1 V (Proc.devRef .tc main_v3)
    _ = Q0 V (Proc.devRef .tc main_v3) := by host_keep [ops1d]

theorem v3_4_0 : Q4 V (Proc.devRef .tc main_v3) = Q0 V (Proc.devRef .tc main_v3) :=
  calc Q4 V (Proc.devRef .tc main_v3)
    _ = Q3 V (Proc.devRef .tc main_v3) := by host_keep [ops2d]
    _ = Q2 V (Proc.devRef .tc main_v3) := by host_keep [ops1b]
    _ = Q1 V (Proc.devRef .tc main_v3) := by host_keep [ops1h]
    _ = Q0 V (Proc.devRef .tc main_v3) := by host_keep [ops1d]

theorem v3_7_0 : Q7 V (Proc.devRef .tc main_v3) = Q0 V (Proc.devRef .tc main_v3) :=
  calc Q7 V (Proc.devRef .tc main_v3)
    _ = Q6 V (Proc.devRef .tc main_v3) := by host_keep [ops3d]
    _ = Q5 V (Proc.devRef .tc main_v3) := by host_keep [ops2b]
    _ = Q4 V (Proc.devRef .tc main_v3) := by host_keep [ops2h]
    _ = Q3 V (Proc.devRef .tc main_v3) := by host_keep [ops2d]
    _ = Q2 V (Proc.devRef .tc main_v3) := by host_keep [ops1b]
    _ = Q1 V (Proc.devRef .tc main_v3) := by host_keep [ops1h]
    _ = Q0 V (Proc.devRef .tc main_v3) := by host_keep [ops1d]

theorem v6_1_0 : Q1 V (Proc.devRef .tc main_v6) = Q0 V (Proc.devRef .tc main_v6) :=
  calc Q1 V (Proc.devRef .tc main_v6)
    _ = Q0 V (Proc.devRef .tc main_v6) := by host_keep [ops1d]

theorem v6_4_0 : Q4 V (Proc.devRef .tc main_v6) = Q0 V (Proc.devRef .tc main_v6) :=
  calc Q4 V (Proc.devRef .tc main_v6)
    _ = Q3 V (Proc.devRef .tc main_v6) := by host_keep [ops2d]
    _ = Q2 V (Proc.devRef .tc main_v6) := by host_keep [ops1b]
    _ = Q1 V (Proc.devRef .tc main_v6) := by host_keep [ops1h]
    _ = Q0 V (Proc.devRef .tc main_v6) := by host_keep [ops1d]

theorem v6_7_0 : Q7 V (Proc.devRef .tc main_v6) = Q0 V (Proc.devRef .tc main_v6) :=
  calc Q7 V (Proc.devRef .tc main_v6)
    _ = Q6 V (Proc.devRef .tc main_v6) := by host_keep [ops3d]
    _ = Q5 V (Proc.devRef .tc main_v6) := by host_keep [ops2b]
    _ = Q4 V (Proc.devRef .tc main_v6) := by host_keep [ops2h]
    _ = Q3 V (Proc.devRef .tc main_v6) := by host_keep [ops2d]
    _ = Q2 V (Proc.devRef .tc main_v6) := by host_keep [ops1b]
    _ = Q1 V (Proc.devRef .tc main_v6) := by host_keep [ops1h]
    _ = Q0 V (Proc.devRef .tc main_v6) := by host_keep [ops1d]

theorem v26_1_0 : Q1 V (Proc.devRef .tc main_v26) = Q0 V (Proc.devRef .tc main_v26) :=
  calc Q1 V (Proc.devRef .tc main_v26)
    _ = Q0 V (Proc.devRef .tc main_v26) := by host_keep [ops1d]

theorem v26_4_0 : Q4 V (Proc.devRef .tc main_v26) = Q0 V (Proc.devRef .tc main_v26) :=
  calc Q4 V (Proc.devRef .tc main_v26)
    _ = Q3 V (Proc.devRef .tc main_v26) := by host_keep [ops2d]
    _ = Q2 V (Proc.devRef .tc main_v26) := by host_keep [ops1b]
    _ = Q1 V (Proc.devRef .tc main_v26) := by host_keep [ops1h]
    _ = Q0 V (Proc.devRef .tc main_v26) := by host_keep [ops1d]

theorem v26_7_0 : Q7 V (Proc.devRef .tc main_v26) = Q0 V (Proc.devRef .tc main_v26) :=
  calc Q7 V (Proc.devRef .tc main_v26)
    _ = Q6 V (Proc.devRef .tc main_v26) := by host_keep [ops3d]
    _ = Q5 V (Proc.devRef .tc main_v26) := by host_keep [ops2b]
    _ = Q4 V (Proc.devRef .tc main_v26) := by host_keep [ops2h]
    _ = Q3 V (Proc.devRef .tc main_v26) := by host_keep [ops2d]
    _ = Q2 V (Proc.devRef .tc main_v26) := by host_keep [ops1b]
    _ = Q1 V (Proc.devRef .tc main_v26) := by host_keep [ops1h]
    _ = Q0 V (Proc.devRef .tc main_v26) := by host_keep [ops1d]

end Cert.ReferenceIdeal.Stages

end
-- ==== Proof.AgreeHost.lean ====
/-
  The host operations the two programs share. Before the first layer both build the edge lists with self loops and
  the symmetric normalisation coefficients from the edge index; in each layer both gather the projected features
  along the source list, scale them, scatter-add them along the destination list, add the bias, and take the column
  mean and the column variance. The operations are the same in the same order, so from agreeing inputs the outputs
  agree.
-/
import proofs.«109477_j27238682591805_1_alg».proof.Proof.Gen.KernelIdeal.Launch
import proofs.«109477_j27238682591805_1_alg».proof.Proof.RefOps

set_option maxRecDepth 16384

noncomputable section

namespace Cert.Agree

open Idealize.ShloMosaic Idealize.ShloMosaic.TcCoe Idealize.SL.Sem Idealize.ShloMosaic.StableHlo

variable {F : FTy → Type} [FloatOps F]

/-- A line's fold, cut after its first `n` operations. -/
theorem after_cut {τ : Topo} {sig : RefSig} {Val : EltTy → Type} (n : Nat) (l : List (HloOp τ sig Val)) (V : Valuation τ sig Val) :
    after l V = after (l.drop n) (after (l.take n) V) := by
  induction l generalizing n V with
  | nil => simp only [List.drop_nil, List.take_nil, after_nil]
  | cons op l ih =>
    cases n with
    | zero => rfl
    | succ n => simp only [List.drop_succ_cons, List.take_succ_cons, after_cons]; exact ih n _

set_option maxHeartbeats 2000000 in
/-- The first seven operations: the two rows of the edge index, each with the node numbers appended. -/
theorem prologue_lists (WK : Valuation Cert.KernelIdeal.τ Cert.KernelIdeal.sig (Elt F)) (WR : Valuation Cert.ReferenceIdeal.τ Cert.ReferenceIdeal.sig (Elt F))
    (h1 : WK (Proc.devRef .tc Cert.KernelIdeal.main_arg1) = WR (Proc.devRef .tc Cert.ReferenceIdeal.main_arg1)) :
    after (Cert.KernelIdeal.Gen.hostOps0.take 7) WK (Proc.devRef .tc Cert.KernelIdeal.main_v3) = after (Cert.ReferenceIdeal.HandRun.ops0.take 7) WR (Proc.devRef .tc Cert.ReferenceIdeal.main_v3)
    ∧ after (Cert.KernelIdeal.Gen.hostOps0.take 7) WK (Proc.devRef .tc Cert.KernelIdeal.main_v6) = after (Cert.ReferenceIdeal.HandRun.ops0.take 7) WR (Proc.devRef .tc Cert.ReferenceIdeal.main_v6) := by
  refine ⟨?_, ?_⟩ <;>
    (simp only [Cert.KernelIdeal.Gen.hostOps0, Cert.ReferenceIdeal.HandRun.ops0, List.take_succ_cons, List.take_zero]
     after_results
     rewrite [h1]
     rfl)

set_option maxHeartbeats 4000000 in
/-- The remaining operations read the two lists and write neither: the coefficients from agreeing lists agree. -/
theorem prologue_coeffs (XK : Valuation Cert.KernelIdeal.τ Cert.KernelIdeal.sig (Elt F)) (XR : Valuation Cert.ReferenceIdeal.τ Cert.ReferenceIdeal.sig (Elt F))
    (a3 : XK (Proc.devRef .tc Cert.KernelIdeal.main_v3) = XR (Proc.devRef .tc Cert.ReferenceIdeal.main_v3)) (a6 : XK (Proc.devRef .tc Cert.KernelIdeal.main_v6) = XR (Proc.devRef .tc Cert.ReferenceIdeal.main_v6)) :
    after (Cert.KernelIdeal.Gen.hostOps0.drop 7) XK (Proc.devRef .tc Cert.KernelIdeal.main_v26) = after (Cert.ReferenceIdeal.HandRun.ops0.drop 7) XR (Proc.devRef .tc Cert.ReferenceIdeal.main_v26)
    ∧ after (Cert.KernelIdeal.Gen.hostOps0.drop 7) XK (Proc.devRef .tc Cert.KernelIdeal.main_v3) = XK (Proc.devRef .tc Cert.KernelIdeal.main_v3)
    ∧ after (Cert.KernelIdeal.Gen.hostOps0.drop 7) XK (Proc.devRef .tc Cert.KernelIdeal.main_v6) = XK (Proc.devRef .tc Cert.KernelIdeal.main_v6)
    ∧ after (Cert.ReferenceIdeal.HandRun.ops0.drop 7) XR (Proc.devRef .tc Cert.ReferenceIdeal.main_v3) = XR (Proc.devRef .tc Cert.ReferenceIdeal.main_v3)
    ∧ after (Cert.ReferenceIdeal.HandRun.ops0.drop 7) XR (Proc.devRef .tc Cert.ReferenceIdeal.main_v6) = XR (Proc.devRef .tc Cert.ReferenceIdeal.main_v6) := by
  refine ⟨?_, ?_, ?_, ?_, ?_⟩
  · simp only [Cert.KernelIdeal.Gen.hostOps0, Cert.ReferenceIdeal.HandRun.ops0, List.drop_succ_cons, List.drop_zero]
    after_results_simp
    rewrite [a3, a6]
    rfl
  all_goals
    simp only [Cert.KernelIdeal.Gen.hostOps0, Cert.ReferenceIdeal.HandRun.ops0, List.drop_succ_cons, List.drop_zero]
    after_results_simp

/-- The edge lists and the normalisation coefficients from the edge index. -/
theorem prologue (WK : Valuation Cert.KernelIdeal.τ Cert.KernelIdeal.sig (Elt F)) (WR : Valuation Cert.ReferenceIdeal.τ Cert.ReferenceIdeal.sig (Elt F))
    (h1 : WK (Proc.devRef .tc Cert.KernelIdeal.main_arg1) = WR (Proc.devRef .tc Cert.ReferenceIdeal.main_arg1))
    :
    (after Cert.KernelIdeal.Gen.hostOps0 WK) (Proc.devRef .tc Cert.KernelIdeal.main_v3) = after Cert.ReferenceIdeal.HandRun.ops0 WR (Proc.devRef .tc Cert.ReferenceIdeal.main_v3)
    ∧ (after Cert.KernelIdeal.Gen.hostOps0 WK) (Proc.devRef .tc Cert.KernelIdeal.main_v6) = after Cert.ReferenceIdeal.HandRun.ops0 WR (Proc.devRef .tc Cert.ReferenceIdeal.main_v6)
    ∧ (after Cert.KernelIdeal.Gen.hostOps0 WK) (Proc.devRef .tc Cert.KernelIdeal.main_v26) = after Cert.ReferenceIdeal.HandRun.ops0 WR (Proc.devRef .tc Cert.ReferenceIdeal.main_v26) := by
  obtain ⟨a3, a6⟩ := prologue_lists WK WR h1
  obtain ⟨b26, k3K, k6K, k3R, k6R⟩ := prologue_coeffs _ _ a3 a6
  have cK := after_cut 7 (Cert.KernelIdeal.Gen.hostOps0 (F := F)) WK
  have cR := after_cut 7 (Cert.ReferenceIdeal.HandRun.ops0 (F := F)) WR
  exact ⟨(congrFun cK _).trans (k3K.trans (a3.trans (k3R.symm.trans (congrFun cR _).symm))),
    (congrFun cK _).trans (k6K.trans (a6.trans (k6R.symm.trans (congrFun cR _).symm))),
    (congrFun cK _).trans (b26.trans (congrFun cR _).symm)⟩

set_option maxHeartbeats 8000000 in
/-- A layer's aggregated features, their column mean and their column variance, from the projected features, the edge lists, the coefficients and the bias. -/
theorem layer1 (WK : Valuation Cert.KernelIdeal.τ Cert.KernelIdeal.sig (Elt F)) (WR : Valuation Cert.ReferenceIdeal.τ Cert.ReferenceIdeal.sig (Elt F))
    (hw : WK (Proc.devRef .tc Cert.KernelIdeal.main_v27) = WR (Proc.devRef .tc Cert.ReferenceIdeal.main_v27))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg3) = WR (Proc.devRef .tc Cert.ReferenceIdeal.main_arg3))
    :
    (after Cert.KernelIdeal.Gen.hostOps1_1 (after Cert.KernelIdeal.Gen.hostOps1 WK)) (Proc.devRef .tc Cert.KernelIdeal.main_v43) = after Cert.ReferenceIdeal.HandRun.ops1h WR (Proc.devRef .tc Cert.ReferenceIdeal.main_v43)
    ∧ (after Cert.KernelIdeal.Gen.hostOps1_1 (after Cert.KernelIdeal.Gen.hostOps1 WK)) (Proc.devRef .tc Cert.KernelIdeal.main_v46) = after Cert.ReferenceIdeal.HandRun.ops1h WR (Proc.devRef .tc Cert.ReferenceIdeal.main_v46)
    ∧ (after Cert.KernelIdeal.Gen.hostOps1_1 (after Cert.KernelIdeal.Gen.hostOps1 WK)) (Proc.devRef .tc Cert.KernelIdeal.main_v47) = after Cert.ReferenceIdeal.HandRun.ops1h WR (Proc.devRef .tc Cert.ReferenceIdeal.main_v47) := by
  refine ⟨?_, ?_, ?_⟩ <;>
    (simp only [Cert.KernelIdeal.Gen.hostOps1, Cert.KernelIdeal.Gen.hostOps1_1, Cert.ReferenceIdeal.HandRun.ops1h]
     after_results_simp
     rewrite [hw, h3, h6, h26, hb]
     rfl)

set_option maxHeartbeats 8000000 in
/-- A layer's aggregated features, their column mean and their column variance, from the projected features, the edge lists, the coefficients and the bias. -/
theorem layer2 (WK : Valuation Cert.KernelIdeal.τ Cert.KernelIdeal.sig (Elt F)) (WR : Valuation Cert.ReferenceIdeal.τ Cert.ReferenceIdeal.sig (Elt F))
    (hw : WK (Proc.devRef .tc Cert.KernelIdeal.main_v53) = WR (Proc.devRef .tc Cert.ReferenceIdeal.main_v64))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg7) = WR (Proc.devRef .tc Cert.ReferenceIdeal.main_arg7))
    :
    (after Cert.KernelIdeal.Gen.hostOps3_1 (after Cert.KernelIdeal.Gen.hostOps3 WK)) (Proc.devRef .tc Cert.KernelIdeal.main_v69) = after Cert.ReferenceIdeal.HandRun.ops2h WR (Proc.devRef .tc Cert.ReferenceIdeal.main_v80)
    ∧ (after Cert.KernelIdeal.Gen.hostOps3_1 (after Cert.KernelIdeal.Gen.hostOps3 WK)) (Proc.devRef .tc Cert.KernelIdeal.main_v72) = after Cert.ReferenceIdeal.HandRun.ops2h WR (Proc.devRef .tc Cert.ReferenceIdeal.main_v83)
    ∧ (after Cert.KernelIdeal.Gen.hostOps3_1 (after Cert.KernelIdeal.Gen.hostOps3 WK)) (Proc.devRef .tc Cert.KernelIdeal.main_v73) = after Cert.ReferenceIdeal.HandRun.ops2h WR (Proc.devRef .tc Cert.ReferenceIdeal.main_v84) := by
  refine ⟨?_, ?_, ?_⟩ <;>
    (simp only [Cert.KernelIdeal.Gen.hostOps3, Cert.KernelIdeal.Gen.hostOps3_1, Cert.ReferenceIdeal.HandRun.ops2h]
     after_results_simp
     rewrite [hw, h3, h6, h26, hb]
     rfl)

set_option maxHeartbeats 8000000 in
/-- A layer's aggregated features, their column mean and their column variance, from the projected features, the edge lists, the coefficients and the bias. -/
theorem layer3 (WK : Valuation Cert.KernelIdeal.τ Cert.KernelIdeal.sig (Elt F)) (WR : Valuation Cert.ReferenceIdeal.τ Cert.ReferenceIdeal.sig (Elt F))
    (hw : WK (Proc.devRef .tc Cert.KernelIdeal.main_v79) = WR (Proc.devRef .tc Cert.ReferenceIdeal.main_v101))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg11) = WR (Proc.devRef .tc Cert.ReferenceIdeal.main_arg11))
    :
    (after Cert.KernelIdeal.Gen.hostOps5_1 (after Cert.KernelIdeal.Gen.hostOps5 WK)) (Proc.devRef .tc Cert.KernelIdeal.main_v95) = after Cert.ReferenceIdeal.HandRun.ops3h WR (Proc.devRef .tc Cert.ReferenceIdeal.main_v117)
    ∧ (after Cert.KernelIdeal.Gen.hostOps5_1 (after Cert.KernelIdeal.Gen.hostOps5 WK)) (Proc.devRef .tc Cert.KernelIdeal.main_v98) = after Cert.ReferenceIdeal.HandRun.ops3h WR (Proc.devRef .tc Cert.ReferenceIdeal.main_v120)
    ∧ (after Cert.KernelIdeal.Gen.hostOps5_1 (after Cert.KernelIdeal.Gen.hostOps5 WK)) (Proc.devRef .tc Cert.KernelIdeal.main_v99) = after Cert.ReferenceIdeal.HandRun.ops3h WR (Proc.devRef .tc Cert.ReferenceIdeal.main_v121) := by
  refine ⟨?_, ?_, ?_⟩ <;>
    (simp only [Cert.KernelIdeal.Gen.hostOps5, Cert.KernelIdeal.Gen.hostOps5_1, Cert.ReferenceIdeal.HandRun.ops3h]
     after_results_simp
     rewrite [hw, h3, h6, h26, hb]
     rfl)

end Cert.Agree

end
-- ==== Proof.Assembly.lean ====
/-
  The two idealized programs compute the same vector. Both build the same edge lists and normalisation coefficients
  from the edge index; in each of the three layers the projected features agree (the kernel's tiled product and the
  reference's contraction are the same whole-array product), hence the aggregated features and their column
  statistics agree (the same host operations on agreeing inputs), hence the normalised, clamped features agree; the two
  head layers and the final reshape are again the same functions of agreeing inputs.
-/
import proofs.«109477_j27238682591805_1_alg».proof.Defs
import proofs.«109477_j27238682591805_1_alg».proof.Proof.KernelRun
import proofs.«109477_j27238682591805_1_alg».proof.Proof.KernelStages
import proofs.«109477_j27238682591805_1_alg».proof.Proof.RefRun
import proofs.«109477_j27238682591805_1_alg».proof.Proof.RefStages
import proofs.«109477_j27238682591805_1_alg».proof.Proof.AgreeHost

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.Stages

/-- From memories agreeing on the eighteen arguments, the kernel's result buffer after its last segment and the
    reference's result buffer after its last operation hold the same vector. -/
theorem result_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (a16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (a17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))) :
    W21 m ρ c (Proc.devRef .tc Cert.KernelIdeal.main_v109)
      = after (Cert.ReferenceIdeal.HandRun.ops (F := Ideal)) (launchContents m' c) (Proc.devRef .tc Cert.ReferenceIdeal.main_v147) := by
  rw [Cert.ReferenceIdeal.Stages.after_ops]
  generalize hR0 : launchContents m' c = R0
  have r0 : ∀ b : Ref Cert.ReferenceIdeal.sig .tc, R0 (Proc.devRef .tc b) = m' ((c.tc : Thread Cert.ReferenceIdeal.nD Cert.ReferenceIdeal.τ).loc b) := by
    intro b; rw [← hR0]
  -- the edge lists and the normalisation coefficients
  obtain ⟨p3, p6, p26⟩ := Cert.Agree.prologue (F := Ideal) (W0 m ρ c) R0 (by rw [r0]; exact a1.symm)
  have p3 : W1 m ρ c (Proc.devRef .tc Cert.KernelIdeal.main_v3) = Q0 R0 (Proc.devRef .tc Cert.ReferenceIdeal.main_v3) := p3
  have p6 : W1 m ρ c (Proc.devRef .tc Cert.KernelIdeal.main_v6) = Q0 R0 (Proc.devRef .tc Cert.ReferenceIdeal.main_v6) := p6
  have p26 : W1 m ρ c (Proc.devRef .tc Cert.KernelIdeal.main_v26) = Q0 R0 (Proc.devRef .tc Cert.ReferenceIdeal.main_v26) := p26

  -- layer 1
  have hw1 : W2 m ρ c (Proc.devRef .tc Cert.KernelIdeal.main_v27) = Q1 R0 (Proc.devRef .tc Cert.ReferenceIdeal.main_v27) := by
    rw [Cert.KernelIdeal.Stages.proj1 m ρ c, Cert.ReferenceIdeal.Stages.dot1 R0, Cert.ReferenceIdeal.Stages.arg0_at0 R0, Cert.ReferenceIdeal.Stages.arg2_at0 R0, r0, r0, a0, a2]
  have l1 := Cert.Agree.layer1 (F := Ideal) (W2 m ρ c) (Q1 R0) hw1
    ((Cert.KernelIdeal.Carry.v3_2_1 m ρ c).trans (p3.trans (Cert.ReferenceIdeal.Stages.v3_1_0 R0).symm))
    ((Cert.KernelIdeal.Carry.v6_2_1 m ρ c).trans (p6.trans (Cert.ReferenceIdeal.Stages.v6_1_0 R0).symm))
    ((Cert.KernelIdeal.Carry.v26_2_1 m ρ c).trans (p26.trans (Cert.ReferenceIdeal.Stages.v26_1_0 R0).symm))
    ((Cert.KernelIdeal.Carry.arg3_at2 m ρ c).trans (a3.symm.trans ((r0 _).symm.trans (Cert.ReferenceIdeal.Stages.arg3_at1 R0).symm)))
  have eA1 : W4 m ρ c (Proc.devRef .tc Cert.KernelIdeal.main_v43) = Q2 R0 (Proc.devRef .tc Cert.ReferenceIdeal.main_v43) := l1.1
  have eM1 : W4 m ρ c (Proc.devRef .tc Cert.KernelIdeal.main_v46) = Q2 R0 (Proc.devRef .tc Cert.ReferenceIdeal.main_v46) := l1.2.1
  have eV1 : W4 m ρ c (Proc.devRef .tc Cert.KernelIdeal.main_v47) = Q2 R0 (Proc.devRef .tc Cert.ReferenceIdeal.main_v47) := l1.2.2
  have n1 : W6 m ρ c (Proc.devRef .tc Cert.KernelIdeal.main_v52) = Q3 R0 (Proc.devRef .tc Cert.ReferenceIdeal.main_v63) := by
    rw [Cert.KernelIdeal.Stages.norm1 m ρ c, Cert.ReferenceIdeal.Stages.norm1 R0, Cert.ReferenceIdeal.Stages.arg4_at2 R0, Cert.ReferenceIdeal.Stages.arg5_at2 R0, eA1, eM1, eV1, r0, r0, a4, a5]

  -- layer 2
  have hw2 : W7 m ρ c (Proc.devRef .tc Cert.KernelIdeal.main_v53) = Q4 R0 (Proc.devRef .tc Cert.ReferenceIdeal.main_v64) := by
    rw [Cert.KernelIdeal.Stages.proj2 m ρ c, Cert.ReferenceIdeal.Stages.dot2 R0, Cert.ReferenceIdeal.Stages.arg6_at3 R0, r0, a6, n1]
  have l2 := Cert.Agree.layer2 (F := Ideal) (W7 m ρ c) (Q4 R0) hw2
    ((Cert.KernelIdeal.Carry.v3_7_1 m ρ c).trans (p3.trans (Cert.ReferenceIdeal.Stages.v3_4_0 R0).symm))
    ((Cert.KernelIdeal.Carry.v6_7_1 m ρ c).trans (p6.trans (Cert.ReferenceIdeal.Stages.v6_4_0 R0).symm))
    ((Cert.KernelIdeal.Carry.v26_7_1 m ρ c).trans (p26.trans (Cert.ReferenceIdeal.Stages.v26_4_0 R0).symm))
    ((Cert.KernelIdeal.Carry.arg7_at7 m ρ c).trans (a7.symm.trans ((r0 _).symm.trans (Cert.ReferenceIdeal.Stages.arg7_at4 R0).symm)))
  have eA2 : W9 m ρ c (Proc.devRef .tc Cert.KernelIdeal.main_v69) = Q5 R0 (Proc.devRef .tc Cert.ReferenceIdeal.main_v80) := l2.1
  have eM2 : W9 m ρ c (Proc.devRef .tc Cert.KernelIdeal.main_v72) = Q5 R0 (Proc.devRef .tc Cert.ReferenceIdeal.main_v83) := l2.2.1
  have eV2 : W9 m ρ c (Proc.devRef .tc Cert.KernelIdeal.main_v73) = Q5 R0 (Proc.devRef .tc Cert.ReferenceIdeal.main_v84) := l2.2.2
  have n2 : W11 m ρ c (Proc.devRef .tc Cert.KernelIdeal.main_v78) = Q6 R0 (Proc.devRef .tc Cert.ReferenceIdeal.main_v100) := by
    rw [Cert.KernelIdeal.Stages.norm2 m ρ c, Cert.ReferenceIdeal.Stages.norm2 R0, Cert.ReferenceIdeal.Stages.arg8_at5 R0, Cert.ReferenceIdeal.Stages.arg9_at5 R0, eA2, eM2, eV2, r0, r0, a8, a9]

  -- layer 3
  have hw3 : W12 m ρ c (Proc.devRef .tc Cert.KernelIdeal.main_v79) = Q7 R0 (Proc.devRef .tc Cert.ReferenceIdeal.main_v101) := by
    rw [Cert.KernelIdeal.Stages.proj3 m ρ c, Cert.ReferenceIdeal.Stages.dot3 R0, Cert.ReferenceIdeal.Stages.arg10_at6 R0, r0, a10, n2]
  have l3 := Cert.Agree.layer3 (F := Ideal) (W12 m ρ c) (Q7 R0) hw3
    ((Cert.KernelIdeal.Carry.v3_12_1 m ρ c).trans (p3.trans (Cert.ReferenceIdeal.Stages.v3_7_0 R0).symm))
    ((Cert.KernelIdeal.Carry.v6_12_1 m ρ c).trans (p6.trans (Cert.ReferenceIdeal.Stages.v6_7_0 R0).symm))
    ((Cert.KernelIdeal.Carry.v26_12_1 m ρ c).trans (p26.trans (Cert.ReferenceIdeal.Stages.v26_7_0 R0).symm))
    ((Cert.KernelIdeal.Carry.arg11_at12 m ρ c).trans (a11.symm.trans ((r0 _).symm.trans (Cert.ReferenceIdeal.Stages.arg11_at7 R0).symm)))
  have eA3 : W14 m ρ c (Proc.devRef .tc Cert.KernelIdeal.main_v95) = Q8 R0 (Proc.devRef .tc Cert.ReferenceIdeal.main_v117) := l3.1
  have eM3 : W14 m ρ c (Proc.devRef .tc Cert.KernelIdeal.main_v98) = Q8 R0 (Proc.devRef .tc Cert.ReferenceIdeal.main_v120) := l3.2.1
  have eV3 : W14 m ρ c (Proc.devRef .tc Cert.KernelIdeal.main_v99) = Q8 R0 (Proc.devRef .tc Cert.ReferenceIdeal.main_v121) := l3.2.2
  have n3 : W16 m ρ c (Proc.devRef .tc Cert.KernelIdeal.main_v104) = Q9 R0 (Proc.devRef .tc Cert.ReferenceIdeal.main_v137) := by
    rw [Cert.KernelIdeal.Stages.norm3 m ρ c, Cert.ReferenceIdeal.Stages.norm3 R0, Cert.ReferenceIdeal.Stages.arg12_at8 R0, Cert.ReferenceIdeal.Stages.arg13_at8 R0, eA3, eM3, eV3, r0, r0, a12, a13]

  -- the head
  rw [Cert.KernelIdeal.Stages.out m ρ c, Cert.KernelIdeal.Stages.head2 m ρ c, Cert.KernelIdeal.Stages.head1 m ρ c, Cert.ReferenceIdeal.Stages.head R0, Cert.ReferenceIdeal.Stages.arg14_at9 R0, Cert.ReferenceIdeal.Stages.arg15_at9 R0, Cert.ReferenceIdeal.Stages.arg16_at9 R0, Cert.ReferenceIdeal.Stages.arg17_at9 R0,
    r0, r0, r0, r0, a14, a15, a16, a17, n3]

end Cert.Bridge

end
-- ==== Proof.lean ====
/-
  The certificate of the graph-convolution network's kernel against its reference.
  The three frames: the two kernel programs' by their generated frame certificates, the reference's by its run read
  back as a fold of its host operations (no operation writes an argument). The idealization rewrote nothing, so the
  preservation claim is empty. The value claim: at the ideal instance both programs end with the result vector named —
  the kernel's as the fold of its twenty-one segments, each dense region's output array one whole-array function of
  its inputs (a product of the activations with a weight matrix; the normalisation with the clamp at zero; the two head
  layers), the reference's as the fold of its operations — and the two vectors are equal because the host operations
  around the dense stages are the same operations on agreeing inputs and each dense stage is the same function.
-/
import proofs.«109477_j27238682591805_1_alg».proof.Defs
import proofs.«109477_j27238682591805_1_alg».proof.Proof.Gen.Kernel
import proofs.«109477_j27238682591805_1_alg».proof.Proof.Gen.Kernel.Frame
import proofs.«109477_j27238682591805_1_alg».proof.Proof.Gen.KernelIdeal
import proofs.«109477_j27238682591805_1_alg».proof.Proof.Gen.KernelIdeal.Frame
import proofs.«109477_j27238682591805_1_alg».proof.Proof.Gen.ReferenceIdeal
import proofs.«109477_j27238682591805_1_alg».proof.Proof.Gen.Pre_finite_inputs
import proofs.«109477_j27238682591805_1_alg».proof.Proof.Assembly
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m g _ => Cert.ReferenceIdeal.HandRun.frame m g

theorem preserves : Cert.preserves_Kernel_KernelIdeal := trivial

/-- Both idealized programs run, their arguments unchanged, and end with the same result vector. -/
theorem algebraic : Cert.algebraic_KernelIdeal_ReferenceIdeal := by
  intro m g m' g' _ hagree
  refine ⟨fun c => Cert.KernelIdeal.Gen.W21 m g c (Proc.devRef .tc Cert.KernelIdeal.main_v109), ?_, ?_⟩
  · refine (θ_run (Cert.KernelIdeal.defs (F := Ideal)) _ _).mono (fun r h c => ?_) (Cert.KernelIdeal.Whole.run_all m g)
    have hc := h c
    exact ⟨hc _ (Cert.KernelIdeal.Gen.mem_uc Cert.KernelIdeal.main_v109 (by decide)),
      (hc _ (Cert.KernelIdeal.Gen.mem_uc Cert.KernelIdeal.main_arg0 (by decide))).trans (Cert.KernelIdeal.Gen.W21_main_arg0 m g c),
      (hc _ (Cert.KernelIdeal.Gen.mem_uc Cert.KernelIdeal.main_arg1 (by decide))).trans (Cert.KernelIdeal.Gen.W21_main_arg1 m g c),
      (hc _ (Cert.KernelIdeal.Gen.mem_uc Cert.KernelIdeal.main_arg2 (by decide))).trans (Cert.KernelIdeal.Gen.W21_main_arg2 m g c),
      (hc _ (Cert.KernelIdeal.Gen.mem_uc Cert.KernelIdeal.main_arg3 (by decide))).trans (Cert.KernelIdeal.Gen.W21_main_arg3 m g c),
      (hc _ (Cert.KernelIdeal.Gen.mem_uc Cert.KernelIdeal.main_arg4 (by decide))).trans (Cert.KernelIdeal.Gen.W21_main_arg4 m g c),
      (hc _ (Cert.KernelIdeal.Gen.mem_uc Cert.KernelIdeal.main_arg5 (by decide))).trans (Cert.KernelIdeal.Gen.W21_main_arg5 m g c),
      (hc _ (Cert.KernelIdeal.Gen.mem_uc Cert.KernelIdeal.main_arg6 (by decide))).trans (Cert.KernelIdeal.Gen.W21_main_arg6 m g c),
      (hc _ (Cert.KernelIdeal.Gen.mem_uc Cert.KernelIdeal.main_arg7 (by decide))).trans (Cert.KernelIdeal.Gen.W21_main_arg7 m g c),
      (hc _ (Cert.KernelIdeal.Gen.mem_uc Cert.KernelIdeal.main_arg8 (by decide))).trans (Cert.KernelIdeal.Gen.W21_main_arg8 m g c),
      (hc _ (Cert.KernelIdeal.Gen.mem_uc Cert.KernelIdeal.main_arg9 (by decide))).trans (Cert.KernelIdeal.Gen.W21_main_arg9 m g c),
      (hc _ (Cert.KernelIdeal.Gen.mem_uc Cert.KernelIdeal.main_arg10 (by decide))).trans (Cert.KernelIdeal.Gen.W21_main_arg10 m g c),
      (hc _ (Cert.KernelIdeal.Gen.mem_uc Cert.KernelIdeal.main_arg11 (by decide))).trans (Cert.KernelIdeal.Gen.W21_main_arg11 m g c),
      (hc _ (Cert.KernelIdeal.Gen.mem_uc Cert.KernelIdeal.main_arg12 (by decide))).trans (Cert.KernelIdeal.Gen.W21_main_arg12 m g c),
      (hc _ (Cert.KernelIdeal.Gen.mem_uc Cert.KernelIdeal.main_arg13 (by decide))).trans (Cert.KernelIdeal.Gen.W21_main_arg13 m g c),
      (hc _ (Cert.KernelIdeal.Gen.mem_uc Cert.KernelIdeal.main_arg14 (by decide))).trans (Cert.KernelIdeal.Gen.W21_main_arg14 m g c),
      (hc _ (Cert.KernelIdeal.Gen.mem_uc Cert.KernelIdeal.main_arg15 (by decide))).trans (Cert.KernelIdeal.Gen.W21_main_arg15 m g c),
      (hc _ (Cert.KernelIdeal.Gen.mem_uc Cert.KernelIdeal.main_arg16 (by decide))).trans (Cert.KernelIdeal.Gen.W21_main_arg16 m g c),
      (hc _ (Cert.KernelIdeal.Gen.mem_uc Cert.KernelIdeal.main_arg17 (by decide))).trans (Cert.KernelIdeal.Gen.W21_main_arg17 m g c)⟩
  · refine (θ_run (Cert.ReferenceIdeal.defs (F := Ideal)) _ _).mono (fun r h c => ?_) (Cert.ReferenceIdeal.HandRun.run m' g')
    exact ⟨(h c Cert.ReferenceIdeal.main_v147).trans
        (Cert.Bridge.result_agree m g m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2).symm,
      (h c Cert.ReferenceIdeal.main_arg0).trans (Cert.ReferenceIdeal.HandRun.kept_arg0 _),
      (h c Cert.ReferenceIdeal.main_arg1).trans (Cert.ReferenceIdeal.HandRun.kept_arg1 _),
      (h c Cert.ReferenceIdeal.main_arg2).trans (Cert.ReferenceIdeal.HandRun.kept_arg2 _),
      (h c Cert.ReferenceIdeal.main_arg3).trans (Cert.ReferenceIdeal.HandRun.kept_arg3 _),
      (h c Cert.ReferenceIdeal.main_arg4).trans (Cert.ReferenceIdeal.HandRun.kept_arg4 _),
      (h c Cert.ReferenceIdeal.main_arg5).trans (Cert.ReferenceIdeal.HandRun.kept_arg5 _),
      (h c Cert.ReferenceIdeal.main_arg6).trans (Cert.ReferenceIdeal.HandRun.kept_arg6 _),
      (h c Cert.ReferenceIdeal.main_arg7).trans (Cert.ReferenceIdeal.HandRun.kept_arg7 _),
      (h c Cert.ReferenceIdeal.main_arg8).trans (Cert.ReferenceIdeal.HandRun.kept_arg8 _),
      (h c Cert.ReferenceIdeal.main_arg9).trans (Cert.ReferenceIdeal.HandRun.kept_arg9 _),
      (h c Cert.ReferenceIdeal.main_arg10).trans (Cert.ReferenceIdeal.HandRun.kept_arg10 _),
      (h c Cert.ReferenceIdeal.main_arg11).trans (Cert.ReferenceIdeal.HandRun.kept_arg11 _),
      (h c Cert.ReferenceIdeal.main_arg12).trans (Cert.ReferenceIdeal.HandRun.kept_arg12 _),
      (h c Cert.ReferenceIdeal.main_arg13).trans (Cert.ReferenceIdeal.HandRun.kept_arg13 _),
      (h c Cert.ReferenceIdeal.main_arg14).trans (Cert.ReferenceIdeal.HandRun.kept_arg14 _),
      (h c Cert.ReferenceIdeal.main_arg15).trans (Cert.ReferenceIdeal.HandRun.kept_arg15 _),
      (h c Cert.ReferenceIdeal.main_arg16).trans (Cert.ReferenceIdeal.HandRun.kept_arg16 _),
      (h c Cert.ReferenceIdeal.main_arg17).trans (Cert.ReferenceIdeal.HandRun.kept_arg17 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
